-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S64x64 : Shape := ⟨2, ![64, 64]⟩
abbrev S_ : Shape := ⟨0, ![]⟩
abbrev S64x64x64 : Shape := ⟨3, ![64, 64, 64]⟩
abbrev S64x4096 : Shape := ⟨2, ![64, 4096]⟩
abbrev S1x4096x128 : Shape := ⟨3, ![1, 4096, 128]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S64x1 : Shape := ⟨2, ![64, 1]⟩
abbrev S1x64x64 : Shape := ⟨3, ![1, 64, 64]⟩
abbrev S2x64x64 : Shape := ⟨3, ![2, 64, 64]⟩
abbrev S2x64 : Shape := ⟨2, ![2, 64]⟩
abbrev S2 : Shape := ⟨1, ![2]⟩
abbrev S2x1 : Shape := ⟨2, ![2, 1]⟩
abbrev S2x1x1 : Shape := ⟨3, ![2, 1, 1]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S64x64x64, .f32⟩
  | .hbm, ⟨11, _⟩ => ⟨S64x4096, .f32⟩
  | .hbm, ⟨12, _⟩ => ⟨S_, .f32⟩
  | .hbm, ⟨13, _⟩ => ⟨S64x4096, .f32⟩
  | .hbm, ⟨14, _⟩ => ⟨S64x4096, .f32⟩
  | .hbm, ⟨15, _⟩ => ⟨S4x4096x1024, .f32⟩
  | .local _ .vmem, ⟨0, _⟩ => ⟨S64x4096, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S64x64 : S_.BroadcastsInDim S64x64 (![] : Fin 0 → Fin S64x64.rank)
  bcast_S64x64_S64x64x64_0_1 : S64x64.BroadcastsInDim S64x64x64 (![0, 1] : Fin 2 → Fin S64x64x64.rank)
  shapeCasts_S64x64x64_S64x4096 : S64x64x64.ShapeCasts S64x4096
  bcast_S_S64x4096 : S_.BroadcastsInDim S64x4096 (![] : Fin 0 → Fin S64x4096.rank)
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  slices_S4096x128_o0_0_S4096x64 : S4096x128.Slices ![0, 0] S4096x64
  bitsLt_bf16_f32 : FTy.bits .bf16 < FTy.bits .f32
  reduces_S4096x64_S4096 : S4096x64.Reduces [1] S4096
  shapeCasts_S4096_S4096x1 : S4096.ShapeCasts S4096x1
  broadcasts_S4096x1_S4096x64 : S4096x1.Broadcasts S4096x64
  reduces_S64x64_S64 : S64x64.Reduces [1] S64
  shapeCasts_S64_S64x1 : S64.ShapeCasts S64x1
  broadcasts_S64x1_S64x64 : S64x1.Broadcasts S64x64
  reduces_S64x4096_S64 : S64x4096.Reduces [1] S64
  broadcasts_S64x1_S64x4096 : S64x1.Broadcasts S64x4096
  slices_S4096x128_o0_64_S4096x64 : S4096x128.Slices ![0, 64] S4096x64
  shapeCasts_S64x64_S1x64x64 : S64x64.ShapeCasts S1x64x64
  concatenates_S1x64x64_S1x64x64_S2x64x64_d0 : Shape.Concatenates [S1x64x64, S1x64x64] S2x64x64 0
  iota_S64x64_d0_w32 : S64x64.Iotas .tc 32 [0]
  iota_S64x64_d1_w32 : S64x64.Iotas .tc 32 [1]
  shapeCasts_S1x64x64_S1x64x64 : S1x64x64.ShapeCasts S1x64x64
  broadcasts_S1x64x64_S2x64x64 : S1x64x64.Broadcasts S2x64x64
  reduces_S2x64x64_S2x64 : S2x64x64.Reduces [1] S2x64
  reduces_S2x64_S2 : S2x64.Reduces [1] S2
  shapeCasts_S2_S2x1 : S2.ShapeCasts S2x1
  shapeCasts_S2x1_S2x1x1 : S2x1.ShapeCasts S2x1x1
  transposes_S2x64x64_p0_2_1_S2x64x64 : S2x64x64.Transposes [0, 2, 1] S2x64x64
  broadcasts_S2x1x1_S2x64x64 : S2x1x1.Broadcasts S2x64x64
  slices_S2x64x64_o0_0_0_S1x64x64 : S2x64x64.Slices ![0, 0, 0] S1x64x64
  shapeCasts_S1x64x64_S64x64 : S1x64x64.ShapeCasts S64x64
  slices_S2x64x64_o1_0_0_S1x64x64 : S2x64x64.Slices ![1, 0, 0] S1x64x64
  concatenates_S4096x64_S4096x64_S4096x128_d1 : Shape.Concatenates [S4096x64, S4096x64] S4096x128 1
  shapeCasts_S4096x128_S1x4096x128 : S4096x128.ShapeCasts S1x4096x128
  dot_S64x4096_S4096x64_S64x64_1_0_0_1_n_n_wf : DotDims.WF S64x4096 S4096x64 S64x64 [1] [0] [0] [1] [] []
  dot_S4096x64_S64x64_S4096x64_1_1_0_0_n_n_wf : DotDims.WF S4096x64 S64x64 S4096x64 [1] [1] [0] [0] [] []
  dot_S64x64_S64x64_S64x64_1_1_0_0_n_n_wf : DotDims.WF S64x64 S64x64 S64x64 [1] [1] [0] [0] [] []
  dot_S64x64_S4096x64_S64x4096_1_1_0_0_n_n_wf : DotDims.WF S64x64 S4096x64 S64x4096 [1] [1] [0] [0] [] []
  dot_S2x64x64_S2x64x64_S2x64x64_2_1_1_2_0_0_wf : DotDims.WF S2x64x64 S2x64x64 S2x64x64 [2] [1] [1] [2] [0] [0]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x1024.size a
  hwx0_1 : ∀ i : grid0.Coords, EltTy.bits .f32 = 32 ∨ (Rect.block (s := S4x4096x1024) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S4x4096x1024.size a
  hwx0_2 : ∀ i : grid0.Coords, EltTy.bits .f32 = 32 ∨ (Rect.block (s := S4x4096x1024) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x4096x1024.size a
  hwx0_3 : ∀ i : grid0.Coords, EltTy.bits .f32 = 32 ∨ (Rect.block (s := S4x4096x1024) S1x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S4x4096x1024.size a
  hwx0_4 : ∀ i : grid0.Coords, EltTy.bits .f32 = 32 ∨ (Rect.block (s := S4x4096x1024) S1x4096x128.size (cc0_transform_4 i) (hinb0_4 i)).WholeWords (EltTy.packing .f32)

variable [Facts₀]

def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v9) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x64x64x64 : Shape := ⟨5, ![4, 16, 64, 64, 64]⟩
abbrev S4x16x64x64 : Shape := ⟨4, ![4, 16, 64, 64]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x64x1 : Shape := ⟨4, ![4, 16, 64, 1]⟩
abbrev S4x16x64x4096 : Shape := ⟨4, ![4, 16, 64, 4096]⟩
abbrev S64x64 : Shape := ⟨2, ![64, 64]⟩
abbrev S4x16 : Shape := ⟨2, ![4, 16]⟩
abbrev S4x16x1x1 : Shape := ⟨4, ![4, 16, 1, 1]⟩
abbrev S1x1x64x64 : Shape := ⟨4, ![1, 1, 64, 64]⟩

abbrev nBuf : Space → Nat
  | .hbm => 242
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S4x4096x16x64, .f32⟩
  | 4 => ⟨S4x16x4096x64, .f32⟩
  | 5 => ⟨S_, .f32⟩
  | 6 => ⟨S4x16x4096x64, .f32⟩
  | 7 => ⟨S4x16x4096x64, .f32⟩
  | 8 => ⟨S4x4096x16x64, .f32⟩
  | 9 => ⟨S4x16x4096x64, .f32⟩
  | 10 => ⟨S4x4096x16x64, .f32⟩
  | 11 => ⟨S4x16x4096x64, .f32⟩
  | 12 => ⟨S4x16x64x64x64, .f32⟩
  | 13 => ⟨S_, .f32⟩
  | 14 => ⟨S4x16x64x64, .f32⟩
  | 15 => ⟨S_, .f32⟩
  | 16 => ⟨S4x16x64x64, .f32⟩
  | 17 => ⟨S4x16x64x64, .f32⟩
  | 18 => ⟨S4x16x64x64x64, .f32⟩
  | 19 => ⟨S_, .f32⟩
  | 20 => ⟨S4x16x64x64, .f32⟩
  | 21 => ⟨S_, .f32⟩
  | 22 => ⟨S4x16x64x64, .f32⟩
  | 23 => ⟨S4x16x64x64, .f32⟩
  | 24 => ⟨S4x16x4096x64, .f32⟩
  | 25 => ⟨S_, .f32⟩
  | 26 => ⟨S4x16x4096, .f32⟩
  | 27 => ⟨S_, .f32⟩
  | 28 => ⟨S4x16x4096, .f32⟩
  | 29 => ⟨S4x16x4096, .f32⟩
  | 30 => ⟨S4x16x4096x1, .f32⟩
  | 31 => ⟨S4x16x4096x64, .f32⟩
  | 32 => ⟨S4x16x4096x64, .f32⟩
  | 33 => ⟨S4x16x4096x64, .f32⟩
  | 34 => ⟨S_, .f32⟩
  | 35 => ⟨S4x16x4096, .f32⟩
  | 36 => ⟨S4x16x4096x1, .f32⟩
  | 37 => ⟨S4x16x4096x64, .f32⟩
  | 38 => ⟨S4x16x4096x64, .f32⟩
  | 39 => ⟨S4x16x64x64, .f32⟩
  | 40 => ⟨S_, .f32⟩
  | 41 => ⟨S4x16x64, .f32⟩
  | 42 => ⟨S_, .f32⟩
  | 43 => ⟨S4x16x64, .f32⟩
  | 44 => ⟨S4x16x64, .f32⟩
  | 45 => ⟨S4x16x64x1, .f32⟩
  | 46 => ⟨S4x16x64x64, .f32⟩
  | 47 => ⟨S4x16x64x64, .f32⟩
  | 48 => ⟨S4x16x64x64, .f32⟩
  | 49 => ⟨S_, .f32⟩
  | 50 => ⟨S4x16x64, .f32⟩
  | 51 => ⟨S4x16x64x1, .f32⟩
  | 52 => ⟨S4x16x64x64, .f32⟩
  | 53 => ⟨S4x16x64x64, .f32⟩
  | 54 => ⟨S4x16x64x4096, .f32⟩
  | 55 => ⟨S_, .f32⟩
  | 56 => ⟨S4x16x64, .f32⟩
  | 57 => ⟨S_, .f32⟩
  | 58 => ⟨S4x16x64, .f32⟩
  | 59 => ⟨S4x16x64, .f32⟩
  | 60 => ⟨S4x16x64x1, .f32⟩
  | 61 => ⟨S4x16x64x4096, .f32⟩
  | 62 => ⟨S4x16x64x4096, .f32⟩
  | 63 => ⟨S4x16x64x4096, .f32⟩
  | 64 => ⟨S_, .f32⟩
  | 65 => ⟨S4x16x64, .f32⟩
  | 66 => ⟨S4x16x64x1, .f32⟩
  | 67 => ⟨S4x16x64x4096, .f32⟩
  | 68 => ⟨S4x16x64x4096, .f32⟩
  | 69 => ⟨S64x64, .i32⟩
  | 70 => ⟨S64x64, .i32⟩
  | 71 => ⟨S_, .i32⟩
  | 72 => ⟨S64x64, .i32⟩
  | 73 => ⟨S64x64, .i32⟩
  | 74 => ⟨S64x64, .i1⟩
  | 75 => ⟨S64x64, .f32⟩
  | 76 => ⟨S_, .f32⟩
  | 77 => ⟨S4x16x64, .f32⟩
  | 78 => ⟨S_, .f32⟩
  | 79 => ⟨S4x16, .f32⟩
  | 80 => ⟨S4x16x1x1, .f32⟩
  | 81 => ⟨S_, .f32⟩
  | 82 => ⟨S4x16x1x1, .f32⟩
  | 83 => ⟨S4x16x1x1, .f32⟩
  | 84 => ⟨S4x16x64x64, .f32⟩
  | 85 => ⟨S4x16x64x64, .f32⟩
  | 86 => ⟨S4x16x64x64, .f32⟩
  | 87 => ⟨S4x16x64x64, .f32⟩
  | 88 => ⟨S_, .f32⟩
  | 89 => ⟨S4x16x64x64, .f32⟩
  | 90 => ⟨S4x16x64x64, .f32⟩
  | 91 => ⟨S_, .f32⟩
  | 92 => ⟨S64x64, .f32⟩
  | 93 => ⟨S64x64, .f32⟩
  | 94 => ⟨S_, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S1x1x64x64, .f32⟩
  | 101 => ⟨S4x16x64x64, .f32⟩
  | 102 => ⟨S4x16x64x64, .f32⟩
  | 103 => ⟨S4x16x64x64, .f32⟩
  | 104 => ⟨S1x1x64x64, .f32⟩
  | 105 => ⟨S4x16x64x64, .f32⟩
  | 106 => ⟨S4x16x64x64, .f32⟩
  | 107 => ⟨S4x16x64x64, .f32⟩
  | 108 => ⟨S1x1x64x64, .f32⟩
  | 109 => ⟨S4x16x64x64, .f32⟩
  | 110 => ⟨S4x16x64x64, .f32⟩
  | 111 => ⟨S4x16x64x64, .f32⟩
  | 112 => ⟨S4x16x64x64, .f32⟩
  | 113 => ⟨S_, .f32⟩
  | 114 => ⟨S4x16x64x64, .f32⟩
  | 115 => ⟨S4x16x64x64, .f32⟩
  | 116 => ⟨S_, .f32⟩
  | 117 => ⟨S64x64, .f32⟩
  | 118 => ⟨S64x64, .f32⟩
  | 119 => ⟨S_, .f32⟩
  | 120 => ⟨S64x64, .f32⟩
  | 121 => ⟨S64x64, .f32⟩
  | 122 => ⟨S_, .f32⟩
  | 123 => ⟨S64x64, .f32⟩
  | 124 => ⟨S64x64, .f32⟩
  | 125 => ⟨S1x1x64x64, .f32⟩
  | 126 => ⟨S4x16x64x64, .f32⟩
  | 127 => ⟨S4x16x64x64, .f32⟩
  | _ => ⟨S4x4096x1024, .f32⟩

abbrev hbmTy0_1 (i : Nat) : BufTy := match i % 128 with
  | 0 => ⟨S4x16x64x64, .f32⟩
  | 1 => ⟨S1x1x64x64, .f32⟩
  | 2 => ⟨S4x16x64x64, .f32⟩
  | 3 => ⟨S4x16x64x64, .f32⟩
  | 4 => ⟨S4x16x64x64, .f32⟩
  | 5 => ⟨S1x1x64x64, .f32⟩
  | 6 => ⟨S4x16x64x64, .f32⟩
  | 7 => ⟨S4x16x64x64, .f32⟩
  | 8 => ⟨S4x16x64x64, .f32⟩
  | 9 => ⟨S4x16x64x64, .f32⟩
  | 10 => ⟨S_, .f32⟩
  | 11 => ⟨S4x16x64x64, .f32⟩
  | 12 => ⟨S4x16x64x64, .f32⟩
  | 13 => ⟨S_, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S_, .f32⟩
  | 20 => ⟨S64x64, .f32⟩
  | 21 => ⟨S64x64, .f32⟩
  | 22 => ⟨S1x1x64x64, .f32⟩
  | 23 => ⟨S4x16x64x64, .f32⟩
  | 24 => ⟨S4x16x64x64, .f32⟩
  | 25 => ⟨S4x16x64x64, .f32⟩
  | 26 => ⟨S1x1x64x64, .f32⟩
  | 27 => ⟨S4x16x64x64, .f32⟩
  | 28 => ⟨S4x16x64x64, .f32⟩
  | 29 => ⟨S4x16x64x64, .f32⟩
  | 30 => ⟨S1x1x64x64, .f32⟩
  | 31 => ⟨S4x16x64x64, .f32⟩
  | 32 => ⟨S4x16x64x64, .f32⟩
  | 33 => ⟨S4x16x64x64, .f32⟩
  | 34 => ⟨S4x16x64x64, .f32⟩
  | 35 => ⟨S_, .f32⟩
  | 36 => ⟨S4x16x64x64, .f32⟩
  | 37 => ⟨S4x16x64x64, .f32⟩
  | 38 => ⟨S_, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S1x1x64x64, .f32⟩
  | 48 => ⟨S4x16x64x64, .f32⟩
  | 49 => ⟨S4x16x64x64, .f32⟩
  | 50 => ⟨S4x16x64x64, .f32⟩
  | 51 => ⟨S1x1x64x64, .f32⟩
  | 52 => ⟨S4x16x64x64, .f32⟩
  | 53 => ⟨S4x16x64x64, .f32⟩
  | 54 => ⟨S4x16x64x64, .f32⟩
  | 55 => ⟨S1x1x64x64, .f32⟩
  | 56 => ⟨S4x16x64x64, .f32⟩
  | 57 => ⟨S4x16x64x64, .f32⟩
  | 58 => ⟨S4x16x64x64, .f32⟩
  | 59 => ⟨S4x16x64x64, .f32⟩
  | 60 => ⟨S_, .f32⟩
  | 61 => ⟨S4x16x64x64, .f32⟩
  | 62 => ⟨S4x16x64x64, .f32⟩
  | 63 => ⟨S_, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S1x1x64x64, .f32⟩
  | 73 => ⟨S4x16x64x64, .f32⟩
  | 74 => ⟨S4x16x64x64, .f32⟩
  | 75 => ⟨S4x16x64x64, .f32⟩
  | 76 => ⟨S1x1x64x64, .f32⟩
  | 77 => ⟨S4x16x64x64, .f32⟩
  | 78 => ⟨S4x16x64x64, .f32⟩
  | 79 => ⟨S4x16x64x64, .f32⟩
  | 80 => ⟨S1x1x64x64, .f32⟩
  | 81 => ⟨S4x16x64x64, .f32⟩
  | 82 => ⟨S4x16x64x64, .f32⟩
  | 83 => ⟨S4x16x64x64, .f32⟩
  | 84 => ⟨S4x16x64x64, .f32⟩
  | 85 => ⟨S_, .f32⟩
  | 86 => ⟨S4x16x64x64, .f32⟩
  | 87 => ⟨S4x16x64x64, .f32⟩
  | 88 => ⟨S_, .f32⟩
  | 89 => ⟨S64x64, .f32⟩
  | 90 => ⟨S64x64, .f32⟩
  | 91 => ⟨S_, .f32⟩
  | 92 => ⟨S64x64, .f32⟩
  | 93 => ⟨S64x64, .f32⟩
  | 94 => ⟨S_, .f32⟩
  | 95 => ⟨S64x64, .f32⟩
  | 96 => ⟨S64x64, .f32⟩
  | 97 => ⟨S1x1x64x64, .f32⟩
  | 98 => ⟨S4x16x64x64, .f32⟩
  | 99 => ⟨S4x16x64x64, .f32⟩
  | 100 => ⟨S4x16x64x64, .f32⟩
  | 101 => ⟨S1x1x64x64, .f32⟩
  | 102 => ⟨S4x16x64x64, .f32⟩
  | 103 => ⟨S4x16x64x64, .f32⟩
  | 104 => ⟨S4x16x64x64, .f32⟩
  | 105 => ⟨S1x1x64x64, .f32⟩
  | 106 => ⟨S4x16x64x64, .f32⟩
  | 107 => ⟨S4x16x64x64, .f32⟩
  | 108 => ⟨S4x16x64x64, .f32⟩
  | 109 => ⟨S4x16x4096x64, .f32⟩
  | 110 => ⟨S4x16x64x64, .f32⟩
  | 111 => ⟨S4x16x4096x64, .f32⟩
  | 112 => ⟨S4x4096x16x64, .f32⟩
  | 113 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_cst_18 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_20 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_cst_23 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_24 : Ref sig .tc := ⟨.hbm, 138, rfl⟩
abbrev main_v109 : Ref sig .tc := ⟨.hbm, 139, rfl⟩
abbrev main_v110 : Ref sig .tc := ⟨.hbm, 140, rfl⟩
abbrev main_cst_25 : Ref sig .tc := ⟨.hbm, 141, rfl⟩
abbrev main_v111 : Ref sig .tc := ⟨.hbm, 142, rfl⟩
abbrev main_v112 : Ref sig .tc := ⟨.hbm, 143, rfl⟩
abbrev main_cst_26 : Ref sig .tc := ⟨.hbm, 144, rfl⟩
abbrev main_v113 : Ref sig .tc := ⟨.hbm, 145, rfl⟩
abbrev main_v114 : Ref sig .tc := ⟨.hbm, 146, rfl⟩
abbrev main_cst_27 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_28 : Ref sig .tc := ⟨.hbm, 163, rfl⟩
abbrev main_v130 : Ref sig .tc := ⟨.hbm, 164, rfl⟩
abbrev main_v131 : Ref sig .tc := ⟨.hbm, 165, rfl⟩
abbrev main_cst_29 : Ref sig .tc := ⟨.hbm, 166, rfl⟩
abbrev main_v132 : Ref sig .tc := ⟨.hbm, 167, rfl⟩
abbrev main_v133 : Ref sig .tc := ⟨.hbm, 168, rfl⟩
abbrev main_cst_30 : Ref sig .tc := ⟨.hbm, 169, rfl⟩
abbrev main_v134 : Ref sig .tc := ⟨.hbm, 170, rfl⟩
abbrev main_v135 : Ref sig .tc := ⟨.hbm, 171, rfl⟩
abbrev main_cst_31 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_32 : Ref sig .tc := ⟨.hbm, 188, rfl⟩
abbrev main_v151 : Ref sig .tc := ⟨.hbm, 189, rfl⟩
abbrev main_v152 : Ref sig .tc := ⟨.hbm, 190, rfl⟩
abbrev main_cst_33 : Ref sig .tc := ⟨.hbm, 191, rfl⟩
abbrev main_v153 : Ref sig .tc := ⟨.hbm, 192, rfl⟩
abbrev main_v154 : Ref sig .tc := ⟨.hbm, 193, rfl⟩
abbrev main_cst_34 : Ref sig .tc := ⟨.hbm, 194, rfl⟩
abbrev main_v155 : Ref sig .tc := ⟨.hbm, 195, rfl⟩
abbrev main_v156 : Ref sig .tc := ⟨.hbm, 196, rfl⟩
abbrev main_cst_35 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_36 : Ref sig .tc := ⟨.hbm, 213, rfl⟩
abbrev main_v172 : Ref sig .tc := ⟨.hbm, 214, rfl⟩
abbrev main_v173 : Ref sig .tc := ⟨.hbm, 215, rfl⟩
abbrev main_cst_37 : Ref sig .tc := ⟨.hbm, 216, rfl⟩
abbrev main_v174 : Ref sig .tc := ⟨.hbm, 217, rfl⟩
abbrev main_v175 : Ref sig .tc := ⟨.hbm, 218, rfl⟩
abbrev main_cst_38 : Ref sig .tc := ⟨.hbm, 219, rfl⟩
abbrev main_v176 : Ref sig .tc := ⟨.hbm, 220, rfl⟩
abbrev main_v177 : Ref sig .tc := ⟨.hbm, 221, rfl⟩
abbrev main_cst_39 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩

abbrev nD : Nat := 1
abbrev τ : Topo := Topo.v7x

variable {F : FTy → Type} [FloatOps F]

class Facts₀ : Prop where
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  bcast_S_S4x16x4096x64 : S_.BroadcastsInDim S4x16x4096x64 (![] : Fin 0 → Fin S4x16x4096x64.rank)
  shapeCasts_S4x16x4096x64_S4x16x64x64x64 : S4x16x4096x64.ShapeCasts S4x16x64x64x64
  reducesTo_S4x16x64x64x64_S4x16x64x64_d3 : S4x16x64x64x64.ReducesTo [3] S4x16x64x64
  h_S_ : 0 < S_.numel
  bcast_S_S4x16x64x64 : S_.BroadcastsInDim S4x16x64x64 (![] : Fin 0 → Fin S4x16x64x64.rank)
  reducesTo_S4x16x4096x64_S4x16x4096_d3 : S4x16x4096x64.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  reducesTo_S4x16x64x4096_S4x16x64_d3 : S4x16x64x4096.ReducesTo [3] S4x16x64
  bcast_S4x16x64x1_S4x16x64x4096_0_1_2_3 : S4x16x64x1.BroadcastsInDim S4x16x64x4096 (![0, 1, 2, 3] : Fin 4 → Fin S4x16x64x4096.rank)
  bcast_S_S64x64 : S_.BroadcastsInDim S64x64 (![] : Fin 0 → Fin S64x64.rank)
  reducesTo_S4x16x64x64_S4x16x64_d2 : S4x16x64x64.ReducesTo [2] S4x16x64
  reducesTo_S4x16x64_S4x16_d2 : S4x16x64.ReducesTo [2] S4x16
  bcast_S4x16_S4x16x1x1_0_1 : S4x16.BroadcastsInDim S4x16x1x1 (![0, 1] : Fin 2 → Fin S4x16x1x1.rank)
  bcast_S_S4x16x1x1 : S_.BroadcastsInDim S4x16x1x1 (![] : Fin 0 → Fin S4x16x1x1.rank)
  transposes_S4x16x64x64_S4x16x64x64_0_1_3_2 : S4x16x64x64.Transposes [0, 1, 3, 2] S4x16x64x64
  bcast_S4x16x1x1_S4x16x64x64_0_1_2_3 : S4x16x1x1.BroadcastsInDim S4x16x64x64 (![0, 1, 2, 3] : Fin 4 → Fin S4x16x64x64.rank)
  bcast_S64x64_S1x1x64x64_2_3 : S64x64.BroadcastsInDim S1x1x64x64 (![2, 3] : Fin 2 → Fin S1x1x64x64.rank)
  bcast_S1x1x64x64_S4x16x64x64_0_1_2_3 : S1x1x64x64.BroadcastsInDim S4x16x64x64 (![0, 1, 2, 3] : Fin 4 → Fin S4x16x64x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x16x4096x64_S4x16x64x64_S4x16x4096x64_3_3_2_2_01_01_wf : DotDims.WF S4x16x4096x64 S4x16x64x64 S4x16x4096x64 [3] [3] [2] [2] [0, 1] [0, 1]
  dot_S4x16x64x64_S4x16x64x64_S4x16x64x64_3_3_2_2_01_01_wf : DotDims.WF S4x16x64x64 S4x16x64x64 S4x16x64x64 [3] [3] [2] [2] [0, 1] [0, 1]
  dot_S4x16x64x64_S4x16x4096x64_S4x16x64x4096_3_3_2_2_01_01_wf : DotDims.WF S4x16x64x64 S4x16x4096x64 S4x16x64x4096 [3] [3] [2] [2] [0, 1] [0, 1]
  dot_S4x16x64x64_S4x16x64x64_S4x16x64x64_3_2_2_3_01_01_wf : DotDims.WF S4x16x64x64 S4x16x64x64 S4x16x64x64 [3] [2] [2] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x16x64x4096_S4x16x4096x64_S4x16x64x64_3_2_2_3_01_01_wf : DotDims.WF S4x16x64x4096 S4x16x4096x64 S4x16x64x64 [3] [2] [2] [3] [0, 1] [0, 1]

variable [Facts₀]

def dot_S4x16x4096x64_S4x16x64x64_S4x16x4096x64_3_3_2_2_01_01 : DotDims S4x16x4096x64 S4x16x64x64 S4x16x4096x64 where
  lhsContracting := [3]
  rhsContracting := [3]
  lhsNonContracting := [2]
  rhsNonContracting := [2]
  lhsBatch := [0, 1]
  rhsBatch := [0, 1]
  wf := dot_S4x16x4096x64_S4x16x64x64_S4x16x4096x64_3_3_2_2_01_01_wf
def dot_S4x16x64x64_S4x16x64x64_S4x16x64x64_3_3_2_2_01_01 : DotDims S4x16x64x64 S4x16x64x64 S4x16x64x64 where
  lhsContracting := [3]
  rhsContracting := [3]
  lhsNonContracting := [2]
  rhsNonContracting := [2]
  lhsBatch := [0, 1]
  rhsBatch := [0, 1]
  wf := dot_S4x16x64x64_S4x16x64x64_S4x16x64x64_3_3_2_2_01_01_wf
def dot_S4x16x64x64_S4x16x4096x64_S4x16x64x4096_3_3_2_2_01_01 : DotDims S4x16x64x64 S4x16x4096x64 S4x16x64x4096 where
  lhsContracting := [3]
  rhsContracting := [3]
  lhsNonContracting := [2]
  rhsNonContracting := [2]
  lhsBatch := [0, 1]
  rhsBatch := [0, 1]
  wf := dot_S4x16x64x64_S4x16x4096x64_S4x16x64x4096_3_3_2_2_01_01_wf
def dot_S4x16x64x64_S4x16x64x64_S4x16x64x64_3_2_2_3_01_01 : DotDims S4x16x64x64 S4x16x64x64 S4x16x64x64 where
  lhsContracting := [3]
  rhsContracting := [2]
  lhsNonContracting := [2]
  rhsNonContracting := [3]
  lhsBatch := [0, 1]
  rhsBatch := [0, 1]
  wf := dot_S4x16x64x64_S4x16x64x64_S4x16x64x64_3_2_2_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x16x64x4096_S4x16x4096x64_S4x16x64x64_3_2_2_3_01_01 : DotDims S4x16x64x4096 S4x16x4096x64 S4x16x64x64 where
  lhsContracting := [3]
  rhsContracting := [2]
  lhsNonContracting := [2]
  rhsNonContracting := [3]
  lhsBatch := [0, 1]
  rhsBatch := [0, 1]
  wf := dot_S4x16x64x4096_S4x16x4096x64_S4x16x64x64_3_2_2_3_01_01_wf

class Facts : Prop extends Facts₀ where

variable [Facts]
-- ==== Proof.LibOnlineSoftmax.lean ====
/- Extended-real algebra for a two-block "online softmax": sums of coerced reals, the float
   constants that occur, the row maximum as a real, `exp` and division on reals, and the identity that
   a rescaled two-block accumulation of `exp (s - m) · v` divided by the accumulated `exp (s - m)` is the
   softmax-weighted sum over both blocks. Everything is stated on `EReal` with the operations of the
   ideal float instance, so that a program's term rewrites into these shapes. -/
import Idealize.ShloMosaic.PureOps.Ideal
import Idealize.ShloMosaic.PureOps.Ideal.Laws

noncomputable section

namespace Cert.Lib.OnlineSoftmax

open Idealize.ShloMosaic
open scoped BigOperators

universe u v

/-! ### Sums of coerced reals -/

/-- A finite sum of real numbers, each read as an extended real, is the real sum read as an
    extended real: the coercion `ℝ → EReal` is additive and sends `0` to `0`. -/
theorem coe_finset_sum {ι : Type u} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The same over a whole finite type: `∑ k, ↑(f k) = ↑(∑ k, f k)`. -/
theorem coe_sum {ι : Type u} [Fintype ι] (f : ι → ℝ) :
    ∑ k, ((f k : ℝ) : EReal) = ((∑ k, f k : ℝ) : EReal) :=
  coe_finset_sum Finset.univ f

/-- A finite sum of products of coerced reals is the coerced sum of the real products:
    `∑ k, ↑(f k) * ↑(g k) = ↑(∑ k, f k * g k)`. -/
theorem coe_sum_mul {ι : Type u} [Fintype ι] (f g : ι → ℝ) :
    ∑ k, (((f k : ℝ) : EReal) * ((g k : ℝ) : EReal)) = ((∑ k, f k * g k : ℝ) : EReal) := by
  rw [← coe_sum]
  exact Finset.sum_congr rfl fun k _ => (EReal.coe_mul _ _).symm

/-- A sum that starts from `0`: `0 + ∑ k, ↑(f k) = ↑(∑ k, f k)`. -/
theorem zero_add_coe_sum {ι : Type u} [Fintype ι] (f : ι → ℝ) :
    (0 : EReal) + ∑ k, ((f k : ℝ) : EReal) = ((∑ k, f k : ℝ) : EReal) := by
  rw [zero_add, coe_sum]

/-! ### The float constants -/

/-- The `bf16` pattern `0x3C80` (sign `0`, exponent field `121`, significand `0`) denotes
    `2 ^ (121 - 127) = 1 / 64`. -/
theorem ofBits_bf16_3C80 : Ideal.ofBits .bf16 0x3C80#16 = ((1 / 64 : ℝ) : EReal) := by
  simp [Ideal.ofBits, Ideal.ieee, -EReal.coe_mul]; norm_num

/-- The `f32` pattern `0x3E000000` (sign `0`, exponent field `124`, significand `0`) denotes
    `2 ^ (124 - 127) = 1 / 8`. -/
theorem ofBits_f32_3E000000 : Ideal.ofBits .f32 0x3E000000#32 = ((1 / 8 : ℝ) : EReal) := by
  simp [Ideal.ofBits, Ideal.ieee, -EReal.coe_mul]; norm_num

/-- The `f32` pattern `0xFF800000` (sign `1`, exponent all ones, significand `0`) denotes `-∞`,
    the bottom of the extended reals. -/
theorem ofBits_f32_FF800000 : Ideal.ofBits .f32 0xFF800000#32 = (⊥ : EReal) := by
  simp [Ideal.ofBits, Ideal.ieee]

/-- The `f32` pattern of all zero bits denotes `0`. -/
theorem ofBits_f32_00000000 : Ideal.ofBits .f32 0x00000000#32 = 0 := Ideal.ofBits_zero_f32

/-! ### Scaling a dot product -/

/-- Scaling one factor of each product by `1/64` and scaling both factors by `1/8` give the same
    sum, because `(1/8) · (1/8) = 1/64`: both are `(∑ d, q d · k d) / 64`. Left form. -/
theorem scaled_dot_left {ι : Type u} [Fintype ι] (q k : ι → ℝ) :
    ∑ d, ((((q d : ℝ) : EReal) * ((1 / 64 : ℝ) : EReal)) * ((k d : ℝ) : EReal))
      = (((∑ d, q d * k d) / 64 : ℝ) : EReal) := by
  rw [Finset.sum_div, ← coe_sum]
  refine Finset.sum_congr rfl fun d _ => ?_
  rw [← EReal.coe_mul, ← EReal.coe_mul]
  congr 1; ring

/-- Right form: `∑ d, (q d · (1/8)) · (k d · (1/8)) = (∑ d, q d · k d) / 64`. -/
theorem scaled_dot_right {ι : Type u} [Fintype ι] (q k : ι → ℝ) :
    ∑ d, ((((q d : ℝ) : EReal) * ((1 / 8 : ℝ) : EReal)) * (((k d : ℝ) : EReal) * ((1 / 8 : ℝ) : EReal)))
      = (((∑ d, q d * k d) / 64 : ℝ) : EReal) := by
  rw [Finset.sum_div, ← coe_sum]
  refine Finset.sum_congr rfl fun d _ => ?_
  rw [← EReal.coe_mul, ← EReal.coe_mul, ← EReal.coe_mul]
  congr 1; ring

/-- The two scalings agree: `∑ d, (q d · (1/64)) · k d = ∑ d, (q d · (1/8)) · (k d · (1/8))`. -/
theorem scaled_dot_eq {ι : Type u} [Fintype ι] (q k : ι → ℝ) :
    ∑ d, ((((q d : ℝ) : EReal) * ((1 / 64 : ℝ) : EReal)) * ((k d : ℝ) : EReal))
      = ∑ d, ((((q d : ℝ) : EReal) * ((1 / 8 : ℝ) : EReal)) * (((k d : ℝ) : EReal) * ((1 / 8 : ℝ) : EReal))) := by
  rw [scaled_dot_left, scaled_dot_right]

/-! ### A maximum of reals is a real -/

/-- The maximum of `-∞` and a real is that real. -/
theorem max_bot_coe (r : ℝ) : max (⊥ : EReal) (r : EReal) = (r : EReal) := max_eq_right bot_le

/-- The maximum of a real and `-∞` is that real. -/
theorem max_coe_bot (r : ℝ) : max (r : EReal) (⊥ : EReal) = (r : EReal) := max_eq_left bot_le

/-- The maximum of two coerced reals is the coerced maximum: the coercion is monotone. -/
theorem max_coe_coe (a b : ℝ) : max (a : EReal) (b : EReal) = ((max a b : ℝ) : EReal) :=
  (Monotone.map_max (fun _ _ h => EReal.coe_le_coe_iff.mpr h)).symm

/-- Folding `max` from `-∞` over a nonempty finite set of extended reals, each of which is a real,
    gives a real: the set's greatest element. -/
theorem exists_fold_max_eq_coe' {ι : Type u} (s : Finset ι) (hs : s.Nonempty) (g : ι → EReal)
    (hg : ∀ k ∈ s, ∃ r : ℝ, g k = (r : EReal)) :
    ∃ r : ℝ, s.fold max (⊥ : EReal) g = (r : EReal) := by
  classical
  induction s using Finset.induction_on with
  | empty => exact absurd hs Finset.not_nonempty_empty
  | insert a s ha ih =>
    obtain ⟨ra, hra⟩ := hg a (Finset.mem_insert_self a s)
    rw [Finset.fold_insert ha, hra]
    rcases s.eq_empty_or_nonempty with rfl | hne
    · exact ⟨ra, by rw [Finset.fold_empty, max_coe_bot]⟩
    · obtain ⟨r, hr⟩ := ih hne fun k hk => hg k (Finset.mem_insert_of_mem hk)
      exact ⟨max ra r, by rw [hr, max_coe_coe]⟩

/-- Folding `max` from `-∞` over a nonempty finite type of coerced reals gives a coerced real. -/
theorem exists_fold_max_eq_coe {ι : Type u} [Fintype ι] [Nonempty ι] (f : ι → ℝ) :
    ∃ r : ℝ, (Finset.univ.fold max (⊥ : EReal) fun k => ((f k : ℝ) : EReal)) = (r : EReal) :=
  exists_fold_max_eq_coe' Finset.univ Finset.univ_nonempty _ fun k _ => ⟨f k, rfl⟩

/-- The same when the fold starts from the `f32` pattern of `-∞` and runs over any function whose
    values are reals — the shape a row maximum of a float vector takes at the ideal values. -/
theorem exists_fold_max_ofBits_eq_coe {ι : Type u} [Fintype ι] [Nonempty ι] (g : ι → EReal)
    (hg : ∀ k, ∃ r : ℝ, g k = (r : EReal)) :
    ∃ r : ℝ, Finset.univ.fold max (FloatOps.ofBits (F := Ideal) .f32 0xFF800000#32) g = (r : EReal) := by
  rw [Ideal.ofBits_def, ofBits_f32_FF800000]
  exact exists_fold_max_eq_coe' Finset.univ Finset.univ_nonempty g fun k _ => hg k

/-! ### `exp`, subtraction and division on reals -/

/-- The difference of two coerced reals is the coerced difference. -/
theorem coe_sub_coe (a b : ℝ) : (a : EReal) - (b : EReal) = ((a - b : ℝ) : EReal) := (EReal.coe_sub a b).symm

/-- `exp` of a real is the real exponential. -/
theorem exp_coe (r : ℝ) : Ideal.exp (r : EReal) = ((Real.exp r : ℝ) : EReal) := rfl

/-- `exp` of a difference of reals is the real exponential of the difference. -/
theorem exp_coe_sub_coe (a b : ℝ) : Ideal.exp ((a : EReal) - (b : EReal)) = ((Real.exp (a - b) : ℝ) : EReal) := by
  rw [coe_sub_coe, exp_coe]

/-- `-∞` minus a real is `-∞`, whose exponential is `0`. -/
theorem exp_bot_sub_coe (r : ℝ) : Ideal.exp ((⊥ : EReal) - (r : EReal)) = 0 := by
  rw [EReal.bot_sub, Ideal.exp_bot]

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ### Two blocks of an online softmax -/

/-- The real identity behind the two-block accumulation. With `a = exp (m₁ - m₂)`, the numerator
    `a · ∑ₖ exp (s₀ k - m₁) · v₀ k + ∑ₖ exp (s₁ k - m₂) · v₁ k` is `exp (M - m₂)` times
    `∑ₖ exp (s k - M) · v k` over both blocks (`exp (m₁ - m₂) · exp (s - m₁) = exp (s - m₂) = exp (M - m₂) · exp (s - M)`),
    and the denominator is the same multiple of `∑ₖ exp (s k - M)`; the common factor cancels. No shift
    `m₁`, `m₂`, `M` needs to be a maximum. -/
theorem real_two_blocks {ι₀ : Type u} {ι₁ : Type v} [Fintype ι₀] [Fintype ι₁]
    (s₀ v₀ : ι₀ → ℝ) (s₁ v₁ : ι₁ → ℝ) (m₁ m₂ M : ℝ) :
    (Real.exp (m₁ - m₂) * (∑ k, Real.exp (s₀ k - m₁) * v₀ k) + ∑ k, Real.exp (s₁ k - m₂) * v₁ k)
        / (Real.exp (m₁ - m₂) * (∑ k, Real.exp (s₀ k - m₁)) + ∑ k, Real.exp (s₁ k - m₂))
      = ∑ k : ι₀ ⊕ ι₁, Real.exp (Sum.elim s₀ s₁ k - M) / (∑ j : ι₀ ⊕ ι₁, Real.exp (Sum.elim s₀ s₁ j - M))
          * Sum.elim v₀ v₁ k := by
  have hc : Real.exp (M - m₂) ≠ 0 := (Real.exp_pos _).ne'
  have h0 : ∀ k, Real.exp (m₁ - m₂) * Real.exp (s₀ k - m₁) = Real.exp (M - m₂) * Real.exp (s₀ k - M) := by
    intro k; rw [← Real.exp_add, ← Real.exp_add]; congr 1; ring
  have h1 : ∀ k, Real.exp (s₁ k - m₂) = Real.exp (M - m₂) * Real.exp (s₁ k - M) := by
    intro k; rw [← Real.exp_add]; congr 1; ring
  have hnum : Real.exp (m₁ - m₂) * (∑ k, Real.exp (s₀ k - m₁) * v₀ k) + ∑ k, Real.exp (s₁ k - m₂) * v₁ k
      = Real.exp (M - m₂) * ((∑ k, Real.exp (s₀ k - M) * v₀ k) + ∑ k, Real.exp (s₁ k - M) * v₁ k) := by
    rw [mul_add, Finset.mul_sum, Finset.mul_sum, Finset.mul_sum]
    congr 1
    · exact Finset.sum_congr rfl fun k _ => by rw [← mul_assoc, h0, mul_assoc]
    · exact Finset.sum_congr rfl fun k _ => by rw [h1, mul_assoc]
  have hden : Real.exp (m₁ - m₂) * (∑ k, Real.exp (s₀ k - m₁)) + ∑ k, Real.exp (s₁ k - m₂)
      = Real.exp (M - m₂) * ((∑ k, Real.exp (s₀ k - M)) + ∑ k, Real.exp (s₁ k - M)) := by
    rw [mul_add, Finset.mul_sum, Finset.mul_sum, Finset.mul_sum]
    congr 1
    · exact Finset.sum_congr rfl fun k _ => h0 k
    · exact Finset.sum_congr rfl fun k _ => h1 k
  rw [hnum, hden, mul_div_mul_left _ _ hc, Fintype.sum_sum_type, Fintype.sum_sum_type]
  simp only [Sum.elim_inl, Sum.elim_inr]
  rw [add_div, Finset.sum_div, Finset.sum_div]
  congr 1 <;> exact Finset.sum_congr rfl fun k _ => (div_mul_eq_mul_div _ _ _).symm

/-- The accumulated denominator of two blocks is positive as soon as one block has a term: every
    `exp` is positive. -/
theorem den_pos {ι₀ : Type u} {ι₁ : Type v} [Fintype ι₀] [Fintype ι₁] [Nonempty (ι₀ ⊕ ι₁)]
    (s₀ : ι₀ → ℝ) (s₁ : ι₁ → ℝ) (m₁ m₂ : ℝ) :
    0 < Real.exp (m₁ - m₂) * (∑ k, Real.exp (s₀ k - m₁)) + ∑ k, Real.exp (s₁ k - m₂) := by
  have h0 : 0 ≤ ∑ k, Real.exp (s₀ k - m₁) := Finset.sum_nonneg fun _ _ => (Real.exp_pos _).le
  have h1 : 0 ≤ ∑ k, Real.exp (s₁ k - m₂) := Finset.sum_nonneg fun _ _ => (Real.exp_pos _).le
  obtain ⟨x⟩ := ‹Nonempty (ι₀ ⊕ ι₁)›
  cases x with
  | inl i =>
    haveI : Nonempty ι₀ := ⟨i⟩
    have h : 0 < ∑ k, Real.exp (s₀ k - m₁) := Finset.sum_pos (fun _ _ => Real.exp_pos _) Finset.univ_nonempty
    exact add_pos_of_pos_of_nonneg (mul_pos (Real.exp_pos _) h) h1
  | inr i =>
    haveI : Nonempty ι₁ := ⟨i⟩
    have h : 0 < ∑ k, Real.exp (s₁ k - m₂) := Finset.sum_pos (fun _ _ => Real.exp_pos _) Finset.univ_nonempty
    exact add_pos_of_nonneg_of_pos (mul_nonneg (Real.exp_pos _).le h0) h

/-- Two blocks of an online softmax, on the extended reals. The first block starts from the previous
    maximum `-∞` (so its rescaling factor `exp (-∞ - m₁)` is `0`) and zero accumulators; the second
    rescales by `exp (m₁ - m₂)`. The accumulated weighted sum divided by the accumulated weight is the
    softmax-weighted sum `∑ₖ (exp (s k - M) / ∑ⱼ exp (s j - M)) · v k` over the two blocks together, for
    any real shifts `m₁`, `m₂`, `M`: all terms are reals, the shifts cancel (`real_two_blocks`), and the
    denominators are positive reals. -/
theorem two_blocks {ι₀ : Type u} {ι₁ : Type v} [Fintype ι₀] [Fintype ι₁] [Nonempty (ι₀ ⊕ ι₁)]
    (s₀ v₀ : ι₀ → ℝ) (s₁ v₁ : ι₁ → ℝ) (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : ι₀ ⊕ ι₁,
          Ideal.div (Ideal.exp (((Sum.elim s₀ s₁ k : ℝ) : EReal) - (M : EReal)))
              (∑ j : ι₀ ⊕ ι₁, Ideal.exp (((Sum.elim s₀ s₁ j : ℝ) : EReal) - (M : EReal)))
            * ((Sum.elim v₀ v₁ k : ℝ) : EReal) := by
  have hden := den_pos s₀ s₁ m₁ m₂
  have hZ : 0 < ∑ j : ι₀ ⊕ ι₁, Real.exp (Sum.elim s₀ s₁ j - M) :=
    Finset.sum_pos (fun _ _ => Real.exp_pos _) Finset.univ_nonempty
  simp only [exp_coe_sub_coe, exp_bot_sub_coe, zero_mul, zero_add, ← EReal.coe_mul, coe_sum, ← EReal.coe_add]
  rw [div_coe_coe _ hden.ne']
  simp only [div_coe_coe _ hZ.ne', ← EReal.coe_mul, coe_sum]
  rw [real_two_blocks s₀ v₀ s₁ v₁ m₁ m₂ M]

/-- The same statement when every accumulated sum is written as an initial value `0` plus the sum
    (`0 + x = x`). -/
theorem two_blocks_zero_add {ι₀ : Type u} {ι₁ : Type v} [Fintype ι₀] [Fintype ι₁] [Nonempty (ι₀ ⊕ ι₁)]
    (s₀ v₀ : ι₀ → ℝ) (s₁ v₁ : ι₁ → ℝ) (m₁ m₂ M : ℝ) :
    Ideal.div
        (Ideal.exp ((m₁ : EReal) - (m₂ : EReal))
            * (Ideal.exp ((⊥ : EReal) - (m₁ : EReal)) * 0
                + (0 + ∑ k, Ideal.exp ((s₀ k : EReal) - (m₁ : EReal)) * (v₀ k : EReal)))
          + (0 + ∑ k, Ideal.exp ((s₁ k : EReal) - (m₂ : EReal)) * (v₁ k : EReal)))
        (Ideal.exp ((m₁ : EReal) - (m₂ : EReal))
            * (Ideal.exp ((⊥ : EReal) - (m₁ : EReal)) * 0
                + (0 + ∑ k, Ideal.exp ((s₀ k : EReal) - (m₁ : EReal))))
          + (0 + ∑ k, Ideal.exp ((s₁ k : EReal) - (m₂ : EReal))))
      = ∑ k : ι₀ ⊕ ι₁,
          Ideal.div (Ideal.exp (((Sum.elim s₀ s₁ k : ℝ) : EReal) - (M : EReal)))
              (0 + ∑ j : ι₀ ⊕ ι₁, Ideal.exp (((Sum.elim s₀ s₁ j : ℝ) : EReal) - (M : EReal)))
            * ((Sum.elim v₀ v₁ k : ℝ) : EReal) := by
  simp only [zero_add]
  exact two_blocks s₀ v₀ s₁ v₁ m₁ m₂ M

/-- Two consecutive blocks of `n₀` and `n₁` keys against one row of `n₀ + n₁` keys: the sum over
    `Fin (n₀ + n₁)` splits into its first `n₀` indices (`Fin.castAdd`) and its last `n₁`
    (`Fin.natAdd`), which are the two blocks' own indices. The blocks' scores and values are given
    as functions of their own with the equations that tie them to the row's. -/
theorem two_blocks_fin (n₀ n₁ : ℕ) [NeZero n₀] (s₀ v₀ : Fin n₀ → ℝ) (s₁ v₁ : Fin n₁ → ℝ)
    (s v : Fin (n₀ + n₁) → ℝ)
    (hs₀ : ∀ k, s (Fin.castAdd n₁ k) = s₀ k) (hs₁ : ∀ k, s (Fin.natAdd n₀ k) = s₁ k)
    (hv₀ : ∀ k, v (Fin.castAdd n₁ k) = v₀ k) (hv₁ : ∀ k, v (Fin.natAdd n₀ k) = v₁ k) (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : Fin (n₀ + n₁),
          Ideal.div (Ideal.exp ((s k : EReal) - (M : EReal)))
              (∑ j : Fin (n₀ + n₁), Ideal.exp ((s j : EReal) - (M : EReal)))
            * (v k : EReal) := by
  rw [two_blocks s₀ v₀ s₁ v₁ m₁ m₂ M]
  simp only [Fintype.sum_sum_type, Fin.sum_univ_add, Sum.elim_inl, Sum.elim_inr, hs₀, hs₁, hv₀, hv₁]

/-- Two blocks of `1024` keys against a row of `2048` keys (`1024 + 1024 = 2048`). -/
theorem two_blocks_1024 (s₀ v₀ s₁ v₁ : Fin 1024 → ℝ) (s v : Fin 2048 → ℝ)
    (hs₀ : ∀ k : Fin 1024, s (Fin.castAdd 1024 k) = s₀ k) (hs₁ : ∀ k : Fin 1024, s (Fin.natAdd 1024 k) = s₁ k)
    (hv₀ : ∀ k : Fin 1024, v (Fin.castAdd 1024 k) = v₀ k) (hv₁ : ∀ k : Fin 1024, v (Fin.natAdd 1024 k) = v₁ k)
    (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : Fin 2048,
          Ideal.div (Ideal.exp ((s k : EReal) - (M : EReal)))
              (∑ j : Fin 2048, Ideal.exp ((s j : EReal) - (M : EReal)))
            * (v k : EReal) :=
  two_blocks_fin 1024 1024 s₀ v₀ s₁ v₁ s v hs₀ hs₁ hv₀ hv₁ m₁ m₂ M

/-- The index maps of that split, by value: the first block's key `k` is the row's key `k`. -/
theorem castAdd_1024_val (k : Fin 1024) : ((Fin.castAdd 1024 k : Fin 2048)).val = k.val := rfl
/-- The second block's key `k` is the row's key `1024 + k`. -/
theorem natAdd_1024_val (k : Fin 1024) : ((Fin.natAdd 1024 k : Fin 2048)).val = 1024 + k.val := rfl

end Cert.Lib.OnlineSoftmax

end
-- ==== Proof.NysSpec.lean ====
/-
  Landmark ("Nystrom") attention for one head, as functions of matrices of extended reals.

  For a head with queries q, keys k and values v (4096 rows of 64 entries), and the pooled queries and
  keys qlm, klm (64 landmarks, each the mean of 64 consecutive rows), the three kernels are the row
  softmaxes of q klmᵀ, qlm klmᵀ and qlm kᵀ, and the result is

      (softmax(q klmᵀ) · Z) · (softmax(qlm kᵀ) · v),

  Z being six steps of the iteration  V ↦ (V/4) (13 I − KV (15 I − KV (7 I − KV)))  from
  V₀ = Kᵀ / maxⱼ Σᵢ Kᵢⱼ  with K = softmax(qlm klmᵀ).  A softmax row is exp (s − m) / Σ exp (s − m) with
  m the row maximum, taken from −∞.  Every operation is the one of the ideal float instance, so that each
  program's term, read at an index, rewrites into these shapes without evaluating anything.

  Two ways of pooling occur: the mean of a segment, (Σₛ x (64 l + s)) / 64, and the product with the
  matrix whose row l holds 1/64 on segment l and 0 elsewhere.  On real entries they agree
  (`pool_eq`): the zero entries drop out and the factor 1/64 leaves the sum.  Likewise scaling by the
  word of 1/8 and dividing by the word of 8 agree.
-/
import Idealize.ShloMosaic.PureOps.Ideal
import Idealize.ShloMosaic.PureOps.Ideal.Laws
import Idealize.ShloMosaic.Lib.ValueIdx
import proofs.«128605_j74680891343409_2_alg».proof.Proof.LibOnlineSoftmax

noncomputable section

namespace Cert.Nys

open Idealize.ShloMosaic Idealize.ShloMosaic.ValueIdx
open scoped BigOperators

/-- An a × b matrix of extended reals. -/
abbrev Mat (a b : ℕ) := Fin a → Fin b → EReal

/-- The float words that occur, each kept as the value of its word. -/
abbrev wNegInf : EReal := Ideal.ofBits .f32 0xFF800000#32
abbrev wZero : EReal := Ideal.ofBits .f32 0x00000000#32
abbrev wOne : EReal := Ideal.ofBits .f32 0x3F800000#32
abbrev w7 : EReal := Ideal.ofBits .f32 0x40E00000#32
abbrev w15 : EReal := Ideal.ofBits .f32 0x41700000#32
abbrev w13 : EReal := Ideal.ofBits .f32 0x41500000#32
abbrev wQuarter : EReal := Ideal.ofBits .f32 0x3E800000#32
abbrev wEighth : EReal := Ideal.ofBits .f32 0x3E000000#32
abbrev w8 : EReal := Ideal.ofBits .f32 0x41000000#32
abbrev w64 : EReal := Ideal.ofBits .f32 0x42800000#32

/-- A · B. -/
def mm {a k b : ℕ} (A : Mat a k) (B : Mat k b) : Mat a b := fun i j => ∑ t : Fin k, A i t * B t j

/-- A · Bᵀ. -/
def mmT {a k b : ℕ} (A : Mat a k) (B : Mat b k) : Mat a b := fun i j => ∑ t : Fin k, A i t * B j t

/-- The maximum of finitely many extended reals, folded from −∞. -/
def vmax {n : ℕ} (f : Fin n → EReal) : EReal := (Finset.univ : Finset (Fin n)).fold max wNegInf f

/-- The shift of a softmax row: its maximum, once more compared with −∞. -/
def rowShift {b : ℕ} (r : Fin b → EReal) : EReal := max wNegInf (vmax r)

/-- The exponentials of a row's entries after the shift. -/
def expRow {a b : ℕ} (S : Mat a b) : Mat a b := fun i j => Ideal.exp (S i j - rowShift (S i))

/-- The row softmax. -/
def smax {a b : ℕ} (S : Mat a b) : Mat a b := fun i j => Ideal.div (expRow S i j) (∑ t : Fin b, expRow S i t)

/-- The identity matrix. -/
def eye (n : ℕ) : Mat n n := fun i j => if i = j then 1 else 0

/-- One step of the iteration for the pseudo-inverse of K, from the current V. -/
def nsStep (K V : Mat 64 64) : Mat 64 64 :=
  mm (fun i j => wQuarter * V i j)
    (fun i j => w13 * eye 64 i j
      - mm (mm K V) (fun i j => w15 * eye 64 i j
          - mm (mm K V) (fun i j => w7 * eye 64 i j - mm K V i j) i j) i j)

/-- The starting point: Kᵀ divided by the largest column sum of K. -/
def nsInit (K : Mat 64 64) : Mat 64 64 :=
  fun i j => Ideal.div wOne (vmax fun t => ∑ s : Fin 64, K s t) * K j i

/-- Six steps. -/
def ns (K : Mat 64 64) : Mat 64 64 :=
  nsStep K (nsStep K (nsStep K (nsStep K (nsStep K (nsStep K (nsInit K))))))

/-- The attention of one head from its scaled queries, keys, values and the pooled queries and keys. -/
def attn (q k v : Mat 4096 64) (qlm klm : Mat 64 64) : Mat 4096 64 :=
  mm (mm (smax (mmT q klm)) (ns (smax (mmT qlm klm)))) (mm (smax (mmT qlm k)) v)

/-- Row s of segment l. -/
def seg (l s : Fin 64) : Fin 4096 := ⟨l.val * 64 + s.val, by have := l.isLt; have := s.isLt; omega⟩

/-- The segment a row lies in. -/
def segOf (n : Fin 4096) : Fin 64 := ⟨n.val / 64, by have := n.isLt; omega⟩

/-- Pooling as the mean of each segment. -/
def poolMean (x : Mat 4096 64) : Mat 64 64 := fun l d => Ideal.div (∑ s : Fin 64, x (seg l s) d) w64

/-- The pooling matrix: row l holds the quotient of 1 by 64 on segment l, of 0 by 64 elsewhere. -/
def poolMat : Mat 64 4096 := fun l n => Ideal.div (eye 64 l (segOf n)) w64

/-! ### Heads of a block and of an array

A block of the kernel is 1 × 4096 × 128: two adjacent heads side by side, head g in columns 64 g … 64 g + 63.
An argument array is 4 × 4096 × 1024: sixteen heads side by side, head h in channels 64 h … 64 h + 63. -/

/-- Column d of head g within a block. -/
def col (g : Fin 2) (d : Fin 64) : Fin 128 := ⟨g.val * 64 + d.val, by have := g.isLt; have := d.isLt; omega⟩

/-- Channel d of head h within an array. -/
def chan (h : Fin 16) (d : Fin 64) : Fin 1024 := ⟨h.val * 64 + d.val, by have := h.isLt; have := d.isLt; omega⟩

/-- Head g of a block. -/
def blkHead (x : (⟨3, ![1, 4096, 128]⟩ : Shape).Idx → EReal) (g : Fin 2) : Mat 4096 64 :=
  fun n d => x (ix3 (0 : Fin 1) n (col g d))

/-- Head g of a block, every entry times the word of 1/8. -/
def blkHeadScaled (x : (⟨3, ![1, 4096, 128]⟩ : Shape).Idx → EReal) (g : Fin 2) : Mat 4096 64 :=
  fun n d => x (ix3 (0 : Fin 1) n (col g d)) * wEighth

/-- A 64 × 4096 vector as a matrix. -/
def asMat {a b : ℕ} (x : (⟨2, ![a, b]⟩ : Shape).Idx → EReal) : Mat a b := fun i j => x (ix2 i j)

/-- Head h of batch entry b of an array. -/
def arrHead (A : (⟨3, ![4, 4096, 1024]⟩ : Shape).Idx → EReal) (b : Fin 4) (h : Fin 16) : Mat 4096 64 :=
  fun n d => A (ix3 b n (chan h d))

/-- Head h of batch entry b of an array, every entry divided by the word of 8. -/
def arrHeadDiv8 (A : (⟨3, ![4, 4096, 1024]⟩ : Shape).Idx → EReal) (b : Fin 4) (h : Fin 16) : Mat 4096 64 :=
  fun n d => Ideal.div (A (ix3 b n (chan h d))) w8

/-- What one block's two heads hold after the kernel body, from the pooling matrix P and the three
    blocks: head g's attention with the queries scaled by the word of 1/8 and both poolings products with P. -/
def blockOut (P : Mat 64 4096) (xq xk xv : (⟨3, ![1, 4096, 128]⟩ : Shape).Idx → EReal) (g : Fin 2) : Mat 4096 64 :=
  attn (blkHeadScaled xq g) (blkHead xk g) (blkHead xv g)
    (mm P (blkHeadScaled xq g)) (mm P (blkHead xk g))

/-- The head a channel lies in, and its place there. -/
def headOf (c : Fin 1024) : Fin 16 := ⟨c.val / 64, by have := c.isLt; omega⟩
def inHead (c : Fin 1024) : Fin 64 := ⟨c.val % 64, Nat.mod_lt _ (by norm_num)⟩

/-- The whole result array as one function of the three argument arrays: entry (b, n, c) is row n,
    column c mod 64 of the attention of head c / 64 of batch entry b, the queries divided by the word of 8
    and both poolings the segment means. -/
def G (Q K V : (⟨3, ![4, 4096, 1024]⟩ : Shape).Idx → EReal) : (⟨3, ![4, 4096, 1024]⟩ : Shape).Idx → EReal :=
  fun i =>
    attn (arrHeadDiv8 Q (i 0) (headOf (i 2))) (arrHead K (i 0) (headOf (i 2))) (arrHead V (i 0) (headOf (i 2)))
      (poolMean (arrHeadDiv8 Q (i 0) (headOf (i 2)))) (poolMean (arrHead K (i 0) (headOf (i 2))))
      (i 1) (inHead (i 2))

end Cert.Nys

end
-- ==== Proof.NysLaws.lean ====
/-
  Laws of landmark attention on real entries.

  Pooling 4096 rows into 64 landmarks by the matrix whose row l holds 1/64 on segment l and 0 elsewhere is
  the mean of each segment: writing a row as n = 64 l' + s, the terms with l' ≠ l are 0 · x = 0 and the
  others are (1/64) · x, whose sum is (Σₛ x (64 l + s)) / 64.  Multiplying by the word of 1/8 and dividing
  by the word of 8 agree.  Both hold when the entries are real numbers (no infinity), where the extended
  reals' product distributes over sums.  Consequently one block's two heads, computed with the scaled
  queries and the pooling matrix, are the heads' attention computed with the divided queries and the means.
-/
import proofs.«128605_j74680891343409_2_alg».proof.Proof.NysSpec
import proofs.«128605_j74680891343409_2_alg».proof.Proof.LibOnlineSoftmax

noncomputable section

namespace Cert.Nys

open Idealize.ShloMosaic Idealize.ShloMosaic.ValueIdx Cert.Lib.OnlineSoftmax
open scoped BigOperators

/-! ### The words 64, 8 and 1/8 -/

/-- The f32 pattern 0x42800000 (exponent field 133, significand 0) denotes 2 ^ 6 = 64. -/
theorem w64_eq : w64 = ((64 : ℝ) : EReal) := by
  simp [w64, Ideal.ofBits, Ideal.ieee, -EReal.coe_mul]; norm_num

/-- The f32 pattern 0x41000000 (exponent field 130, significand 0) denotes 2 ^ 3 = 8. -/
theorem w8_eq : w8 = ((8 : ℝ) : EReal) := by
  simp [w8, Ideal.ofBits, Ideal.ieee, -EReal.coe_mul]; norm_num

/-- The f32 pattern 0x3E000000 denotes 1/8. -/
theorem wEighth_eq : wEighth = ((1 / 8 : ℝ) : EReal) := ofBits_f32_3E000000

/-! ### Rows as segment and offset -/

/-- The offset of a row within its segment. -/
def offOf (n : Fin 4096) : Fin 64 := ⟨n.val % 64, Nat.mod_lt _ (by norm_num)⟩

/-- Rows are pairs (segment, offset): n = 64 l + s. -/
def segEquiv : Fin 64 × Fin 64 ≃ Fin 4096 where
  toFun p := seg p.1 p.2
  invFun n := (segOf n, offOf n)
  left_inv p := by
    rcases p with ⟨l, s⟩
    have hl := l.isLt; have hs := s.isLt
    refine Prod.ext (Fin.ext ?_) (Fin.ext ?_)
    · show (l.val * 64 + s.val) / 64 = l.val
      omega
    · show (l.val * 64 + s.val) % 64 = s.val
      omega
  right_inv n := by
    refine Fin.ext ?_
    show n.val / 64 * 64 + n.val % 64 = n.val
    omega

theorem segOf_seg (l s : Fin 64) : segOf (seg l s) = l := by
  have hl := l.isLt; have hs := s.isLt
  refine Fin.ext ?_
  show (l.val * 64 + s.val) / 64 = l.val
  omega

/-! ### Pooling -/

/-- The real identity behind pooling: the weights 1/64 on segment l and 0 elsewhere pick out the
    mean of segment l. -/
theorem real_pool (r : Fin 4096 → ℝ) (l : Fin 64) :
    ∑ n : Fin 4096, (if l = segOf n then (1 / 64 : ℝ) else 0) * r n = (∑ s : Fin 64, r (seg l s)) / 64 := by
  rw [← Equiv.sum_comp segEquiv, Fintype.sum_prod_type]
  rw [Finset.sum_eq_single l]
  · rw [Finset.sum_div]
    refine Finset.sum_congr rfl fun s _ => ?_
    show (if l = segOf (seg l s) then (1 / 64 : ℝ) else 0) * r (seg l s) = r (seg l s) / 64
    rw [segOf_seg, if_pos rfl]; ring
  · intro l' _ hne
    refine Finset.sum_eq_zero fun s _ => ?_
    show (if l = segOf (seg l' s) then (1 / 64 : ℝ) else 0) * r (seg l' s) = 0
    rw [segOf_seg, if_neg (Ne.symm hne), zero_mul]
  · intro h; exact absurd (Finset.mem_univ l) h

/-- An entry of the pooling matrix as a real: 1/64 on the segment, 0 elsewhere. -/
theorem poolMat_apply (l : Fin 64) (n : Fin 4096) :
    poolMat l n = (((if l = segOf n then (1 / 64 : ℝ) else 0) : ℝ) : EReal) := by
  unfold poolMat eye
  rw [w64_eq]
  by_cases h : l = segOf n
  · rw [if_pos h, if_pos h, ← EReal.coe_one, div_coe_coe _ (by norm_num : (64 : ℝ) ≠ 0)]
  · rw [if_neg h, if_neg h, ← EReal.coe_zero, div_coe_coe _ (by norm_num : (64 : ℝ) ≠ 0), zero_div]

/-- Pooling by the matrix is pooling by the mean, on real entries. -/
theorem pool_eq (x : Mat 4096 64) (hx : ∀ n d, ∃ r : ℝ, x n d = (r : EReal)) :
    mm poolMat x = poolMean x := by
  choose r hr using hx
  funext l d
  show ∑ n : Fin 4096, poolMat l n * x n d = Ideal.div (∑ s : Fin 64, x (seg l s) d) w64
  simp only [hr, poolMat_apply]
  rw [coe_sum_mul, coe_sum, w64_eq, div_coe_coe _ (by norm_num : (64 : ℝ) ≠ 0)]
  exact congrArg _ (real_pool (fun n => r n d) l)

/-! ### Scaling -/

/-- Multiplying a real by the word of 1/8 is dividing it by the word of 8. -/
theorem scale_eq (x : EReal) (hx : ∃ r : ℝ, x = (r : EReal)) : x * wEighth = Ideal.div x w8 := by
  obtain ⟨r, rfl⟩ := hx
  rw [wEighth_eq, w8_eq, Ideal.div_coe (by norm_num : (8 : ℝ) ≠ 0)]

/-- A real divided by the word of 8 is a real. -/
theorem div8_real (x : EReal) (hx : ∃ r : ℝ, x = (r : EReal)) : ∃ r : ℝ, Ideal.div x w8 = (r : EReal) := by
  obtain ⟨r, rfl⟩ := hx
  exact ⟨r / 8, by rw [w8_eq, div_coe_coe _ (by norm_num : (8 : ℝ) ≠ 0)]⟩

/-! ### Heads and channels -/

theorem headOf_chan (h : Fin 16) (d : Fin 64) : headOf (chan h d) = h := by
  have hh := h.isLt; have hd := d.isLt
  refine Fin.ext ?_
  show (h.val * 64 + d.val) / 64 = h.val
  omega

theorem inHead_chan (h : Fin 16) (d : Fin 64) : inHead (chan h d) = d := by
  have hh := h.isLt; have hd := d.isLt
  refine Fin.ext ?_
  show (h.val * 64 + d.val) % 64 = d.val
  omega

theorem chan_headOf_inHead (c : Fin 1024) : chan (headOf c) (inHead c) = c := by
  refine Fin.ext ?_
  show c.val / 64 * 64 + c.val % 64 = c.val
  omega

/-! ### One block against the array -/

/-- A block's head g computed by the kernel's formula is head h of batch entry b computed by the
    reference's, when the blocks hold that head's entries of the arrays and Q, K hold reals. -/
theorem blockOut_eq
    (Q K V : (⟨3, ![4, 4096, 1024]⟩ : Shape).Idx → EReal)
    (xq xk xv : (⟨3, ![1, 4096, 128]⟩ : Shape).Idx → EReal)
    (b : Fin 4) (h : Fin 16) (g : Fin 2)
    (hQ : ∀ i, ∃ r : ℝ, Q i = (r : EReal)) (hK : ∀ i, ∃ r : ℝ, K i = (r : EReal))
    (hq : ∀ n d, xq (ix3 (0 : Fin 1) n (col g d)) = Q (ix3 b n (chan h d)))
    (hk : ∀ n d, xk (ix3 (0 : Fin 1) n (col g d)) = K (ix3 b n (chan h d)))
    (hv : ∀ n d, xv (ix3 (0 : Fin 1) n (col g d)) = V (ix3 b n (chan h d))) :
    blockOut poolMat xq xk xv g
      = attn (arrHeadDiv8 Q b h) (arrHead K b h) (arrHead V b h)
          (poolMean (arrHeadDiv8 Q b h)) (poolMean (arrHead K b h)) := by
  have eq : blkHeadScaled xq g = arrHeadDiv8 Q b h := by
    funext n d
    show xq (ix3 (0 : Fin 1) n (col g d)) * wEighth = Ideal.div (Q (ix3 b n (chan h d))) w8
    rw [hq, scale_eq _ (hQ _)]
  have ek : blkHead xk g = arrHead K b h := by
    funext n d; exact hk n d
  have ev : blkHead xv g = arrHead V b h := by
    funext n d; exact hv n d
  unfold blockOut
  rw [eq, ek, ev, pool_eq (arrHeadDiv8 Q b h) (fun n d => div8_real _ (hQ _)),
    pool_eq (arrHead K b h) (fun n d => hK _)]

/-- The result array at (b, n, channel d of head h) is that head's attention at (n, d). -/
theorem G_apply (Q K V : (⟨3, ![4, 4096, 1024]⟩ : Shape).Idx → EReal) (b : Fin 4) (n : Fin 4096)
    (h : Fin 16) (d : Fin 64) :
    G Q K V (ix3 b n (chan h d))
      = attn (arrHeadDiv8 Q b h) (arrHead K b h) (arrHead V b h)
          (poolMean (arrHeadDiv8 Q b h)) (poolMean (arrHead K b h)) n d := by
  show attn (arrHeadDiv8 Q b (headOf (chan h d))) (arrHead K b (headOf (chan h d)))
      (arrHead V b (headOf (chan h d))) (poolMean (arrHeadDiv8 Q b (headOf (chan h d))))
      (poolMean (arrHead K b (headOf (chan h d)))) n (inHead (chan h d)) = _
  rw [headOf_chan, inHead_chan]

end Cert.Nys

end
-- ==== Proof.Finite.lean ====
/-
  From the precondition to real entries.

  The precondition computes, for each of the three argument arrays, the conjunction over all entries of
  |x| < +∞, and states that the conjunction of the three is true.  A conjunction that is true has every
  conjunct true, so every entry x has max x (−x) < +∞.  For x = +∞ and x = −∞ that maximum is +∞ itself;
  hence x is a real number.
-/
import proofs.«128605_j74680891343409_2_alg».proof.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Nys.Finite

open Idealize.ShloMosaic Idealize.ShloMosaic.ValueIdx Cert.Pre_finite_inputs

instance : Subsingleton S_.Idx := ⟨fun a b => funext fun d => d.elim0⟩

/-- An extended real whose absolute value lies below the word of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One entry of the comparison array being true says the entry of the argument is a real. -/
theorem real_of_entry (hb : S_.BroadcastsInDim S4x4096x1024 (![] : Fin 0 → Fin S4x4096x1024.rank))
    (A : FVec Ideal S4x4096x1024 .f32) (i : S4x4096x1024.Idx)
    (e : cmpf .olt (Host.absf A) (broadcastInDim S4x4096x1024 ![] hb (constant (F := Ideal) S_ .f32 0x7F800000#32)) i = 1#1) :
    ∃ r : ℝ, A i = (r : EReal) := by
  have hc : broadcastInDim S4x4096x1024 ![] hb (constant (F := Ideal) S_ .f32 0x7F800000#32) i
      = Ideal.ofBits .f32 0x7F800000#32 := by
    rw [broadcastInDim_apply _ hb _ i ix0 (fun a => a.elim0)]; rfl
  refine real_of_abs_lt (A i) ?_
  rw [← hc]; exact e

/-- Under the precondition every entry of each argument array is a real. -/
theorem reals [Facts] (Q K V : FVec Ideal S4x4096x1024 .f32)
    (h : fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_entry _ Q i (Host.reduce_andi_all _ _ _ _ ix0 h1 i)
  · exact real_of_entry _ K i (Host.reduce_andi_all _ _ _ _ ix0 h2 i)
  · exact real_of_entry _ V i (Host.reduce_andi_all _ _ _ _ ix0 h3 i)

end Cert.Nys.Finite

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.KernMat.lean ====
/- The kernel's matrix products read at an entry: each `tpu.matmul` into a zero accumulator is, at the ideal
   float instance, the plain sum over the contracted coordinate of the operands' products. -/
import proofs.«128605_j74680891343409_2_alg».proof.Proof.Gen.KernelIdeal
import Idealize.ShloMosaic.PureOps.Ideal.Laws
import Idealize.ShloMosaic.Lib.ValueIdx

noncomputable section

namespace Cert.Nys.KernMat

open Idealize.ShloMosaic Idealize.ShloMosaic.ValueIdx Cert.KernelIdeal
open scoped BigOperators

/-- The product by `dot_S64x4096_S4096x64_S64x64_1_0_0_1_n_n` into the zero accumulator, at (i, j): the sum over t of L (i, t) · R (t, j). -/
theorem dot_S64x4096_S4096x64_S64x64_1_0_0_1_n_n_read {φ₁ φ₂ : FTy} (prec : Option ContractPrecision) (L : FVec Ideal S64x4096 φ₁) (R : FVec Ideal S4096x64 φ₂)
    (i : Fin 64) (j : Fin 64) :
    matmul dot_S64x4096_S4096x64_S64x64_1_0_0_1_n_n prec L R (constant S64x64 .f32 0x00000000#32) (ix2 i j) = ∑ t : Fin 4096, L (ix2 i t) * R (ix2 t j) := by
  have hl0 : ∀ (q : S64x64.Idx) (k : dot_S64x4096_S4096x64_S64x64_1_0_0_1_n_n.contr.Idx), (dot_S64x4096_S4096x64_S64x64_1_0_0_1_n_n.lhsIdx q k 0 : ℕ) = q 0 := fun q k => by
    simp [DotDims.lhsIdx, dot_S64x4096_S4096x64_S64x64_1_0_0_1_n_n]; rfl
  have hl1 : ∀ (q : S64x64.Idx) (k : dot_S64x4096_S4096x64_S64x64_1_0_0_1_n_n.contr.Idx), (dot_S64x4096_S4096x64_S64x64_1_0_0_1_n_n.lhsIdx q k 1 : ℕ) = k ⟨0, by decide⟩ := fun q k => by
    simp [DotDims.lhsIdx, dot_S64x4096_S4096x64_S64x64_1_0_0_1_n_n]; rfl
  have hrc : ∀ (q : S64x64.Idx) (k : dot_S64x4096_S4096x64_S64x64_1_0_0_1_n_n.contr.Idx), (dot_S64x4096_S4096x64_S64x64_1_0_0_1_n_n.rhsIdx q k 0 : ℕ) = k ⟨0, by decide⟩ := fun q k => by
    simp [DotDims.rhsIdx, dot_S64x4096_S4096x64_S64x64_1_0_0_1_n_n]; rfl
  have hrf : ∀ (q : S64x64.Idx) (k : dot_S64x4096_S4096x64_S64x64_1_0_0_1_n_n.contr.Idx), (dot_S64x4096_S4096x64_S64x64_1_0_0_1_n_n.rhsIdx q k 1 : ℕ) = q 1 := fun q k => by
    simp [DotDims.rhsIdx, dot_S64x4096_S4096x64_S64x64_1_0_0_1_n_n]; rfl
  refine (Ideal.matmul_constant_zero_apply dot_S64x4096_S4096x64_S64x64_1_0_0_1_n_n prec L R (ix2 i j)).trans ?_
  rw [← Equiv.sum_comp (contrEquiv1 dot_S64x4096_S4096x64_S64x64_1_0_0_1_n_n 4096 rfl rfl).symm]
  refine Finset.sum_congr rfl fun t _ => ?_
  congr 1
  · refine congrArg L (funext fun c => Fin.ext ?_)
    match c with
    | ⟨0, _⟩ => exact hl0 _ _
    | ⟨1, _⟩ => exact (hl1 _ _).trans (contrEquiv1_symm_val dot_S64x4096_S4096x64_S64x64_1_0_0_1_n_n 4096 rfl rfl t)
  · refine congrArg R (funext fun c => Fin.ext ?_)
    match c with
    | ⟨0, _⟩ => exact (hrc _ _).trans (contrEquiv1_symm_val dot_S64x4096_S4096x64_S64x64_1_0_0_1_n_n 4096 rfl rfl t)
    | ⟨1, _⟩ => exact hrf _ _

/-- The product by `dot_S4096x64_S64x64_S4096x64_1_1_0_0_n_n` into the zero accumulator, at (i, j): the sum over t of L (i, t) · R (j, t). -/
theorem dot_S4096x64_S64x64_S4096x64_1_1_0_0_n_n_read {φ₁ φ₂ : FTy} (prec : Option ContractPrecision) (L : FVec Ideal S4096x64 φ₁) (R : FVec Ideal S64x64 φ₂)
    (i : Fin 4096) (j : Fin 64) :
    matmul dot_S4096x64_S64x64_S4096x64_1_1_0_0_n_n prec L R (constant S4096x64 .f32 0x00000000#32) (ix2 i j) = ∑ t : Fin 64, L (ix2 i t) * R (ix2 j t) := by
  have hl0 : ∀ (q : S4096x64.Idx) (k : dot_S4096x64_S64x64_S4096x64_1_1_0_0_n_n.contr.Idx), (dot_S4096x64_S64x64_S4096x64_1_1_0_0_n_n.lhsIdx q k 0 : ℕ) = q 0 := fun q k => by
    simp [DotDims.lhsIdx, dot_S4096x64_S64x64_S4096x64_1_1_0_0_n_n]; rfl
  have hl1 : ∀ (q : S4096x64.Idx) (k : dot_S4096x64_S64x64_S4096x64_1_1_0_0_n_n.contr.Idx), (dot_S4096x64_S64x64_S4096x64_1_1_0_0_n_n.lhsIdx q k 1 : ℕ) = k ⟨0, by decide⟩ := fun q k => by
    simp [DotDims.lhsIdx, dot_S4096x64_S64x64_S4096x64_1_1_0_0_n_n]; rfl
  have hrc : ∀ (q : S4096x64.Idx) (k : dot_S4096x64_S64x64_S4096x64_1_1_0_0_n_n.contr.Idx), (dot_S4096x64_S64x64_S4096x64_1_1_0_0_n_n.rhsIdx q k 1 : ℕ) = k ⟨0, by decide⟩ := fun q k => by
    simp [DotDims.rhsIdx, dot_S4096x64_S64x64_S4096x64_1_1_0_0_n_n]; rfl
  have hrf : ∀ (q : S4096x64.Idx) (k : dot_S4096x64_S64x64_S4096x64_1_1_0_0_n_n.contr.Idx), (dot_S4096x64_S64x64_S4096x64_1_1_0_0_n_n.rhsIdx q k 0 : ℕ) = q 1 := fun q k => by
    simp [DotDims.rhsIdx, dot_S4096x64_S64x64_S4096x64_1_1_0_0_n_n]; rfl
  refine (Ideal.matmul_constant_zero_apply dot_S4096x64_S64x64_S4096x64_1_1_0_0_n_n prec L R (ix2 i j)).trans ?_
  rw [← Equiv.sum_comp (contrEquiv1 dot_S4096x64_S64x64_S4096x64_1_1_0_0_n_n 64 rfl rfl).symm]
  refine Finset.sum_congr rfl fun t _ => ?_
  congr 1
  · refine congrArg L (funext fun c => Fin.ext ?_)
    match c with
    | ⟨0, _⟩ => exact hl0 _ _
    | ⟨1, _⟩ => exact (hl1 _ _).trans (contrEquiv1_symm_val dot_S4096x64_S64x64_S4096x64_1_1_0_0_n_n 64 rfl rfl t)
  · refine congrArg R (funext fun c => Fin.ext ?_)
    match c with
    | ⟨1, _⟩ => exact (hrc _ _).trans (contrEquiv1_symm_val dot_S4096x64_S64x64_S4096x64_1_1_0_0_n_n 64 rfl rfl t)
    | ⟨0, _⟩ => exact hrf _ _

/-- The product by `dot_S64x64_S64x64_S64x64_1_1_0_0_n_n` into the zero accumulator, at (i, j): the sum over t of L (i, t) · R (j, t). -/
theorem dot_S64x64_S64x64_S64x64_1_1_0_0_n_n_read {φ₁ φ₂ : FTy} (prec : Option ContractPrecision) (L : FVec Ideal S64x64 φ₁) (R : FVec Ideal S64x64 φ₂)
    (i : Fin 64) (j : Fin 64) :
    matmul dot_S64x64_S64x64_S64x64_1_1_0_0_n_n prec L R (constant S64x64 .f32 0x00000000#32) (ix2 i j) = ∑ t : Fin 64, L (ix2 i t) * R (ix2 j t) := by
  have hl0 : ∀ (q : S64x64.Idx) (k : dot_S64x64_S64x64_S64x64_1_1_0_0_n_n.contr.Idx), (dot_S64x64_S64x64_S64x64_1_1_0_0_n_n.lhsIdx q k 0 : ℕ) = q 0 := fun q k => by
    simp [DotDims.lhsIdx, dot_S64x64_S64x64_S64x64_1_1_0_0_n_n]; rfl
  have hl1 : ∀ (q : S64x64.Idx) (k : dot_S64x64_S64x64_S64x64_1_1_0_0_n_n.contr.Idx), (dot_S64x64_S64x64_S64x64_1_1_0_0_n_n.lhsIdx q k 1 : ℕ) = k ⟨0, by decide⟩ := fun q k => by
    simp [DotDims.lhsIdx, dot_S64x64_S64x64_S64x64_1_1_0_0_n_n]; rfl
  have hrc : ∀ (q : S64x64.Idx) (k : dot_S64x64_S64x64_S64x64_1_1_0_0_n_n.contr.Idx), (dot_S64x64_S64x64_S64x64_1_1_0_0_n_n.rhsIdx q k 1 : ℕ) = k ⟨0, by decide⟩ := fun q k => by
    simp [DotDims.rhsIdx, dot_S64x64_S64x64_S64x64_1_1_0_0_n_n]; rfl
  have hrf : ∀ (q : S64x64.Idx) (k : dot_S64x64_S64x64_S64x64_1_1_0_0_n_n.contr.Idx), (dot_S64x64_S64x64_S64x64_1_1_0_0_n_n.rhsIdx q k 0 : ℕ) = q 1 := fun q k => by
    simp [DotDims.rhsIdx, dot_S64x64_S64x64_S64x64_1_1_0_0_n_n]; rfl
  refine (Ideal.matmul_constant_zero_apply dot_S64x64_S64x64_S64x64_1_1_0_0_n_n prec L R (ix2 i j)).trans ?_
  rw [← Equiv.sum_comp (contrEquiv1 dot_S64x64_S64x64_S64x64_1_1_0_0_n_n 64 rfl rfl).symm]
  refine Finset.sum_congr rfl fun t _ => ?_
  congr 1
  · refine congrArg L (funext fun c => Fin.ext ?_)
    match c with
    | ⟨0, _⟩ => exact hl0 _ _
    | ⟨1, _⟩ => exact (hl1 _ _).trans (contrEquiv1_symm_val dot_S64x64_S64x64_S64x64_1_1_0_0_n_n 64 rfl rfl t)
  · refine congrArg R (funext fun c => Fin.ext ?_)
    match c with
    | ⟨1, _⟩ => exact (hrc _ _).trans (contrEquiv1_symm_val dot_S64x64_S64x64_S64x64_1_1_0_0_n_n 64 rfl rfl t)
    | ⟨0, _⟩ => exact hrf _ _

/-- The product by `dot_S64x64_S4096x64_S64x4096_1_1_0_0_n_n` into the zero accumulator, at (i, j): the sum over t of L (i, t) · R (j, t). -/
theorem dot_S64x64_S4096x64_S64x4096_1_1_0_0_n_n_read {φ₁ φ₂ : FTy} (prec : Option ContractPrecision) (L : FVec Ideal S64x64 φ₁) (R : FVec Ideal S4096x64 φ₂)
    (i : Fin 64) (j : Fin 4096) :
    matmul dot_S64x64_S4096x64_S64x4096_1_1_0_0_n_n prec L R (constant S64x4096 .f32 0x00000000#32) (ix2 i j) = ∑ t : Fin 64, L (ix2 i t) * R (ix2 j t) := by
  have hl0 : ∀ (q : S64x4096.Idx) (k : dot_S64x64_S4096x64_S64x4096_1_1_0_0_n_n.contr.Idx), (dot_S64x64_S4096x64_S64x4096_1_1_0_0_n_n.lhsIdx q k 0 : ℕ) = q 0 := fun q k => by
    simp [DotDims.lhsIdx, dot_S64x64_S4096x64_S64x4096_1_1_0_0_n_n]; rfl
  have hl1 : ∀ (q : S64x4096.Idx) (k : dot_S64x64_S4096x64_S64x4096_1_1_0_0_n_n.contr.Idx), (dot_S64x64_S4096x64_S64x4096_1_1_0_0_n_n.lhsIdx q k 1 : ℕ) = k ⟨0, by decide⟩ := fun q k => by
    simp [DotDims.lhsIdx, dot_S64x64_S4096x64_S64x4096_1_1_0_0_n_n]; rfl
  have hrc : ∀ (q : S64x4096.Idx) (k : dot_S64x64_S4096x64_S64x4096_1_1_0_0_n_n.contr.Idx), (dot_S64x64_S4096x64_S64x4096_1_1_0_0_n_n.rhsIdx q k 1 : ℕ) = k ⟨0, by decide⟩ := fun q k => by
    simp [DotDims.rhsIdx, dot_S64x64_S4096x64_S64x4096_1_1_0_0_n_n]; rfl
  have hrf : ∀ (q : S64x4096.Idx) (k : dot_S64x64_S4096x64_S64x4096_1_1_0_0_n_n.contr.Idx), (dot_S64x64_S4096x64_S64x4096_1_1_0_0_n_n.rhsIdx q k 0 : ℕ) = q 1 := fun q k => by
    simp [DotDims.rhsIdx, dot_S64x64_S4096x64_S64x4096_1_1_0_0_n_n]; rfl
  refine (Ideal.matmul_constant_zero_apply dot_S64x64_S4096x64_S64x4096_1_1_0_0_n_n prec L R (ix2 i j)).trans ?_
  rw [← Equiv.sum_comp (contrEquiv1 dot_S64x64_S4096x64_S64x4096_1_1_0_0_n_n 64 rfl rfl).symm]
  refine Finset.sum_congr rfl fun t _ => ?_
  congr 1
  · refine congrArg L (funext fun c => Fin.ext ?_)
    match c with
    | ⟨0, _⟩ => exact hl0 _ _
    | ⟨1, _⟩ => exact (hl1 _ _).trans (contrEquiv1_symm_val dot_S64x64_S4096x64_S64x4096_1_1_0_0_n_n 64 rfl rfl t)
  · refine congrArg R (funext fun c => Fin.ext ?_)
    match c with
    | ⟨1, _⟩ => exact (hrc _ _).trans (contrEquiv1_symm_val dot_S64x64_S4096x64_S64x4096_1_1_0_0_n_n 64 rfl rfl t)
    | ⟨0, _⟩ => exact hrf _ _

/-- The product by `dot_S4096x64_S64x64_S4096x64_1_0_0_1_n_n` into the zero accumulator, at (i, j): the sum over t of L (i, t) · R (t, j). -/
theorem dot_S4096x64_S64x64_S4096x64_1_0_0_1_n_n_read {φ₁ φ₂ : FTy} (prec : Option ContractPrecision) (L : FVec Ideal S4096x64 φ₁) (R : FVec Ideal S64x64 φ₂)
    (i : Fin 4096) (j : Fin 64) :
    matmul dot_S4096x64_S64x64_S4096x64_1_0_0_1_n_n prec L R (constant S4096x64 .f32 0x00000000#32) (ix2 i j) = ∑ t : Fin 64, L (ix2 i t) * R (ix2 t j) := by
  have hl0 : ∀ (q : S4096x64.Idx) (k : dot_S4096x64_S64x64_S4096x64_1_0_0_1_n_n.contr.Idx), (dot_S4096x64_S64x64_S4096x64_1_0_0_1_n_n.lhsIdx q k 0 : ℕ) = q 0 := fun q k => by
    simp [DotDims.lhsIdx, dot_S4096x64_S64x64_S4096x64_1_0_0_1_n_n]; rfl
  have hl1 : ∀ (q : S4096x64.Idx) (k : dot_S4096x64_S64x64_S4096x64_1_0_0_1_n_n.contr.Idx), (dot_S4096x64_S64x64_S4096x64_1_0_0_1_n_n.lhsIdx q k 1 : ℕ) = k ⟨0, by decide⟩ := fun q k => by
    simp [DotDims.lhsIdx, dot_S4096x64_S64x64_S4096x64_1_0_0_1_n_n]; rfl
  have hrc : ∀ (q : S4096x64.Idx) (k : dot_S4096x64_S64x64_S4096x64_1_0_0_1_n_n.contr.Idx), (dot_S4096x64_S64x64_S4096x64_1_0_0_1_n_n.rhsIdx q k 0 : ℕ) = k ⟨0, by decide⟩ := fun q k => by
    simp [DotDims.rhsIdx, dot_S4096x64_S64x64_S4096x64_1_0_0_1_n_n]; rfl
  have hrf : ∀ (q : S4096x64.Idx) (k : dot_S4096x64_S64x64_S4096x64_1_0_0_1_n_n.contr.Idx), (dot_S4096x64_S64x64_S4096x64_1_0_0_1_n_n.rhsIdx q k 1 : ℕ) = q 1 := fun q k => by
    simp [DotDims.rhsIdx, dot_S4096x64_S64x64_S4096x64_1_0_0_1_n_n]; rfl
  refine (Ideal.matmul_constant_zero_apply dot_S4096x64_S64x64_S4096x64_1_0_0_1_n_n prec L R (ix2 i j)).trans ?_
  rw [← Equiv.sum_comp (contrEquiv1 dot_S4096x64_S64x64_S4096x64_1_0_0_1_n_n 64 rfl rfl).symm]
  refine Finset.sum_congr rfl fun t _ => ?_
  congr 1
  · refine congrArg L (funext fun c => Fin.ext ?_)
    match c with
    | ⟨0, _⟩ => exact hl0 _ _
    | ⟨1, _⟩ => exact (hl1 _ _).trans (contrEquiv1_symm_val dot_S4096x64_S64x64_S4096x64_1_0_0_1_n_n 64 rfl rfl t)
  · refine congrArg R (funext fun c => Fin.ext ?_)
    match c with
    | ⟨0, _⟩ => exact (hrc _ _).trans (contrEquiv1_symm_val dot_S4096x64_S64x64_S4096x64_1_0_0_1_n_n 64 rfl rfl t)
    | ⟨1, _⟩ => exact hrf _ _

/-- The batched product by `dot_S2x64x64_S2x64x64_S2x64x64_2_1_1_2_0_0` into the zero accumulator, at (g, i, j): the sum over t of
    L (g, i, t) · R (g, t, j). -/
theorem dot_S2x64x64_S2x64x64_S2x64x64_2_1_1_2_0_0_read {φ₁ φ₂ : FTy} (prec : Option ContractPrecision) (L : FVec Ideal S2x64x64 φ₁) (R : FVec Ideal S2x64x64 φ₂)
    (g : Fin 2) (i : Fin 64) (j : Fin 64) :
    matmul dot_S2x64x64_S2x64x64_S2x64x64_2_1_1_2_0_0 prec L R (constant S2x64x64 .f32 0x00000000#32) (ix3 g i j) = ∑ t : Fin 64, L (ix3 g i t) * R (ix3 g t j) := by
  have hl0 : ∀ (q : S2x64x64.Idx) (k : dot_S2x64x64_S2x64x64_S2x64x64_2_1_1_2_0_0.contr.Idx), (dot_S2x64x64_S2x64x64_S2x64x64_2_1_1_2_0_0.lhsIdx q k 0 : ℕ) = q 0 := fun q k => by
    simp [DotDims.lhsIdx, dot_S2x64x64_S2x64x64_S2x64x64_2_1_1_2_0_0]; rfl
  have hl1 : ∀ (q : S2x64x64.Idx) (k : dot_S2x64x64_S2x64x64_S2x64x64_2_1_1_2_0_0.contr.Idx), (dot_S2x64x64_S2x64x64_S2x64x64_2_1_1_2_0_0.lhsIdx q k 1 : ℕ) = q 1 := fun q k => by
    simp [DotDims.lhsIdx, dot_S2x64x64_S2x64x64_S2x64x64_2_1_1_2_0_0]; rfl
  have hl2 : ∀ (q : S2x64x64.Idx) (k : dot_S2x64x64_S2x64x64_S2x64x64_2_1_1_2_0_0.contr.Idx), (dot_S2x64x64_S2x64x64_S2x64x64_2_1_1_2_0_0.lhsIdx q k 2 : ℕ) = k ⟨0, by decide⟩ := fun q k => by
    simp [DotDims.lhsIdx, dot_S2x64x64_S2x64x64_S2x64x64_2_1_1_2_0_0]; rfl
  have hr0 : ∀ (q : S2x64x64.Idx) (k : dot_S2x64x64_S2x64x64_S2x64x64_2_1_1_2_0_0.contr.Idx), (dot_S2x64x64_S2x64x64_S2x64x64_2_1_1_2_0_0.rhsIdx q k 0 : ℕ) = q 0 := fun q k => by
    simp [DotDims.rhsIdx, dot_S2x64x64_S2x64x64_S2x64x64_2_1_1_2_0_0]; rfl
  have hr1 : ∀ (q : S2x64x64.Idx) (k : dot_S2x64x64_S2x64x64_S2x64x64_2_1_1_2_0_0.contr.Idx), (dot_S2x64x64_S2x64x64_S2x64x64_2_1_1_2_0_0.rhsIdx q k 1 : ℕ) = k ⟨0, by decide⟩ := fun q k => by
    simp [DotDims.rhsIdx, dot_S2x64x64_S2x64x64_S2x64x64_2_1_1_2_0_0]; rfl
  have hr2 : ∀ (q : S2x64x64.Idx) (k : dot_S2x64x64_S2x64x64_S2x64x64_2_1_1_2_0_0.contr.Idx), (dot_S2x64x64_S2x64x64_S2x64x64_2_1_1_2_0_0.rhsIdx q k 2 : ℕ) = q 2 := fun q k => by
    simp [DotDims.rhsIdx, dot_S2x64x64_S2x64x64_S2x64x64_2_1_1_2_0_0]; rfl
  refine (Ideal.matmul_constant_zero_apply dot_S2x64x64_S2x64x64_S2x64x64_2_1_1_2_0_0 prec L R (ix3 g i j)).trans ?_
  rw [← Equiv.sum_comp (contrEquiv1 dot_S2x64x64_S2x64x64_S2x64x64_2_1_1_2_0_0 64 rfl rfl).symm]
  refine Finset.sum_congr rfl fun t _ => ?_
  congr 1
  · refine congrArg L (funext fun c => Fin.ext ?_)
    match c with
    | ⟨0, _⟩ => exact hl0 _ _
    | ⟨1, _⟩ => exact hl1 _ _
    | ⟨2, _⟩ => exact (hl2 _ _).trans (contrEquiv1_symm_val dot_S2x64x64_S2x64x64_S2x64x64_2_1_1_2_0_0 64 rfl rfl t)
  · refine congrArg R (funext fun c => Fin.ext ?_)
    match c with
    | ⟨0, _⟩ => exact hr0 _ _
    | ⟨1, _⟩ => exact (hr1 _ _).trans (contrEquiv1_symm_val dot_S2x64x64_S2x64x64_S2x64x64_2_1_1_2_0_0 64 rfl rfl t)
    | ⟨2, _⟩ => exact hr2 _ _

end Cert.Nys.KernMat

end
-- ==== Proof.KernSm.lean ====
/- The three softmaxes of the kernel body read as matrices: the shifted exponentials of a score matrix are
   `Cert.Nys.expRow` of it and their row-normalised quotients `Cert.Nys.smax`; the products around them are
   `mm` and `mmT`. -/
import proofs.«128605_j74680891343409_2_alg».proof.Proof.Gen.KernelIdeal.Skeleton
import proofs.«128605_j74680891343409_2_alg».proof.Proof.NysSpec
import proofs.«128605_j74680891343409_2_alg».proof.Proof.LibMatRead
import proofs.«128605_j74680891343409_2_alg».proof.Proof.KernMat

noncomputable section

namespace Cert.Nys.KernSm

open Idealize.ShloMosaic Idealize.ShloMosaic.ValueIdx Cert.KernelIdeal Cert.KernelIdeal.Gen Cert.Nys Cert.Lib.MatRead
open scoped BigOperators

/-! ### The products, as matrices -/

theorem asMat_dot_S64x4096_S4096x64_S64x64_1_0_0_1_n_n {φ₁ φ₂ : FTy} (prec : Option ContractPrecision) (L : FVec Ideal S64x4096 φ₁) (R : FVec Ideal S4096x64 φ₂) :
    asMat (matmul dot_S64x4096_S4096x64_S64x64_1_0_0_1_n_n prec L R (constant S64x64 .f32 0x00000000#32)) = mm (asMat L) (asMat R) := by
  funext i j
  exact KernMat.dot_S64x4096_S4096x64_S64x64_1_0_0_1_n_n_read prec L R i j

theorem asMat_dot_S4096x64_S64x64_S4096x64_1_1_0_0_n_n {φ₁ φ₂ : FTy} (prec : Option ContractPrecision) (L : FVec Ideal S4096x64 φ₁) (R : FVec Ideal S64x64 φ₂) :
    asMat (matmul dot_S4096x64_S64x64_S4096x64_1_1_0_0_n_n prec L R (constant S4096x64 .f32 0x00000000#32)) = mmT (asMat L) (asMat R) := by
  funext i j
  exact KernMat.dot_S4096x64_S64x64_S4096x64_1_1_0_0_n_n_read prec L R i j

theorem asMat_dot_S64x64_S64x64_S64x64_1_1_0_0_n_n {φ₁ φ₂ : FTy} (prec : Option ContractPrecision) (L : FVec Ideal S64x64 φ₁) (R : FVec Ideal S64x64 φ₂) :
    asMat (matmul dot_S64x64_S64x64_S64x64_1_1_0_0_n_n prec L R (constant S64x64 .f32 0x00000000#32)) = mmT (asMat L) (asMat R) := by
  funext i j
  exact KernMat.dot_S64x64_S64x64_S64x64_1_1_0_0_n_n_read prec L R i j

theorem asMat_dot_S64x64_S4096x64_S64x4096_1_1_0_0_n_n {φ₁ φ₂ : FTy} (prec : Option ContractPrecision) (L : FVec Ideal S64x64 φ₁) (R : FVec Ideal S4096x64 φ₂) :
    asMat (matmul dot_S64x64_S4096x64_S64x4096_1_1_0_0_n_n prec L R (constant S64x4096 .f32 0x00000000#32)) = mmT (asMat L) (asMat R) := by
  funext i j
  exact KernMat.dot_S64x64_S4096x64_S64x4096_1_1_0_0_n_n_read prec L R i j

theorem asMat_dot_S4096x64_S64x64_S4096x64_1_0_0_1_n_n {φ₁ φ₂ : FTy} (prec : Option ContractPrecision) (L : FVec Ideal S4096x64 φ₁) (R : FVec Ideal S64x64 φ₂) :
    asMat (matmul dot_S4096x64_S64x64_S4096x64_1_0_0_1_n_n prec L R (constant S4096x64 .f32 0x00000000#32)) = mm (asMat L) (asMat R) := by
  funext i j
  exact KernMat.dot_S4096x64_S64x64_S4096x64_1_0_0_1_n_n_read prec L R i j

/-- Narrowing the float format changes nothing at the ideal instance. -/
theorem asMat_truncf {a b : ℕ} {φ ψ : FTy} (X : FVec Ideal ⟨2, ![a, b]⟩ φ) (h : ψ.bits < φ.bits) :
    asMat (truncf ψ X h : FVec Ideal ⟨2, ![a, b]⟩ ψ) = asMat X := rfl

/-! ### A softmax over the rows of a score matrix, as the body computes it -/

section Softmax
variable {a b : ℕ} (S : FVec Ideal ⟨2, ![a, b]⟩ .f32)
  (hr : (⟨2, ![a, b]⟩ : Shape).Reduces [1] ⟨1, ![a]⟩) (hφ : FKind.Formats .f32)
  (hmax : (0xFF800000#32 : BitVec 32) = FKind.maximumf.neutral .f32 hφ)
  (hadd : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, b]⟩)

/-- The shift of each row: its maximum from −∞, compared once more with −∞. -/
def shiftVec : FVec Ideal ⟨1, ![a]⟩ .f32 :=
  maximumf (broadcast ⟨1, ![a]⟩ (Scalar.ofBits .f32 0xFF800000#32)) (multiReduction .maximumf [1] ⟨1, ![a]⟩ S 0xFF800000#32 hr hφ hmax)

/-- The exponentials of the scores less their row's shift. -/
def expVec : FVec Ideal ⟨2, ![a, b]⟩ .f32 :=
  exp (subf S (broadcastTo ⟨2, ![a, b]⟩ (shapeCast ⟨2, ![a, 1]⟩ (shiftVec S hr hφ hmax) hc) hb))

/-- The row sums of the exponentials, as a column. -/
def sumCol : FVec Ideal ⟨2, ![a, 1]⟩ .f32 :=
  shapeCast ⟨2, ![a, 1]⟩ (multiReduction .add [1] ⟨1, ![a]⟩ (expVec S hr hφ hmax hc hb) 0x00000000#32 hr hφ hadd) hc

/-- The exponentials divided by their row sums. -/
def smaxVec : FVec Ideal ⟨2, ![a, b]⟩ .f32 :=
  divf (expVec S hr hφ hmax hc hb) (broadcastTo ⟨2, ![a, b]⟩ (sumCol S hr hφ hmax hadd hc hb) hb)

theorem shiftVec_read (i : Fin a) : shiftVec S hr hφ hmax (ix1 i) = rowShift (asMat S i) := by
  show max _ (multiReduction .maximumf [1] ⟨1, ![a]⟩ S 0xFF800000#32 hr hφ hmax (ix1 i)) = _
  rw [rowMax_read]
  rfl

theorem expVec_read : asMat (expVec S hr hφ hmax hc hb) = expRow (asMat S) := by
  funext i j
  show Ideal.exp (S (ix2 i j) - broadcastTo ⟨2, ![a, b]⟩ (shapeCast ⟨2, ![a, 1]⟩ (shiftVec S hr hφ hmax) hc) hb (ix2 i j)) = _
  rw [colBcast_read, shiftVec_read]
  rfl

theorem smaxVec_read : asMat (smaxVec S hr hφ hmax hadd hc hb) = smax (asMat S) := by
  funext i j
  show Ideal.div (expVec S hr hφ hmax hc hb (ix2 i j))
      (broadcastTo ⟨2, ![a, b]⟩ (shapeCast ⟨2, ![a, 1]⟩ (multiReduction .add [1] ⟨1, ![a]⟩ (expVec S hr hφ hmax hc hb) 0x00000000#32 hr hφ hadd) hc) hb (ix2 i j)) = _
  rw [colBcast_read, rowSum_read]
  show Ideal.div (asMat (expVec S hr hφ hmax hc hb) i j) (∑ t : Fin b, asMat (expVec S hr hφ hmax hc hb) i t) = _
  rw [expVec_read]
  rfl

end Softmax

/-! ### The two heads of a block -/

theorem hz3 : (![0, 0, 0] : Fin 3 → Nat) = fun _ => 0 := funext fun a => by fin_cases a <;> rfl
theorem hz2 : (![0, 0] : Fin 2 → Nat) = fun _ => 0 := funext fun a => by fin_cases a <;> rfl

theorem col_zero_val (d : Fin 64) : (col 0 d).val = 0 + d.val := by simp [col]
theorem col_one_val (d : Fin 64) : (col 1 d).val = 64 + d.val := by simp [col]

/-- A block cast to a matrix, its left 64 columns: head 0. -/
theorem slice0_read (x : Vec Ideal S1x4096x128 .f32) (n : Fin 4096) (d : Fin 64) :
    extractStridedSlice S4096x64 ![0, 0] (shapeCast S4096x128 x shapeCasts_S1x4096x128_S4096x128) slices_S4096x128_o0_0_S4096x64 (ix2 n d)
      = x (ix3 (0 : Fin 1) n (col 0 d)) := by
  rw [sliceCols_read 0 _ _ n d (col 0 d) (col_zero_val d), shapeCast_1ab_ab_apply]

/-- Its right 64 columns: head 1. -/
theorem slice1_read (x : Vec Ideal S1x4096x128 .f32) (n : Fin 4096) (d : Fin 64) :
    extractStridedSlice S4096x64 ![0, 64] (shapeCast S4096x128 x shapeCasts_S1x4096x128_S4096x128) slices_S4096x128_o0_64_S4096x64 (ix2 n d)
      = x (ix3 (0 : Fin 1) n (col 1 d)) := by
  rw [sliceCols_read 64 _ _ n d (col 1 d) (col_one_val d), shapeCast_1ab_ab_apply]

/-- The scaled queries, the keys and the values of head 0. -/
theorem q0_read (x1 : Vec Ideal S1x4096x128 .f32) : asMat (k0_pay6 x1) = blkHeadScaled x1 0 := by
  funext n d
  show extractStridedSlice S4096x64 ![0, 0] (shapeCast S4096x128 x1 shapeCasts_S1x4096x128_S4096x128) slices_S4096x128_o0_0_S4096x64 (ix2 n d)
      * Ideal.ofBits .f32 0x3E000000#32 = _
  rw [slice0_read]; rfl
theorem k0_read (x2 : Vec Ideal S1x4096x128 .f32) : asMat (k0_pay7 x2) = blkHead x2 0 := by
  funext n d
  show extractStridedSlice S4096x64 ![0, 0] (shapeCast S4096x128 x2 shapeCasts_S1x4096x128_S4096x128) slices_S4096x128_o0_0_S4096x64 (ix2 n d) = _
  rw [slice0_read]; rfl
theorem v0_read (x3 : Vec Ideal S1x4096x128 .f32) : asMat (k0_pay8 x3) = blkHead x3 0 := by
  funext n d
  show extractStridedSlice S4096x64 ![0, 0] (shapeCast S4096x128 x3 shapeCasts_S1x4096x128_S4096x128) slices_S4096x128_o0_0_S4096x64 (ix2 n d) = _
  rw [slice0_read]; rfl

/-- The same of head 1. -/
theorem q1_read (x1 : Vec Ideal S1x4096x128 .f32) : asMat (k0_pay18 (k0_pay3 x1)) = blkHeadScaled x1 1 := by
  funext n d
  show extractStridedSlice S4096x64 ![0, 64] (shapeCast S4096x128 x1 shapeCasts_S1x4096x128_S4096x128) slices_S4096x128_o0_64_S4096x64 (ix2 n d)
      * Ideal.ofBits .f32 0x3E000000#32 = _
  rw [slice1_read]; rfl
theorem k1_read (x2 : Vec Ideal S1x4096x128 .f32) : asMat (k0_pay19 (k0_pay4 x2)) = blkHead x2 1 := by
  funext n d
  show extractStridedSlice S4096x64 ![0, 64] (shapeCast S4096x128 x2 shapeCasts_S1x4096x128_S4096x128) slices_S4096x128_o0_64_S4096x64 (ix2 n d) = _
  rw [slice1_read]; rfl
theorem v1_read (x3 : Vec Ideal S1x4096x128 .f32) : asMat (k0_pay20 (k0_pay5 x3)) = blkHead x3 1 := by
  funext n d
  show extractStridedSlice S4096x64 ![0, 64] (shapeCast S4096x128 x3 shapeCasts_S1x4096x128_S4096x128) slices_S4096x128_o0_64_S4096x64 (ix2 n d) = _
  rw [slice1_read]; rfl

/-- The pooling matrix as loaded. -/
theorem p_read (x0 : Vec Ideal S64x4096 .f32) : asMat (k0_pay9 x0) = asMat x0 := by
  show asMat (shapeCast S64x4096 x0 shapeCasts_S64x4096_S64x4096) = _
  rw [shapeCast_self]
theorem p_read' (x0 : Vec Ideal S64x4096 .f32) : asMat (k0_pay21 (k0_pay2 x0)) = asMat x0 := by
  show asMat (shapeCast S64x4096 x0 shapeCasts_S64x4096_S64x4096) = _
  rw [shapeCast_self]

/-- The pooled keys and queries of head 0. -/
theorem klm0_read (x0 : Vec Ideal S64x4096 .f32) (x2 : Vec Ideal S1x4096x128 .f32) :
    asMat (k0_pay10 x0 x2) = mm (asMat x0) (blkHead x2 0) := by
  show asMat (matmul dot_S64x4096_S4096x64_S64x64_1_0_0_1_n_n none (k0_pay9 x0) (k0_pay7 x2) (constant S64x64 .f32 0x00000000#32)) = _
  rw [asMat_dot_S64x4096_S4096x64_S64x64_1_0_0_1_n_n, p_read, k0_read]
theorem qlm0_read (x0 : Vec Ideal S64x4096 .f32) (x1 : Vec Ideal S1x4096x128 .f32) :
    asMat (k0_pay11 x0 x1) = mm (asMat x0) (blkHeadScaled x1 0) := by
  show asMat (matmul dot_S64x4096_S4096x64_S64x64_1_0_0_1_n_n none (k0_pay9 x0) (k0_pay6 x1) (constant S64x64 .f32 0x00000000#32)) = _
  rw [asMat_dot_S64x4096_S4096x64_S64x64_1_0_0_1_n_n, p_read, q0_read]

/-- Of head 1. -/
theorem klm1_read (x0 : Vec Ideal S64x4096 .f32) (x2 : Vec Ideal S1x4096x128 .f32) :
    asMat (k0_pay22 (k0_pay2 x0) (k0_pay4 x2)) = mm (asMat x0) (blkHead x2 1) := by
  show asMat (matmul dot_S64x4096_S4096x64_S64x64_1_0_0_1_n_n none (k0_pay21 (k0_pay2 x0)) (k0_pay19 (k0_pay4 x2)) (constant S64x64 .f32 0x00000000#32)) = _
  rw [asMat_dot_S64x4096_S4096x64_S64x64_1_0_0_1_n_n, p_read', k1_read]
theorem qlm1_read (x0 : Vec Ideal S64x4096 .f32) (x1 : Vec Ideal S1x4096x128 .f32) :
    asMat (k0_pay23 (k0_pay2 x0) (k0_pay3 x1)) = mm (asMat x0) (blkHeadScaled x1 1) := by
  show asMat (matmul dot_S64x4096_S4096x64_S64x64_1_0_0_1_n_n none (k0_pay21 (k0_pay2 x0)) (k0_pay18 (k0_pay3 x1)) (constant S64x64 .f32 0x00000000#32)) = _
  rw [asMat_dot_S64x4096_S4096x64_S64x64_1_0_0_1_n_n, p_read', q1_read]

/-- The first kernel of head 0: the softmax of q klmᵀ. -/
theorem K1_0_read (x0 : Vec Ideal S64x4096 .f32) (x1 x2 : Vec Ideal S1x4096x128 .f32) :
    asMat (k0_pay16 (k0_pay12 x0 x1 x2)) = smax (mmT (blkHeadScaled x1 0) (mm (asMat x0) (blkHead x2 0))) := by
  show asMat (smaxVec (matmul dot_S4096x64_S64x64_S4096x64_1_1_0_0_n_n none (k0_pay6 x1) (k0_pay10 x0 x2) (constant S4096x64 .f32 0x00000000#32))
      reduces_S4096x64_S4096 (.inl rfl) rfl rfl shapeCasts_S4096_S4096x1 broadcasts_S4096x1_S4096x64) = _
  refine (smaxVec_read _ reduces_S4096x64_S4096 (.inl rfl) rfl rfl shapeCasts_S4096_S4096x1 broadcasts_S4096x1_S4096x64).trans ?_
  rw [asMat_dot_S4096x64_S64x64_S4096x64_1_1_0_0_n_n, q0_read, klm0_read]

/-- The second kernel of head 0: the softmax of qlm klmᵀ. -/
theorem K2_0_read (x0 : Vec Ideal S64x4096 .f32) (x1 x2 : Vec Ideal S1x4096x128 .f32) :
    asMat (k0_pay15 (k0_pay13 x0 x1 x2) (k0_pay14 x0 x1 x2))
      = smax (mmT (mm (asMat x0) (blkHeadScaled x1 0)) (mm (asMat x0) (blkHead x2 0))) := by
  show asMat (smaxVec (matmul dot_S64x64_S64x64_S64x64_1_1_0_0_n_n none (k0_pay11 x0 x1) (k0_pay10 x0 x2) (constant S64x64 .f32 0x00000000#32))
      reduces_S64x64_S64 (.inl rfl) rfl rfl shapeCasts_S64_S64x1 broadcasts_S64x1_S64x64) = _
  refine (smaxVec_read _ reduces_S64x64_S64 (.inl rfl) rfl rfl shapeCasts_S64_S64x1 broadcasts_S64x1_S64x64).trans ?_
  rw [asMat_dot_S64x64_S64x64_S64x64_1_1_0_0_n_n, qlm0_read, klm0_read]

/-- The third kernel times the values: softmax(qlm kᵀ) · v, for any keys, values and pooled queries. -/
theorem kv_read (k v : FVec Ideal S4096x64 .bf16) (qlm : FVec Ideal S64x64 .bf16) :
    asMat (k0_pay17 k v qlm) = mm (smax (mmT (asMat qlm) (asMat k))) (asMat v) := by
  show asMat (matmul dot_S64x4096_S4096x64_S64x64_1_0_0_1_n_n none
      (truncf .bf16 (smaxVec (matmul dot_S64x64_S4096x64_S64x4096_1_1_0_0_n_n none qlm k (constant S64x4096 .f32 0x00000000#32))
        reduces_S64x4096_S64 (.inl rfl) rfl rfl shapeCasts_S64_S64x1 broadcasts_S64x1_S64x4096) bitsLt_bf16_f32)
      v (constant S64x64 .f32 0x00000000#32)) = _
  rw [asMat_dot_S64x4096_S4096x64_S64x64_1_0_0_1_n_n, asMat_truncf]
  refine congrArg (fun X => mm X (asMat v)) ?_
  refine (smaxVec_read _ reduces_S64x4096_S64 (.inl rfl) rfl rfl shapeCasts_S64_S64x1 broadcasts_S64x1_S64x4096).trans ?_
  rw [asMat_dot_S64x64_S4096x64_S64x4096_1_1_0_0_n_n]
theorem kv_read' (k v : FVec Ideal S4096x64 .bf16) (qlm : FVec Ideal S64x64 .bf16) :
    asMat (k0_pay27 k v qlm) = mm (smax (mmT (asMat qlm) (asMat k))) (asMat v) := by
  show asMat (matmul dot_S64x4096_S4096x64_S64x64_1_0_0_1_n_n none
      (truncf .bf16 (smaxVec (matmul dot_S64x64_S4096x64_S64x4096_1_1_0_0_n_n none qlm k (constant S64x4096 .f32 0x00000000#32))
        reduces_S64x4096_S64 (.inl rfl) rfl rfl shapeCasts_S64_S64x1 broadcasts_S64x1_S64x4096) bitsLt_bf16_f32)
      v (constant S64x64 .f32 0x00000000#32)) = _
  rw [asMat_dot_S64x4096_S4096x64_S64x64_1_0_0_1_n_n, asMat_truncf]
  refine congrArg (fun X => mm X (asMat v)) ?_
  refine (smaxVec_read _ reduces_S64x4096_S64 (.inl rfl) rfl rfl shapeCasts_S64_S64x1 broadcasts_S64x1_S64x4096).trans ?_
  rw [asMat_dot_S64x64_S4096x64_S64x4096_1_1_0_0_n_n]

/-- The first kernel of head 1. -/
theorem K1_1_read (x0 : Vec Ideal S64x4096 .f32) (x1 x2 : Vec Ideal S1x4096x128 .f32) :
    asMat (k0_pay26 (k0_pay24 (k0_pay2 x0) (k0_pay3 x1) (k0_pay4 x2)) (k0_pay25 (k0_pay2 x0) (k0_pay3 x1) (k0_pay4 x2)))
      = smax (mmT (blkHeadScaled x1 1) (mm (asMat x0) (blkHead x2 1))) := by
  show asMat (smaxVec (matmul dot_S4096x64_S64x64_S4096x64_1_1_0_0_n_n none (k0_pay18 (k0_pay3 x1)) (k0_pay22 (k0_pay2 x0) (k0_pay4 x2)) (constant S4096x64 .f32 0x00000000#32))
      reduces_S4096x64_S4096 (.inl rfl) rfl rfl shapeCasts_S4096_S4096x1 broadcasts_S4096x1_S4096x64) = _
  refine (smaxVec_read _ reduces_S4096x64_S4096 (.inl rfl) rfl rfl shapeCasts_S4096_S4096x1 broadcasts_S4096x1_S4096x64).trans ?_
  rw [asMat_dot_S4096x64_S64x64_S4096x64_1_1_0_0_n_n, q1_read, klm1_read]

end Cert.Nys.KernSm

end
-- ==== Proof.KernNS.lean ====
/- The pseudo-inverse iteration inside the kernel body, read one matrix of the stack at a time: each stage of the
   body's chain of batched products is the matching stage of `Cert.Nys.nsStep`. -/
import proofs.«128605_j74680891343409_2_alg».proof.Proof.Gen.KernelIdeal.Skeleton
import proofs.«128605_j74680891343409_2_alg».proof.Proof.NysSpec
import proofs.«128605_j74680891343409_2_alg».proof.Proof.LibMatRead
import proofs.«128605_j74680891343409_2_alg».proof.Proof.KernMat
import proofs.«128605_j74680891343409_2_alg».proof.Proof.KernSm

noncomputable section

namespace Cert.Nys.KernNS

open Idealize.ShloMosaic Idealize.ShloMosaic.ValueIdx Cert.KernelIdeal Cert.KernelIdeal.Gen Cert.Nys Cert.Lib.MatRead
open scoped BigOperators

/-- Matrix g of a stack of 64 × 64 matrices. -/
def rd3 (X : S2x64x64.Idx → EReal) (g : Fin 2) : Mat 64 64 := fun i j => X (ix3 g i j)

/-- A batched product into the zero accumulator is, matrix by matrix, the product. -/
theorem rd3_matmul (prec : Option ContractPrecision) (L R : FVec Ideal S2x64x64 .f32) (g : Fin 2) :
    rd3 (matmul dot_S2x64x64_S2x64x64_S2x64x64_2_1_1_2_0_0 prec L R (constant S2x64x64 .f32 0x00000000#32)) g
      = mm (rd3 L g) (rd3 R g) := by
  funext i j
  exact KernMat.dot_S2x64x64_S2x64x64_S2x64x64_2_1_1_2_0_0_read prec L R g i j

/-- A scalar times a stack. -/
theorem rd3_smul (c : Ideal .f32) (X : FVec Ideal S2x64x64 .f32) (g : Fin 2) :
    rd3 (mulf (broadcast S2x64x64 c) X) g = fun i j => c * rd3 X g i j := rfl

/-- A difference of stacks. -/
theorem rd3_sub (A B : FVec Ideal S2x64x64 .f32) (g : Fin 2) :
    rd3 (subf A B) g = fun i j => rd3 A g i j - rd3 B g i j := rfl

/-- Each matrix of a stack transposed. -/
theorem rd3_transpose (X : FVec Ideal S2x64x64 .f32) (h : S2x64x64.Transposes [0, 2, 1] S2x64x64) (g : Fin 2) :
    rd3 (transpose S2x64x64 [0, 2, 1] X h) g = fun i j => rd3 X g j i := by
  funext i j
  exact transpose_ix3_021_apply X h g i j

/-- One scalar per matrix, spread over the matrix, times a stack. -/
theorem rd3_bcast_mul (s : FVec Ideal S2x1x1 .f32) (h : S2x1x1.Broadcasts S2x64x64) (X : FVec Ideal S2x64x64 .f32) (g : Fin 2) :
    rd3 (mulf (broadcastTo S2x64x64 s h) X) g = fun i j => s (ix3 g (0 : Fin 1) (0 : Fin 1)) * rd3 X g i j := by
  funext i j
  show broadcastTo S2x64x64 s h (ix3 g i j) * X (ix3 g i j) = _
  rw [bcast_m11_read]
  rfl

/-- Each matrix of a stack transposed, as a function of the index. -/
theorem transpose021_eq (X : FVec Ideal S2x64x64 .f32) (h : S2x64x64.Transposes [0, 2, 1] S2x64x64) :
    transpose S2x64x64 [0, 2, 1] X h = fun idx => X (ix3 (idx 0) (idx 2) (idx 1)) := by
  funext idx
  rw [eq_ix3 idx]
  exact transpose_ix3_021_apply X h (idx 0) (idx 1) (idx 2)

/-- The second iterate: from the stack M of matrices K, the identity stack and the largest column sums, two steps from
    the starting point Kᵀ scaled by the reciprocal of the largest column sum. -/
theorem pay31_read (M I : FVec Ideal S2x64x64 .f32) (D : FVec Ideal S2x1x1 .f32) (one : Ideal .f32) (g : Fin 2)
    (hI : rd3 I g = eye 64) :
    rd3 (k0_pay31 M I D one) g
      = nsStep (rd3 M g) (nsStep (rd3 M g) (fun i j => Ideal.div one (D (ix3 g (0 : Fin 1) (0 : Fin 1))) * rd3 M g j i)) := by
  unfold k0_pay31
  rw [transpose021_eq]
  simp only [rd3_matmul, rd3_smul, rd3_sub, rd3_bcast_mul, hI]
  rfl

/-- The last three terms of a step: 13 I − KV (15 I − KV (7 I − KV)) with KV = K V. -/
def tail13 (K V : Mat 64 64) : Mat 64 64 :=
  fun i j => w13 * eye 64 i j
    - mm (mm K V) (fun i j => w15 * eye 64 i j - mm (mm K V) (fun i j => w7 * eye 64 i j - mm K V i j) i j) i j

theorem nsStep_eq (K V : Mat 64 64) : nsStep K V = mm (fun i j => wQuarter * V i j) (tail13 K V) := rfl

/-- K times the second iterate. -/
theorem pay32_read (M I : FVec Ideal S2x64x64 .f32) (D : FVec Ideal S2x1x1 .f32) (one : Ideal .f32) (g : Fin 2) :
    rd3 (k0_pay32 M I D one) g = mm (rd3 M g) (rd3 (k0_pay31 M I D one) g) :=
  rd3_matmul _ M (k0_pay31 M I D one) g

/-- 7 I less that. -/
theorem pay33_read (M I : FVec Ideal S2x64x64 .f32) (D : FVec Ideal S2x1x1 .f32) (one : Ideal .f32) (g : Fin 2)
    (hI : rd3 I g = eye 64) :
    rd3 (k0_pay33 M I D one) g = fun i j => w7 * eye 64 i j - mm (rd3 M g) (rd3 (k0_pay31 M I D one) g) i j := by
  unfold k0_pay33
  simp only [rd3_smul, rd3_sub, hI, pay32_read]
  rfl

/-- From an iterate V, K V and 7 I − K V: the rest of that step, and one more step. -/
theorem pay34_read (M I V KV T : FVec Ideal S2x64x64 .f32) (g : Fin 2) (hI : rd3 I g = eye 64) :
    rd3 (k0_pay34 M I V KV T) g
      = nsStep (rd3 M g) (mm (fun i j => wQuarter * rd3 V g i j)
          (fun i j => w13 * eye 64 i j
            - mm (rd3 KV g) (fun i j => w15 * eye 64 i j - mm (rd3 KV g) (rd3 T g) i j) i j)) := by
  unfold k0_pay34
  simp only [rd3_matmul, rd3_smul, rd3_sub, hI]
  rfl

/-- And the last three terms of the step after. -/
theorem pay35_read (M I V KV T : FVec Ideal S2x64x64 .f32) (g : Fin 2) (hI : rd3 I g = eye 64) :
    rd3 (k0_pay35 M I V KV T) g = tail13 (rd3 M g) (rd3 (k0_pay34 M I V KV T) g) := by
  unfold k0_pay35
  simp only [rd3_matmul, rd3_smul, rd3_sub, hI]
  rfl

/-! ### The stack of the two heads' second kernels, the identity stack, the largest column sums -/

/-- The first matrix of the stack is the first head's kernel as given. -/
theorem M_read0 (K0 : FVec Ideal S64x64 .f32) (klm qlm : FVec Ideal S64x64 .bf16) :
    rd3 (k0_pay28 K0 klm qlm) 0 = asMat K0 := by
  funext i j
  unfold k0_pay28
  dsimp only
  show concatenate S2x64x64 0 [⟨S1x64x64, _⟩, ⟨S1x64x64, _⟩] concatenates_S1x64x64_S1x64x64_S2x64x64_d0 (ix3 (0 : Fin 2) i j) = _
  rw [stack2_fst, shapeCast_ab_1ab_apply]
  rfl

/-- The second is the second head's: the softmax of qlm klmᵀ. -/
theorem M_read1 (K0 : FVec Ideal S64x64 .f32) (klm qlm : FVec Ideal S64x64 .bf16) :
    rd3 (k0_pay28 K0 klm qlm) 1 = smax (mmT (asMat qlm) (asMat klm)) := by
  funext i j
  show concatenate S2x64x64 0 [⟨S1x64x64, shapeCast S1x64x64 K0 shapeCasts_S64x64_S1x64x64⟩,
      ⟨S1x64x64, shapeCast S1x64x64 (KernSm.smaxVec (matmul dot_S64x64_S64x64_S64x64_1_1_0_0_n_n none qlm klm (constant S64x64 .f32 0x00000000#32))
        reduces_S64x64_S64 (.inl rfl) rfl rfl shapeCasts_S64_S64x1 broadcasts_S64x1_S64x64) shapeCasts_S64x64_S1x64x64⟩]
      concatenates_S1x64x64_S1x64x64_S2x64x64_d0 (ix3 (1 : Fin 2) i j) = _
  rw [stack2_snd, shapeCast_ab_1ab_apply]
  refine (congrFun (congrFun (KernSm.smaxVec_read _ reduces_S64x64_S64 (.inl rfl) rfl rfl shapeCasts_S64_S64x1 broadcasts_S64x1_S64x64) i) j).trans ?_
  rw [KernSm.asMat_dot_S64x64_S64x64_S64x64_1_1_0_0_n_n]

theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The identity stack: each matrix is the identity. -/
theorem I_read (g : Fin 2) : rd3 (k0_pay29 (F := Ideal)) g = eye 64 := by
  funext i j
  show broadcastTo S2x64x64 (shapeCast S1x64x64 (shapeCast S1x64x64
      (select (cmpi .eq (iota .tc S64x64 32 [0] iota_S64x64_d0_w32) (iota .tc S64x64 32 [1] iota_S64x64_d1_w32))
        (broadcast S64x64 (Scalar.ofBits .f32 0x3F800000#32)) (broadcast S64x64 (Scalar.ofBits .f32 0x00000000#32)))
      shapeCasts_S64x64_S1x64x64) shapeCasts_S1x64x64_S1x64x64) broadcasts_S1x64x64_S2x64x64 (ix3 g i j) = _
  rw [bcast_1ab_read, shapeCast_self, shapeCast_ab_1ab_apply]
  show Scalar.select (cmpi .eq (iota .tc S64x64 32 [0] iota_S64x64_d0_w32) (iota .tc S64x64 32 [1] iota_S64x64_d1_w32) (ix2 i j))
      (Ideal.ofBits .f32 0x3F800000#32) (Ideal.ofBits .f32 0x00000000#32) = _
  rw [iotaEq_read (by norm_num)]
  unfold eye
  by_cases h : i = j
  · rw [if_pos h, if_pos h, select_one, ofBits_one]
  · rw [if_neg h, if_neg h, select_zero, Ideal.ofBits_zero_f32]

/-- The largest column sum of each matrix of the stack. -/
theorem D_read (K0 : FVec Ideal S64x64 .f32) (klm qlm : FVec Ideal S64x64 .bf16) (g : Fin 2) :
    k0_pay30 K0 klm qlm (ix3 g (0 : Fin 1) (0 : Fin 1)) = vmax fun t => ∑ s : Fin 64, rd3 (k0_pay28 K0 klm qlm) g s t := by
  show shapeCast S2x1x1 (shapeCast S2x1 (multiReduction .maximumf [1] S2
      (multiReduction .add [1] S2x64 (k0_pay28 K0 klm qlm) 0x00000000#32 reduces_S2x64x64_S2x64 (.inl rfl) rfl)
      0xFF800000#32 reduces_S2x64_S2 (.inl rfl) rfl) shapeCasts_S2_S2x1) shapeCasts_S2x1_S2x1x1 (ix3 g (0 : Fin 1) (0 : Fin 1)) = _
  rw [cast_m_m11_read]
  refine (rowMax_read _ _ reduces_S2x64_S2 (.inl rfl) rfl g).trans ?_
  unfold vmax
  congr 1
  funext t
  exact colSum_read _ _ reduces_S2x64x64_S2x64 (.inl rfl) rfl g t

/-! ### The last step and the two final products -/

/-- Matrix g of a stack, narrowed in format, sliced out and cast to a matrix. -/
theorem sliced_read (Y : FVec Ideal S2x64x64 .f32) (o : ℕ) (hs : S2x64x64.Slices ![o, 0, 0] S1x64x64) (g : Fin 2) (hg : g.val = o) :
    asMat (shapeCast S64x64 (extractStridedSlice S1x64x64 ![o, 0, 0] (truncf .bf16 Y bitsLt_bf16_f32) hs) shapeCasts_S1x64x64_S64x64) = rd3 Y g := by
  funext i j
  exact sliceMat_read o (truncf .bf16 Y bitsLt_bf16_f32) hs shapeCasts_S1x64x64_S64x64 g hg i j

/-- Head 0's half of the stored block: (K1 · Z) · KV, Z one more step from the iterate and last terms given. -/
theorem pay1_read0 (v59 : FVec Ideal S4096x64 .bf16) (v60 : FVec Ideal S64x64 .bf16) (v112 : FVec Ideal S4096x64 .bf16)
    (v113 : FVec Ideal S64x64 .bf16) (M I V T : FVec Ideal S2x64x64 .f32) (n : Fin 4096) (d : Fin 64) (hI : rd3 I 0 = eye 64) :
    k0_pay1 v59 v60 v112 v113 M I V T (ix3 (0 : Fin 1) n (col 0 d))
      = mm (mm (asMat v59) (nsStep (rd3 M 0) (mm (fun i j => wQuarter * rd3 V 0 i j) (rd3 T 0)))) (asMat v60) n d := by
  unfold k0_pay1
  rw [shapeCast_ab_1ab_apply, concatCols_left _ _ _ n d (col 0 d) (by simp [col])]
  show asMat (matmul dot_S4096x64_S64x64_S4096x64_1_0_0_1_n_n none _ v60 _) n d = _
  rw [KernSm.asMat_dot_S4096x64_S64x64_S4096x64_1_0_0_1_n_n, KernSm.asMat_truncf,
    KernSm.asMat_dot_S4096x64_S64x64_S4096x64_1_0_0_1_n_n, sliced_read _ 0 _ 0 rfl]
  simp only [rd3_matmul, rd3_smul, rd3_sub, hI]
  rfl

/-- Head 1's half of the stored block: (K1 · Z) · KV, Z one more step from the iterate and last terms given. -/
theorem pay1_read1 (v59 : FVec Ideal S4096x64 .bf16) (v60 : FVec Ideal S64x64 .bf16) (v112 : FVec Ideal S4096x64 .bf16)
    (v113 : FVec Ideal S64x64 .bf16) (M I V T : FVec Ideal S2x64x64 .f32) (n : Fin 4096) (d : Fin 64) (hI : rd3 I 1 = eye 64) :
    k0_pay1 v59 v60 v112 v113 M I V T (ix3 (0 : Fin 1) n (col 1 d))
      = mm (mm (asMat v112) (nsStep (rd3 M 1) (mm (fun i j => wQuarter * rd3 V 1 i j) (rd3 T 1)))) (asMat v113) n d := by
  unfold k0_pay1
  rw [shapeCast_ab_1ab_apply, concatCols_right _ _ _ n d (col 1 d) (by show 1 * 64 + d.val = d.val + 64; omega)]
  show asMat (matmul dot_S4096x64_S64x64_S4096x64_1_0_0_1_n_n none _ v113 _) n d = _
  rw [KernSm.asMat_dot_S4096x64_S64x64_S4096x64_1_0_0_1_n_n, KernSm.asMat_truncf,
    KernSm.asMat_dot_S4096x64_S64x64_S4096x64_1_0_0_1_n_n, sliced_read _ 1 _ 1 rfl]
  simp only [rd3_matmul, rd3_smul, rd3_sub, hI]
  rfl

/-- The six steps: the body's chain of stages from the stack of second kernels is `ns` of each matrix of the stack. -/
theorem ns_chain (K0 : FVec Ideal S64x64 .f32) (klm qlm : FVec Ideal S64x64 .bf16) (g : Fin 2) :
    nsStep (rd3 (k0_pay28 K0 klm qlm) g)
        (mm (fun i j => wQuarter * rd3 (k0_pay34 (k0_pay28 K0 klm qlm) (k0_pay29 (F := Ideal))
              (k0_pay31 (k0_pay28 K0 klm qlm) (k0_pay29 (F := Ideal)) (k0_pay30 K0 klm qlm) (Scalar.ofBits .f32 0x3F800000#32))
              (k0_pay32 (k0_pay28 K0 klm qlm) (k0_pay29 (F := Ideal)) (k0_pay30 K0 klm qlm) (Scalar.ofBits .f32 0x3F800000#32))
              (k0_pay33 (k0_pay28 K0 klm qlm) (k0_pay29 (F := Ideal)) (k0_pay30 K0 klm qlm) (Scalar.ofBits .f32 0x3F800000#32))) g i j)
          (rd3 (k0_pay35 (k0_pay28 K0 klm qlm) (k0_pay29 (F := Ideal))
              (k0_pay31 (k0_pay28 K0 klm qlm) (k0_pay29 (F := Ideal)) (k0_pay30 K0 klm qlm) (Scalar.ofBits .f32 0x3F800000#32))
              (k0_pay32 (k0_pay28 K0 klm qlm) (k0_pay29 (F := Ideal)) (k0_pay30 K0 klm qlm) (Scalar.ofBits .f32 0x3F800000#32))
              (k0_pay33 (k0_pay28 K0 klm qlm) (k0_pay29 (F := Ideal)) (k0_pay30 K0 klm qlm) (Scalar.ofBits .f32 0x3F800000#32))) g))
      = ns (rd3 (k0_pay28 K0 klm qlm) g) := by
  rw [pay35_read _ _ _ _ _ g (I_read g), ← nsStep_eq, pay34_read _ _ _ _ _ g (I_read g), pay32_read,
    pay33_read _ _ _ _ g (I_read g), pay31_read _ _ _ _ g (I_read g), D_read]
  rfl

end Cert.Nys.KernNS

end
-- ==== Proof.KernRead.lean ====
/- What the kernel body leaves in a block, read at an entry: head g's attention (`Cert.Nys.blockOut`) of the pooling
   matrix and the heads g of the three input blocks. The body's one store holds the two heads side by side; each
   half is (K1 · Z) · (K3 · v) with K1, K3 the softmaxes of q klmᵀ and qlm kᵀ, Z six steps of the iteration from
   the softmax of qlm klmᵀ, and qlm, klm the products of the pooling matrix with the scaled queries and the keys. -/
import proofs.«128605_j74680891343409_2_alg».proof.Proof.Gen.KernelIdeal.Frame
import proofs.«128605_j74680891343409_2_alg».proof.Proof.NysSpec
import proofs.«128605_j74680891343409_2_alg».proof.Proof.KernSm
import proofs.«128605_j74680891343409_2_alg».proof.Proof.KernNS

noncomputable section

namespace Cert.Nys.Kern

open Idealize.ShloMosaic Idealize.ShloMosaic.ValueIdx Cert.KernelIdeal Cert.KernelIdeal.Gen Cert.Nys Cert.Nys.KernSm Cert.Nys.KernNS

/-- Head 0's half. -/
theorem pay_read0 (x0 : Vec Ideal S64x4096 .f32) (x1 x2 x3 : Vec Ideal S1x4096x128 .f32) (n : Fin 4096) (d : Fin 64) :
    (k0_pay1 (k0_pay16 (k0_pay12 x0 x1 x2)) (k0_pay17 (k0_pay7 x2) (k0_pay8 x3) (k0_pay11 x0 x1)) (k0_pay26 (k0_pay24 (k0_pay2 x0) (k0_pay3 x1) (k0_pay4 x2)) (k0_pay25 (k0_pay2 x0) (k0_pay3 x1) (k0_pay4 x2))) (k0_pay27 (k0_pay19 (k0_pay4 x2)) (k0_pay20 (k0_pay5 x3)) (k0_pay23 (k0_pay2 x0) (k0_pay3 x1))) (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay34 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay31 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay32 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay33 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32))) (k0_pay35 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay31 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay32 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay33 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)))) (ix3 (0 : Fin 1) n (col 0 d)) = blockOut (asMat x0) x1 x2 x3 0 n d := by
  rw [pay1_read0 _ _ _ _ _ _ _ _ n d (I_read 0), ns_chain, M_read0, K2_0_read, K1_0_read, kv_read, k0_read, v0_read, qlm0_read]
  rfl

/-- Head 1's half. -/
theorem pay_read1 (x0 : Vec Ideal S64x4096 .f32) (x1 x2 x3 : Vec Ideal S1x4096x128 .f32) (n : Fin 4096) (d : Fin 64) :
    (k0_pay1 (k0_pay16 (k0_pay12 x0 x1 x2)) (k0_pay17 (k0_pay7 x2) (k0_pay8 x3) (k0_pay11 x0 x1)) (k0_pay26 (k0_pay24 (k0_pay2 x0) (k0_pay3 x1) (k0_pay4 x2)) (k0_pay25 (k0_pay2 x0) (k0_pay3 x1) (k0_pay4 x2))) (k0_pay27 (k0_pay19 (k0_pay4 x2)) (k0_pay20 (k0_pay5 x3)) (k0_pay23 (k0_pay2 x0) (k0_pay3 x1))) (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay34 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay31 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay32 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay33 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32))) (k0_pay35 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay31 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay32 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)) (k0_pay33 (k0_pay28 (k0_pay15 (k0_pay13 x0 x1 x2) (k0_pay14 x0 x1 x2)) (k0_pay22 (k0_pay2 x0) (k0_pay4 x2)) (k0_pay23 (k0_pay2 x0) (k0_pay3 x1))) (k0_pay29 (F := Ideal)) (k0_pay30 (k0_pay15 (k0_pay13 x0 x1 x2) (k0_pay14 x0 x1 x2)) (k0_pay22 (k0_pay2 x0) (k0_pay4 x2)) (k0_pay23 (k0_pay2 x0) (k0_pay3 x1))) (Scalar.ofBits .f32 0x3F800000#32)))) (ix3 (0 : Fin 1) n (col 1 d)) = blockOut (asMat x0) x1 x2 x3 1 n d := by
  rw [pay1_read1 _ _ _ _ _ _ _ _ n d (I_read 1), ns_chain, M_read1, K1_1_read, kv_read', k1_read, v1_read, qlm1_read, klm1_read]
  rfl

/-- Entry (n, 64 g + d) of the block the body stores is row n, column d of head g's attention, computed from
    the pooling matrix and the heads g of the three input blocks. -/
theorem out_read (x0 : Vec Ideal S64x4096 .f32) (x1 x2 x3 : Vec Ideal S1x4096x128 .f32)
    (n : Fin 4096) (g : Fin 2) (d : Fin 64) :
    out0_4 (F := Ideal) x0 x1 x2 x3 (ix3 (0 : Fin 1) n (col g d)) = blockOut (asMat x0) x1 x2 x3 g n d := by
  unfold out0_4
  rw [View.canon_unit_zero hz3]
  simp only [View.ld_unit_zero (S := S1x4096x128) hz3, View.ld_unit_zero (S := S64x4096) hz2]
  match g with
  | 0 => exact pay_read0 x0 x1 x2 x3 n d
  | 1 => exact pay_read1 x0 x1 x2 x3 n d

end Cert.Nys.Kern

end
-- ==== Proof.RefOps.lean ====
/-
  The reference's host operations, each read at one index at the ideal float instance.

  A buffer of shape [4, 16, A, B] is read at (b, h, i, j): a batch entry, a head, a row and a column, so that
  each statement is one about the A × B matrix of that batch entry and head.  The lemmas are stated over
  arbitrary vectors of the operations' shapes.
-/
import Idealize.ShloMosaic.Lib.ValueLayout
import Idealize.ShloMosaic.Lib.Pipeline.Value
import Idealize.ShloMosaic.PureOps.Reduce
import proofs.«128605_j74680891343409_2_alg».proof.Proof.NysSpec

noncomputable section

namespace Cert.Nys.Ref

open Idealize.ShloMosaic Idealize.ShloMosaic.ValueIdx Cert.Nys
open scoped BigOperators

/-! ### Pointwise operations and splats -/

section Pointwise
variable {s : Shape}

/-- The host's quotient at an index is the quotient of the entries. -/
theorem hdivf_apply (x y : FVec Ideal s .f32) (i : s.Idx) : Host.divf x y i = Ideal.div (x i) (y i) := rfl

/-- The host's exponential at an index is the exponential of the entry. -/
theorem hexp_apply (x : FVec Ideal s .f32) (i : s.Idx) : Host.exp x i = Ideal.exp (x i) := rfl

/-- A scalar constant broadcast to any shape reads the value of its word everywhere. -/
theorem splat_apply {t : Shape} (h : (⟨0, ![]⟩ : Shape).BroadcastsInDim t (![] : Fin 0 → Fin t.rank)) (w : BitVec 32) (j : t.Idx) :
    broadcastInDim t ![] h (constant (F := Ideal) ⟨0, ![]⟩ .f32 w) j = Ideal.ofBits .f32 w := rfl

end Pointwise

/-! ### Heads of an argument array -/

/-- The array [4, 4096, 1024] cut into sixteen heads of 64 channels and the head axis moved before the rows:
    entry (b, h, n, d) is the array's entry (b, n, 64 h + d). -/
theorem heads_apply (A : (⟨3, ![4, 4096, 1024]⟩ : Shape).Idx → EReal)
    (sc : (⟨3, ![4, 4096, 1024]⟩ : Shape).ShapeCasts ⟨4, ![4, 4096, 16, 64]⟩)
    (tr : (⟨4, ![4, 4096, 16, 64]⟩ : Shape).Transposes [0, 2, 1, 3] ⟨4, ![4, 16, 4096, 64]⟩)
    (b : Fin 4) (h : Fin 16) (n : Fin 4096) (d : Fin 64) :
    transpose ⟨4, ![4, 16, 4096, 64]⟩ [0, 2, 1, 3] (shapeCast ⟨4, ![4, 4096, 16, 64]⟩ A sc) tr (ix4 b h n d)
      = A (ix3 b n (chan h d)) := by
  refine (transpose_apply _ _ tr _ (ix4 b n h d) fun c =>
    match c with | ⟨0, _⟩ => rfl | ⟨1, _⟩ => rfl | ⟨2, _⟩ => rfl | ⟨3, _⟩ => rfl).trans ?_
  refine shapeCast_apply A sc _ _ ?_
  rw [Shape.rowMajor_val_three, Shape.rowMajor_val_four]
  show (b.val * 4096 + n.val) * 1024 + (h.val * 64 + d.val) = ((b.val * 4096 + n.val) * 16 + h.val) * 64 + d.val
  omega

/-- The way back: the head axis moved behind the rows and the heads laid side by side. Entry (b, n, c) is
    entry (b, c / 64, n, c mod 64). -/
theorem unheads_apply (Y : (⟨4, ![4, 16, 4096, 64]⟩ : Shape).Idx → EReal)
    (tr : (⟨4, ![4, 16, 4096, 64]⟩ : Shape).Transposes [0, 2, 1, 3] ⟨4, ![4, 4096, 16, 64]⟩)
    (sc : (⟨4, ![4, 4096, 16, 64]⟩ : Shape).ShapeCasts ⟨3, ![4, 4096, 1024]⟩)
    (b : Fin 4) (n : Fin 4096) (c : Fin 1024) :
    shapeCast ⟨3, ![4, 4096, 1024]⟩ (transpose ⟨4, ![4, 4096, 16, 64]⟩ [0, 2, 1, 3] Y tr) sc (ix3 b n c)
      = Y (ix4 b (headOf c) n (inHead c)) := by
  refine (shapeCast_apply _ sc _ (ix4 b n (headOf c) (inHead c)) ?_).trans ?_
  · rw [Shape.rowMajor_val_three, Shape.rowMajor_val_four]
    show ((b.val * 4096 + n.val) * 16 + c.val / 64) * 64 + c.val % 64 = (b.val * 4096 + n.val) * 1024 + c.val
    omega
  · exact transpose_apply _ Y tr _ _ fun a =>
      match a with | ⟨0, _⟩ => rfl | ⟨1, _⟩ => rfl | ⟨2, _⟩ => rfl | ⟨3, _⟩ => rfl

/-! ### Pooling: the sum over each segment of 64 rows -/

/-- Rows regrouped as 64 segments of 64 and summed over the place within the segment, from the zero word. -/
theorem pool_apply (X : FVec Ideal ⟨4, ![4, 16, 4096, 64]⟩ .f32)
    (sc : (⟨4, ![4, 16, 4096, 64]⟩ : Shape).ShapeCasts ⟨5, ![4, 16, 64, 64, 64]⟩)
    (red : (⟨5, ![4, 16, 64, 64, 64]⟩ : Shape).ReducesTo [3] ⟨4, ![4, 16, 64, 64]⟩)
    (hu : 0 < (⟨0, ![]⟩ : Shape).numel) (b : Fin 4) (h : Fin 16) (l d : Fin 64) :
    Host.reduceAdd (F := Ideal) (shapeCast ⟨5, ![4, 16, 64, 64, 64]⟩ X sc) (constant (F := Ideal) ⟨0, ![]⟩ .f32 0x00000000#32) red hu
        (ix4 b h l d)
      = ∑ s : Fin 64, X (ix4 b h (seg l s) d) := by
  have hr : (⟨5, ![4, 16, 64, 64, 64]⟩ : Shape).Reduces [3] ⟨4, ![4, 16, 64, 64]⟩ := by decide
  refine (Ideal.hostReduceAdd_single red hr _ _ _).trans ?_
  rw [show (constant (F := Ideal) ⟨0, ![]⟩ .f32 0x00000000#32) (Shape.Idx.first hu) = (0 : EReal) from Ideal.ofBits_zero_f32, zero_add]
  refine Finset.sum_congr rfl fun s _ => ?_
  refine shapeCast_apply X sc _ (ix4 b h (seg l ⟨s.val, s.isLt⟩) d) ?_
  rw [Shape.rowMajor_val_four, Shape.rowMajor_val_five]
  show ((b.val * 16 + h.val) * 4096 + (l.val * 64 + s.val)) * 64 + d.val
    = (((b.val * 16 + h.val) * 64 + l.val) * 64 + s.val) * 64 + d.val
  omega

/-! ### Contractions over the last axis of the left operand, batched over (b, h) -/

/-- L · Rᵀ for each (b, h): the last axes of both operands contracted. -/
theorem dotNT_apply {n0 n1 m k n : ℕ}
    (w : DotDims.WF ⟨4, ![n0, n1, m, k]⟩ ⟨4, ![n0, n1, n, k]⟩ ⟨4, ![n0, n1, m, n]⟩ [3] [3] [2] [2] [0, 1] [0, 1])
    (L : FVec Ideal ⟨4, ![n0, n1, m, k]⟩ .f32) (R : FVec Ideal ⟨4, ![n0, n1, n, k]⟩ .f32)
    (b : Fin n0) (h : Fin n1) (i : Fin m) (j : Fin n) :
    Host.dotGeneral (⟨[3], [3], [2], [2], [0, 1], [0, 1], w⟩ : DotDims _ _ _) none L R (ix4 b h i j)
      = ∑ t : Fin k, L (ix4 b h i t) * R (ix4 b h j t) := by
  show FloatOps.dotGeneral _ none _ L R (ix4 b h i j) = _
  rw [Ideal.dotGeneral_apply,
    ← Equiv.sum_comp (contrEquiv1 (⟨[3], [3], [2], [2], [0, 1], [0, 1], w⟩ : DotDims _ _ _) k rfl rfl).symm]
  refine Finset.sum_congr rfl fun c _ => ?_
  have c3 := contrEquiv1_symm_val
    (⟨[3], [3], [2], [2], [0, 1], [0, 1], w⟩ : DotDims ⟨4, ![n0, n1, m, k]⟩ ⟨4, ![n0, n1, n, k]⟩ ⟨4, ![n0, n1, m, n]⟩) k rfl rfl c
  have l4 : (⟨[3], [3], [2], [2], [0, 1], [0, 1], w⟩ : DotDims ⟨4, ![n0, n1, m, k]⟩ ⟨4, ![n0, n1, n, k]⟩ ⟨4, ![n0, n1, m, n]⟩).lhsIdx
      (ix4 b h i j) ((contrEquiv1 _ k rfl rfl).symm c) = ix4 b h i c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r4 : (⟨[3], [3], [2], [2], [0, 1], [0, 1], w⟩ : DotDims ⟨4, ![n0, n1, m, k]⟩ ⟨4, ![n0, n1, n, k]⟩ ⟨4, ![n0, n1, m, n]⟩).rhsIdx
      (ix4 b h i j) ((contrEquiv1 _ k rfl rfl).symm c) = ix4 b h j c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l4, r4]

/-- L · R for each (b, h): the last axis of the left operand against the row axis of the right one. -/
theorem dotNN_apply {n0 n1 m k n : ℕ}
    (w : DotDims.WF ⟨4, ![n0, n1, m, k]⟩ ⟨4, ![n0, n1, k, n]⟩ ⟨4, ![n0, n1, m, n]⟩ [3] [2] [2] [3] [0, 1] [0, 1])
    (L : FVec Ideal ⟨4, ![n0, n1, m, k]⟩ .f32) (R : FVec Ideal ⟨4, ![n0, n1, k, n]⟩ .f32)
    (b : Fin n0) (h : Fin n1) (i : Fin m) (j : Fin n) :
    Host.dotGeneral (⟨[3], [2], [2], [3], [0, 1], [0, 1], w⟩ : DotDims _ _ _) none L R (ix4 b h i j)
      = ∑ t : Fin k, L (ix4 b h i t) * R (ix4 b h t j) := by
  show FloatOps.dotGeneral _ none _ L R (ix4 b h i j) = _
  rw [Ideal.dotGeneral_apply,
    ← Equiv.sum_comp (contrEquiv1 (⟨[3], [2], [2], [3], [0, 1], [0, 1], w⟩ : DotDims _ _ _) k rfl rfl).symm]
  refine Finset.sum_congr rfl fun c _ => ?_
  have c3 := contrEquiv1_symm_val
    (⟨[3], [2], [2], [3], [0, 1], [0, 1], w⟩ : DotDims ⟨4, ![n0, n1, m, k]⟩ ⟨4, ![n0, n1, k, n]⟩ ⟨4, ![n0, n1, m, n]⟩) k rfl rfl c
  have l4 : (⟨[3], [2], [2], [3], [0, 1], [0, 1], w⟩ : DotDims ⟨4, ![n0, n1, m, k]⟩ ⟨4, ![n0, n1, k, n]⟩ ⟨4, ![n0, n1, m, n]⟩).lhsIdx
      (ix4 b h i j) ((contrEquiv1 _ k rfl rfl).symm c) = ix4 b h i c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r4 : (⟨[3], [2], [2], [3], [0, 1], [0, 1], w⟩ : DotDims ⟨4, ![n0, n1, m, k]⟩ ⟨4, ![n0, n1, k, n]⟩ ⟨4, ![n0, n1, m, n]⟩).rhsIdx
      (ix4 b h i j) ((contrEquiv1 _ k rfl rfl).symm c) = ix4 b h c j := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
    | ⟨3, _⟩ => simp [DotDims.rhsIdx]; rfl
  rw [l4, r4]

/-! ### Broadcasts of row and head quantities -/

/-- A coordinate below n is 0 when n = 1: the way a broadcast reads an axis of its operand. -/
private theorem val_eq_ite {n : ℕ} (x : Fin n) : x.val = if n = 1 then 0 else x.val := by
  split
  · have := x.isLt; omega
  · rfl

/-- A quantity per row, [n0, n1, a] → [n0, n1, a, 1] → [n0, n1, a, c], reads the row's value in every column. -/
theorem bcast_row_apply {n0 n1 a c : ℕ} (r : (⟨3, ![n0, n1, a]⟩ : Shape).Idx → EReal)
    (h1 : (⟨3, ![n0, n1, a]⟩ : Shape).BroadcastsInDim ⟨4, ![n0, n1, a, 1]⟩ (![0, 1, 2] : Fin 3 → Fin 4))
    (h2 : (⟨4, ![n0, n1, a, 1]⟩ : Shape).BroadcastsInDim ⟨4, ![n0, n1, a, c]⟩ (![0, 1, 2, 3] : Fin 4 → Fin 4))
    (b : Fin n0) (h : Fin n1) (i : Fin a) (j : Fin c) :
    broadcastInDim ⟨4, ![n0, n1, a, c]⟩ ![0, 1, 2, 3] h2 (broadcastInDim ⟨4, ![n0, n1, a, 1]⟩ ![0, 1, 2] h1 r) (ix4 b h i j)
      = r (ix3 b h i) := by
  refine (broadcastInDim_apply _ h2 _ _ (ix4 b h i (0 : Fin 1)) fun e => ?_).trans
    (broadcastInDim_apply _ h1 r _ (ix3 b h i) fun e => ?_)
  · match e with
    | ⟨0, _⟩ => exact val_eq_ite b
    | ⟨1, _⟩ => exact val_eq_ite h
    | ⟨2, _⟩ => exact val_eq_ite i
    | ⟨3, _⟩ => rfl
  · match e with
    | ⟨0, _⟩ => exact val_eq_ite b
    | ⟨1, _⟩ => exact val_eq_ite h
    | ⟨2, _⟩ => exact val_eq_ite i

/-- A quantity per head, [n0, n1] → [n0, n1, 1, 1]. -/
theorem bcast_head_apply {n0 n1 : ℕ} (r : (⟨2, ![n0, n1]⟩ : Shape).Idx → EReal)
    (h1 : (⟨2, ![n0, n1]⟩ : Shape).BroadcastsInDim ⟨4, ![n0, n1, 1, 1]⟩ (![0, 1] : Fin 2 → Fin 4))
    (b : Fin n0) (h : Fin n1) (u v : Fin 1) :
    broadcastInDim ⟨4, ![n0, n1, 1, 1]⟩ ![0, 1] h1 r (ix4 b h u v) = r (ix2 b h) :=
  broadcastInDim_apply _ h1 r _ (ix2 b h) fun e =>
    match e with
    | ⟨0, _⟩ => val_eq_ite b
    | ⟨1, _⟩ => val_eq_ite h

/-- [n0, n1, 1, 1] → [n0, n1, a, c]: the head's value at every row and column. -/
theorem bcast_unit_apply {n0 n1 a c : ℕ} (y : (⟨4, ![n0, n1, 1, 1]⟩ : Shape).Idx → EReal)
    (h2 : (⟨4, ![n0, n1, 1, 1]⟩ : Shape).BroadcastsInDim ⟨4, ![n0, n1, a, c]⟩ (![0, 1, 2, 3] : Fin 4 → Fin 4))
    (b : Fin n0) (h : Fin n1) (i : Fin a) (j : Fin c) :
    broadcastInDim ⟨4, ![n0, n1, a, c]⟩ ![0, 1, 2, 3] h2 y (ix4 b h i j) = y (ix4 b h (0 : Fin 1) (0 : Fin 1)) :=
  broadcastInDim_apply _ h2 y _ (ix4 b h (0 : Fin 1) (0 : Fin 1)) fun e =>
    match e with
    | ⟨0, _⟩ => val_eq_ite b
    | ⟨1, _⟩ => val_eq_ite h
    | ⟨2, _⟩ => rfl
    | ⟨3, _⟩ => rfl

/-- One matrix for every head, [a, c] → [1, 1, a, c] → [n0, n1, a, c]. -/
theorem bcast_mat_apply {n0 n1 a c : ℕ} (e : (⟨2, ![a, c]⟩ : Shape).Idx → EReal)
    (h1 : (⟨2, ![a, c]⟩ : Shape).BroadcastsInDim ⟨4, ![1, 1, a, c]⟩ (![2, 3] : Fin 2 → Fin 4))
    (h2 : (⟨4, ![1, 1, a, c]⟩ : Shape).BroadcastsInDim ⟨4, ![n0, n1, a, c]⟩ (![0, 1, 2, 3] : Fin 4 → Fin 4))
    (b : Fin n0) (h : Fin n1) (i : Fin a) (j : Fin c) :
    broadcastInDim ⟨4, ![n0, n1, a, c]⟩ ![0, 1, 2, 3] h2 (broadcastInDim ⟨4, ![1, 1, a, c]⟩ ![2, 3] h1 e) (ix4 b h i j)
      = e (ix2 i j) := by
  refine (broadcastInDim_apply _ h2 _ _ (ix4 (0 : Fin 1) (0 : Fin 1) i j) fun x => ?_).trans
    (broadcastInDim_apply _ h1 e _ (ix2 i j) fun x => ?_)
  · match x with
    | ⟨0, _⟩ => rfl
    | ⟨1, _⟩ => rfl
    | ⟨2, _⟩ => exact val_eq_ite i
    | ⟨3, _⟩ => exact val_eq_ite j
  · match x with
    | ⟨0, _⟩ => exact val_eq_ite i
    | ⟨1, _⟩ => exact val_eq_ite j

/-- The two last axes exchanged. -/
theorem swap_apply {n0 n1 a c : ℕ} (x : (⟨4, ![n0, n1, a, c]⟩ : Shape).Idx → EReal)
    (tr : (⟨4, ![n0, n1, a, c]⟩ : Shape).Transposes [0, 1, 3, 2] ⟨4, ![n0, n1, c, a]⟩)
    (b : Fin n0) (h : Fin n1) (j : Fin c) (i : Fin a) :
    transpose ⟨4, ![n0, n1, c, a]⟩ [0, 1, 3, 2] x tr (ix4 b h j i) = x (ix4 b h i j) :=
  transpose_apply _ x tr _ _ fun e => match e with | ⟨0, _⟩ => rfl | ⟨1, _⟩ => rfl | ⟨2, _⟩ => rfl | ⟨3, _⟩ => rfl

/-! ### Reductions over one axis -/

/-- The host's shape fact for a reduction, with one result axis at least, is the vector unit's. -/
private theorem reduces_of_reducesTo {s t : Shape} {axes : List (Fin s.rank)} (h : s.ReducesTo axes t) (ht : 0 < t.rank) :
    s.Reduces axes t := by
  obtain ⟨h1, h2⟩ := h
  exact ⟨h1, ht, h2⟩

/-- Over (b, h, i), the index with the column put back. -/
private theorem lift_col {n0 n1 a c : ℕ} (hr : (⟨4, ![n0, n1, a, c]⟩ : Shape).Reduces [3] ⟨3, ![n0, n1, a]⟩)
    (b : Fin n0) (h : Fin n1) (i : Fin a) (k : Fin ((⟨4, ![n0, n1, a, c]⟩ : Shape).size 3)) :
    hr.lift (ix3 b h i) k = ix4 b h i (⟨k.val, k.isLt⟩ : Fin c) := by
  funext e; apply Fin.ext
  match e with | ⟨0, _⟩ => rfl | ⟨1, _⟩ => rfl | ⟨2, _⟩ => rfl | ⟨3, _⟩ => rfl

/-- Over (b, h, t), the index with the row put back. -/
private theorem lift_row {n0 n1 a c : ℕ} (hr : (⟨4, ![n0, n1, a, c]⟩ : Shape).Reduces [2] ⟨3, ![n0, n1, c]⟩)
    (b : Fin n0) (h : Fin n1) (t : Fin c) (k : Fin ((⟨4, ![n0, n1, a, c]⟩ : Shape).size 2)) :
    hr.lift (ix3 b h t) k = ix4 b h (⟨k.val, k.isLt⟩ : Fin a) t := by
  funext e; apply Fin.ext
  match e with | ⟨0, _⟩ => rfl | ⟨1, _⟩ => rfl | ⟨2, _⟩ => rfl | ⟨3, _⟩ => rfl

/-- Over (b, h), the index with the last coordinate put back. -/
private theorem lift_last {n0 n1 c : ℕ} (hr : (⟨3, ![n0, n1, c]⟩ : Shape).Reduces [2] ⟨2, ![n0, n1]⟩)
    (b : Fin n0) (h : Fin n1) (k : Fin ((⟨3, ![n0, n1, c]⟩ : Shape).size 2)) :
    hr.lift (ix2 b h) k = ix3 b h (⟨k.val, k.isLt⟩ : Fin c) := by
  funext e; apply Fin.ext
  match e with | ⟨0, _⟩ => rfl | ⟨1, _⟩ => rfl | ⟨2, _⟩ => rfl

/-- The sum of a row, from the zero word. -/
theorem rowsum_apply {n0 n1 a c : ℕ} (X : FVec Ideal ⟨4, ![n0, n1, a, c]⟩ .f32)
    (red : (⟨4, ![n0, n1, a, c]⟩ : Shape).ReducesTo [3] ⟨3, ![n0, n1, a]⟩) (hu : 0 < (⟨0, ![]⟩ : Shape).numel)
    (b : Fin n0) (h : Fin n1) (i : Fin a) :
    Host.reduceAdd (F := Ideal) X (constant (F := Ideal) ⟨0, ![]⟩ .f32 0x00000000#32) red hu (ix3 b h i)
      = ∑ j : Fin c, X (ix4 b h i j) := by
  have hr := reduces_of_reducesTo red (Nat.succ_pos _)
  refine (Ideal.hostReduceAdd_single red hr _ _ _).trans ?_
  rw [show (constant (F := Ideal) ⟨0, ![]⟩ .f32 0x00000000#32) (Shape.Idx.first hu) = (0 : EReal) from Ideal.ofBits_zero_f32, zero_add]
  refine Finset.sum_congr rfl fun k _ => ?_
  rw [lift_col]
  rfl

/-- The sum of a column, from the zero word. -/
theorem colsum_apply {n0 n1 a c : ℕ} (X : FVec Ideal ⟨4, ![n0, n1, a, c]⟩ .f32)
    (red : (⟨4, ![n0, n1, a, c]⟩ : Shape).ReducesTo [2] ⟨3, ![n0, n1, c]⟩) (hu : 0 < (⟨0, ![]⟩ : Shape).numel)
    (b : Fin n0) (h : Fin n1) (t : Fin c) :
    Host.reduceAdd (F := Ideal) X (constant (F := Ideal) ⟨0, ![]⟩ .f32 0x00000000#32) red hu (ix3 b h t)
      = ∑ s : Fin a, X (ix4 b h s t) := by
  have hr := reduces_of_reducesTo red (Nat.succ_pos _)
  refine (Ideal.hostReduceAdd_single red hr _ _ _).trans ?_
  rw [show (constant (F := Ideal) ⟨0, ![]⟩ .f32 0x00000000#32) (Shape.Idx.first hu) = (0 : EReal) from Ideal.ofBits_zero_f32, zero_add]
  refine Finset.sum_congr rfl fun k _ => ?_
  rw [lift_row]
  rfl

/-- The maximum of a row folded from the word of −∞, once more compared with that word: the shift of a softmax row. -/
theorem rowmax_apply {n0 n1 a c : ℕ} (X : FVec Ideal ⟨4, ![n0, n1, a, c]⟩ .f32)
    (red : (⟨4, ![n0, n1, a, c]⟩ : Shape).ReducesTo [3] ⟨3, ![n0, n1, a]⟩) (hu : 0 < (⟨0, ![]⟩ : Shape).numel)
    (hb : (⟨0, ![]⟩ : Shape).BroadcastsInDim ⟨3, ![n0, n1, a]⟩ (![] : Fin 0 → Fin 3))
    (b : Fin n0) (h : Fin n1) (i : Fin a) :
    maximumf (broadcastInDim ⟨3, ![n0, n1, a]⟩ ![] hb (constant (F := Ideal) ⟨0, ![]⟩ .f32 0xFF800000#32))
        (Host.reduce FloatOps.maximumf X (constant (F := Ideal) ⟨0, ![]⟩ .f32 0xFF800000#32) red hu) (ix3 b h i)
      = rowShift fun j : Fin c => X (ix4 b h i j) := by
  have hr := reduces_of_reducesTo red (Nat.succ_pos _)
  show max (Ideal.ofBits .f32 0xFF800000#32) (Host.reduce FloatOps.maximumf X _ red hu (ix3 b h i)) = _
  rw [Host.reduce_eq_fold_single FloatOps.maximumf X _ red hr hu]
  have hf : (X ∘ hr.lift (ix3 b h i)) = fun k : Fin c => X (ix4 b h i k) := funext fun k => congrArg X (lift_col hr b h i k)
  rw [hf]
  rfl

/-- The maximum over the last axis of a [n0, n1, c] array, folded from the word of −∞. -/
theorem lastmax_apply {n0 n1 c : ℕ} (Y : FVec Ideal ⟨3, ![n0, n1, c]⟩ .f32)
    (red : (⟨3, ![n0, n1, c]⟩ : Shape).ReducesTo [2] ⟨2, ![n0, n1]⟩) (hu : 0 < (⟨0, ![]⟩ : Shape).numel)
    (b : Fin n0) (h : Fin n1) :
    Host.reduce FloatOps.maximumf Y (constant (F := Ideal) ⟨0, ![]⟩ .f32 0xFF800000#32) red hu (ix2 b h)
      = vmax fun t : Fin c => Y (ix3 b h t) := by
  have hr := reduces_of_reducesTo red (Nat.succ_pos _)
  rw [Host.reduce_eq_fold_single FloatOps.maximumf Y _ red hr hu]
  have hf : (Y ∘ hr.lift (ix2 b h)) = fun k : Fin c => Y (ix3 b h k) := funext fun k => congrArg Y (lift_last hr b h k)
  rw [hf]
  rfl

/-! ### The identity matrix -/

/-- "Row number equals column number", as a float: 1 on the diagonal, 0 elsewhere. -/
theorem eye_apply (bc : (⟨0, ![]⟩ : Shape).BroadcastsInDim ⟨2, ![64, 64]⟩ (![] : Fin 0 → Fin 2)) (i j : Fin 64) :
    uitofp (F := Ideal) .f32 (cmpi .eq (addi (iotaInDim ⟨2, ![64, 64]⟩ 32 0)
        (broadcastInDim ⟨2, ![64, 64]⟩ ![] bc (constantI ⟨0, ![]⟩ 32 0#32))) (iotaInDim ⟨2, ![64, 64]⟩ 32 1)) (ix2 i j)
      = eye 64 i j := by
  show (((IntOp.cmpi .eq (IntOp.addi (BitVec.ofNat 32 i.val) 0#32) (BitVec.ofNat 32 j.val)).toNat : ℝ) : EReal) = _
  unfold eye IntOp.cmpi IntOp.addi
  rw [BitVec.add_zero]
  by_cases hij : i = j
  · subst hij; simp
  · have hne : ¬ (BitVec.ofNat 32 i.val = BitVec.ofNat 32 j.val) := by
      intro e; apply hij; apply Fin.ext
      have e' := congrArg BitVec.toNat e
      simp [BitVec.toNat_ofNat] at e'
      have := i.isLt; have := j.isLt
      omega
    simp [hij, hne]

end Cert.Nys.Ref

end
-- ==== Proof.RefOpsA.lean ====
/-
  The reference's buffers up to the three softmax kernels, read at (b, h, i, j): each is the matching piece of the
  specification for head h of batch entry b.
-/
import proofs.«128605_j74680891343409_2_alg».proof.Proof.Gen.ReferenceIdeal.Run
import proofs.«128605_j74680891343409_2_alg».proof.Proof.RefOps

noncomputable section

namespace Cert.Nys.Ref

open Idealize.ShloMosaic Idealize.ShloMosaic.ValueIdx Idealize.ShloMosaic.StableHlo Cert.ReferenceIdeal Cert.ReferenceIdeal.Value Cert.Nys
open scoped BigOperators

/-! ### The program's six contractions -/

theorem dot_q_klm_apply (L : FVec Ideal S4x16x4096x64 .f32) (R : FVec Ideal S4x16x64x64 .f32) (b : Fin 4) (h : Fin 16) (i : Fin 4096) (j : Fin 64) :
    Host.dotGeneral dot_S4x16x4096x64_S4x16x64x64_S4x16x4096x64_3_3_2_2_01_01 none L R (ix4 b h i j) = ∑ t : Fin 64, L (ix4 b h i t) * R (ix4 b h j t) :=
  dotNT_apply Facts₀.dot_S4x16x4096x64_S4x16x64x64_S4x16x4096x64_3_3_2_2_01_01_wf L R b h i j

theorem dot_qlm_klm_apply (L : FVec Ideal S4x16x64x64 .f32) (R : FVec Ideal S4x16x64x64 .f32) (b : Fin 4) (h : Fin 16) (i : Fin 64) (j : Fin 64) :
    Host.dotGeneral dot_S4x16x64x64_S4x16x64x64_S4x16x64x64_3_3_2_2_01_01 none L R (ix4 b h i j) = ∑ t : Fin 64, L (ix4 b h i t) * R (ix4 b h j t) :=
  dotNT_apply Facts₀.dot_S4x16x64x64_S4x16x64x64_S4x16x64x64_3_3_2_2_01_01_wf L R b h i j

theorem dot_qlm_k_apply (L : FVec Ideal S4x16x64x64 .f32) (R : FVec Ideal S4x16x4096x64 .f32) (b : Fin 4) (h : Fin 16) (i : Fin 64) (j : Fin 4096) :
    Host.dotGeneral dot_S4x16x64x64_S4x16x4096x64_S4x16x64x4096_3_3_2_2_01_01 none L R (ix4 b h i j) = ∑ t : Fin 64, L (ix4 b h i t) * R (ix4 b h j t) :=
  dotNT_apply Facts₀.dot_S4x16x64x64_S4x16x4096x64_S4x16x64x4096_3_3_2_2_01_01_wf L R b h i j

theorem dot_sq_apply (L : FVec Ideal S4x16x64x64 .f32) (R : FVec Ideal S4x16x64x64 .f32) (b : Fin 4) (h : Fin 16) (i : Fin 64) (j : Fin 64) :
    Host.dotGeneral dot_S4x16x64x64_S4x16x64x64_S4x16x64x64_3_2_2_3_01_01 none L R (ix4 b h i j) = ∑ t : Fin 64, L (ix4 b h i t) * R (ix4 b h t j) :=
  dotNN_apply Facts₀.dot_S4x16x64x64_S4x16x64x64_S4x16x64x64_3_2_2_3_01_01_wf L R b h i j

theorem dot_tall_apply (L : FVec Ideal S4x16x4096x64 .f32) (R : FVec Ideal S4x16x64x64 .f32) (b : Fin 4) (h : Fin 16) (i : Fin 4096) (j : Fin 64) :
    Host.dotGeneral dot_S4x16x4096x64_S4x16x64x64_S4x16x4096x64_3_2_2_3_01_01 none L R (ix4 b h i j) = ∑ t : Fin 64, L (ix4 b h i t) * R (ix4 b h t j) :=
  dotNN_apply Facts₀.dot_S4x16x4096x64_S4x16x64x64_S4x16x4096x64_3_2_2_3_01_01_wf L R b h i j

theorem dot_wide_apply (L : FVec Ideal S4x16x64x4096 .f32) (R : FVec Ideal S4x16x4096x64 .f32) (b : Fin 4) (h : Fin 16) (i : Fin 64) (j : Fin 64) :
    Host.dotGeneral dot_S4x16x64x4096_S4x16x4096x64_S4x16x64x64_3_2_2_3_01_01 none L R (ix4 b h i j) = ∑ t : Fin 4096, L (ix4 b h i t) * R (ix4 b h t j) :=
  dotNN_apply Facts₀.dot_S4x16x64x4096_S4x16x4096x64_S4x16x64x64_3_2_2_3_01_01_wf L R b h i j

/-! ### The pieces of the specification for one head -/

section Head
variable (V0 : Valuation τ sig (Elt Ideal)) (b : Fin 4) (h : Fin 16)

/-- Head h of batch entry b: the queries divided by the word of 8, the keys, the values, and the two poolings. -/
abbrev q : Mat 4096 64 := arrHeadDiv8 (V0 (Proc.devRef .tc main_arg0)) b h
abbrev k : Mat 4096 64 := arrHead (V0 (Proc.devRef .tc main_arg1)) b h
abbrev v : Mat 4096 64 := arrHead (V0 (Proc.devRef .tc main_arg2)) b h
abbrev qlm : Mat 64 64 := poolMean (q V0 b h)
abbrev klm : Mat 64 64 := poolMean (k V0 b h)

theorem v3_apply (n : Fin 4096) (d : Fin 64) : res_main_v3 (F := Ideal) V0 (ix4 b h n d) = q V0 b h n d := by
  unfold res_main_v3
  rw [hdivf_apply, splat_apply, heads_apply]
  rfl

theorem v5_apply (n : Fin 4096) (d : Fin 64) : res_main_v5 (F := Ideal) V0 (ix4 b h n d) = k V0 b h n d := by
  unfold res_main_v5
  rw [heads_apply]
  rfl

theorem v7_apply (sc : S4x4096x1024.ShapeCasts S4x4096x16x64) (tr : S4x4096x16x64.Transposes [0, 2, 1, 3] S4x16x4096x64)
    (n : Fin 4096) (d : Fin 64) :
    transpose S4x16x4096x64 [0, 2, 1, 3] (shapeCast S4x4096x16x64 (V0 (Proc.devRef .tc main_arg2)) sc) tr (ix4 b h n d)
      = v V0 b h n d :=
  heads_apply _ sc tr b h n d

theorem v11_apply (l d : Fin 64) : res_main_v11 (F := Ideal) V0 (ix4 b h l d) = klm V0 b h l d := by
  unfold res_main_v11
  rw [hdivf_apply, splat_apply, pool_apply]
  simp only [v5_apply]
  rfl

theorem v15_apply (l d : Fin 64) : res_main_v15 (F := Ideal) V0 (ix4 b h l d) = qlm V0 b h l d := by
  unfold res_main_v15
  rw [hdivf_apply, splat_apply, pool_apply]
  simp only [v3_apply]
  rfl

theorem v16_apply (i : Fin 4096) (j : Fin 64) :
    res_main_v16 (F := Ideal) V0 (ix4 b h i j) = mmT (q V0 b h) (klm V0 b h) i j := by
  unfold res_main_v16
  rw [dot_q_klm_apply]
  simp only [v3_apply, v11_apply]
  rfl

theorem v23_apply (i : Fin 4096) (j : Fin 64) :
    res_main_v23 (F := Ideal) V0 (ix4 b h i j) = expRow (mmT (q V0 b h) (klm V0 b h)) i j := by
  unfold res_main_v23
  rw [hexp_apply, subf_apply, bcast_row_apply, rowmax_apply]
  simp only [v16_apply]
  rfl

theorem v28_apply (i j : Fin 64) :
    res_main_v28 (F := Ideal) V0 (ix4 b h i j) = mmT (qlm V0 b h) (klm V0 b h) i j := by
  unfold res_main_v28
  rw [dot_qlm_klm_apply]
  simp only [v15_apply, v11_apply]
  rfl

theorem v35_apply (i j : Fin 64) :
    res_main_v35 (F := Ideal) V0 (ix4 b h i j) = expRow (mmT (qlm V0 b h) (klm V0 b h)) i j := by
  unfold res_main_v35
  rw [hexp_apply, subf_apply, bcast_row_apply, rowmax_apply]
  simp only [v28_apply]
  rfl

theorem v39_apply (i j : Fin 64) :
    res_main_v39 (F := Ideal) V0 (ix4 b h i j) = smax (mmT (qlm V0 b h) (klm V0 b h)) i j := by
  unfold res_main_v39
  rw [hdivf_apply, bcast_row_apply, rowsum_apply]
  simp only [v35_apply]
  rfl

theorem v40_apply (i : Fin 64) (j : Fin 4096) :
    res_main_v40 (F := Ideal) V0 (ix4 b h i j) = mmT (qlm V0 b h) (k V0 b h) i j := by
  unfold res_main_v40
  rw [dot_qlm_k_apply]
  simp only [v15_apply, v5_apply]
  rfl

theorem v47_apply (i : Fin 64) (j : Fin 4096) :
    res_main_v47 (F := Ideal) V0 (ix4 b h i j) = expRow (mmT (qlm V0 b h) (k V0 b h)) i j := by
  unfold res_main_v47
  rw [hexp_apply, subf_apply, bcast_row_apply, rowmax_apply]
  simp only [v40_apply]
  rfl

end Head

end Cert.Nys.Ref

end
-- ==== Proof.RefOpsB.lean ====
/-
  The reference's iteration for the pseudo-inverse, read as matrices: for head h of batch entry b the identity
  matrix, the starting point and the steps are the matching pieces of the specification.
-/
import proofs.«128605_j74680891343409_2_alg».proof.Proof.RefOpsA

noncomputable section

namespace Cert.Nys.Ref

open Idealize.ShloMosaic Idealize.ShloMosaic.ValueIdx Idealize.ShloMosaic.StableHlo Cert.ReferenceIdeal Cert.ReferenceIdeal.Gen Cert.ReferenceIdeal.Value Cert.Nys
open scoped BigOperators

/-- The matrix of batch entry b and head h in a [4, 16, a, c] array. -/
def at4 {a c : ℕ} (X : (⟨4, ![4, 16, a, c]⟩ : Shape).Idx → EReal) (b : Fin 4) (h : Fin 16) : Mat a c :=
  fun i j => X (ix4 b h i j)

theorem at4_apply {a c : ℕ} (X : (⟨4, ![4, 16, a, c]⟩ : Shape).Idx → EReal) (b : Fin 4) (h : Fin 16) (i : Fin a) (j : Fin c) :
    at4 X b h i j = X (ix4 b h i j) := rfl

/-! ### The operations of a step, matrix by matrix -/

theorem at4_dot_sq (L R : FVec Ideal S4x16x64x64 .f32) (b : Fin 4) (h : Fin 16) :
    at4 (Host.dotGeneral dot_S4x16x64x64_S4x16x64x64_S4x16x64x64_3_2_2_3_01_01 none L R) b h = mm (at4 L b h) (at4 R b h) := by
  funext i j
  exact dot_sq_apply L R b h i j

theorem at4_dot_tall (L : FVec Ideal S4x16x4096x64 .f32) (R : FVec Ideal S4x16x64x64 .f32) (b : Fin 4) (h : Fin 16) :
    at4 (Host.dotGeneral dot_S4x16x4096x64_S4x16x64x64_S4x16x4096x64_3_2_2_3_01_01 none L R) b h = mm (at4 L b h) (at4 R b h) := by
  funext i j
  exact dot_tall_apply L R b h i j

theorem at4_dot_wide (L : FVec Ideal S4x16x64x4096 .f32) (R : FVec Ideal S4x16x4096x64 .f32) (b : Fin 4) (h : Fin 16) :
    at4 (Host.dotGeneral dot_S4x16x64x4096_S4x16x4096x64_S4x16x64x64_3_2_2_3_01_01 none L R) b h = mm (at4 L b h) (at4 R b h) := by
  funext i j
  exact dot_wide_apply L R b h i j

/-- Every entry times a scalar constant. -/
theorem at4_scale (w : BitVec 32) (V : FVec Ideal S4x16x64x64 .f32) (b : Fin 4) (h : Fin 16) :
    at4 (mulf (broadcastInDim S4x16x64x64 ![] bcast_S_S4x16x64x64 (constant (F := Ideal) S_ .f32 w)) V) b h
      = fun i j => Ideal.ofBits .f32 w * at4 V b h i j := rfl

/-- A scalar multiple of one 64 × 64 matrix, the same for every head, minus an array. -/
theorem at4_sub_eye (w : BitVec 32) (E : FVec Ideal S64x64 .f32) (Y : FVec Ideal S4x16x64x64 .f32) (b : Fin 4) (h : Fin 16) :
    at4 (subf (broadcastInDim S4x16x64x64 ![0, 1, 2, 3] bcast_S1x1x64x64_S4x16x64x64_0_1_2_3
        (broadcastInDim S1x1x64x64 ![2, 3] bcast_S64x64_S1x1x64x64_2_3
          (mulf (broadcastInDim S64x64 ![] bcast_S_S64x64 (constant (F := Ideal) S_ .f32 w)) E))) Y) b h
      = fun i j => Ideal.ofBits .f32 w * asMat E i j - at4 Y b h i j := by
  funext i j
  rw [at4_apply, subf_apply, bcast_mat_apply]
  rfl

/-- One step of the iteration over arbitrary arrays: with V and K·V the matrices of (b, h) in the arrays Vv and KV,
    and E the identity, the program's term for the next iterate is the specification's step. -/
theorem step_mat (b : Fin 4) (h : Fin 16) (Vv KV : FVec Ideal S4x16x64x64 .f32) (E : FVec Ideal S64x64 .f32) (Km Vm : Mat 64 64)
    (hV : at4 Vv b h = Vm) (hKV : at4 KV b h = mm Km Vm) (hE : asMat E = eye 64) :
    at4 (Host.dotGeneral dot_S4x16x64x64_S4x16x64x64_S4x16x64x64_3_2_2_3_01_01 none (mulf (broadcastInDim S4x16x64x64 ![] bcast_S_S4x16x64x64 (constant (F := Ideal) S_ .f32 0x3E800000#32)) Vv) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant (F := Ideal) S_ .f32 0x41500000#32)) E))) (Host.dotGeneral dot_S4x16x64x64_S4x16x64x64_S4x16x64x64_3_2_2_3_01_01 none KV (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant (F := Ideal) S_ .f32 0x41700000#32)) E))) (Host.dotGeneral dot_S4x16x64x64_S4x16x64x64_S4x16x64x64_3_2_2_3_01_01 none KV (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant (F := Ideal) S_ .f32 0x40E00000#32)) E))) KV)))))) b h = nsStep Km Vm := by
  rw [at4_dot_sq, at4_scale, at4_sub_eye, at4_dot_sq, at4_sub_eye, at4_dot_sq, at4_sub_eye, hV, hKV, hE]
  rfl

section Head
variable (V0 : Valuation τ sig (Elt Ideal)) (b : Fin 4) (h : Fin 16)

/-- The middle softmax kernel of head h of batch entry b, and the iterates from it. -/
abbrev K2 : Mat 64 64 := smax (mmT (qlm V0 b h) (klm V0 b h))
abbrev Z0 : Mat 64 64 := nsInit (K2 V0 b h)
abbrev Z1 : Mat 64 64 := nsStep (K2 V0 b h) (Z0 V0 b h)
abbrev Z2 : Mat 64 64 := nsStep (K2 V0 b h) (Z1 V0 b h)
abbrev Z3 : Mat 64 64 := nsStep (K2 V0 b h) (Z2 V0 b h)
abbrev Z4 : Mat 64 64 := nsStep (K2 V0 b h) (Z3 V0 b h)
abbrev Z5 : Mat 64 64 := nsStep (K2 V0 b h) (Z4 V0 b h)

theorem v57_mat : asMat (res_main_v57 (F := Ideal) V0 : FVec Ideal S64x64 .f32) = eye 64 := by
  funext i j
  unfold res_main_v57
  exact eye_apply _ i j

theorem v39_mat : at4 (res_main_v39 (F := Ideal) V0 : FVec Ideal S4x16x64x64 .f32) b h = K2 V0 b h := by
  funext i j
  exact v39_apply V0 b h i j

theorem v65_mat : at4 (res_main_v65 (F := Ideal) V0 : FVec Ideal S4x16x64x64 .f32) b h = Z0 V0 b h := by
  funext i j
  unfold res_main_v65
  rw [at4_apply, mulf_apply, bcast_unit_apply, hdivf_apply, splat_apply, bcast_head_apply, lastmax_apply, swap_apply]
  simp only [colsum_apply, v39_apply]
  rfl

theorem v66_mat : at4 (res_main_v66 (F := Ideal) V0 : FVec Ideal S4x16x64x64 .f32) b h = mm (K2 V0 b h) (Z0 V0 b h) := by
  unfold res_main_v66
  rw [at4_dot_sq, v39_mat, v65_mat]

theorem v86_mat : at4 (res_main_v86 (F := Ideal) V0 : FVec Ideal S4x16x64x64 .f32) b h = Z1 V0 b h := by
  unfold res_main_v86
  exact step_mat b h _ _ _ (K2 V0 b h) (Z0 V0 b h) (v65_mat V0 b h) (v66_mat V0 b h) (v57_mat V0)

theorem v87_mat : at4 (res_main_v87 (F := Ideal) V0 : FVec Ideal S4x16x64x64 .f32) b h = mm (K2 V0 b h) (Z1 V0 b h) := by
  unfold res_main_v87
  rw [at4_dot_sq, v39_mat, v86_mat]

theorem v107_mat : at4 (res_main_v107 (F := Ideal) V0 : FVec Ideal S4x16x64x64 .f32) b h = Z2 V0 b h := by
  unfold res_main_v107
  exact step_mat b h _ _ _ (K2 V0 b h) (Z1 V0 b h) (v86_mat V0 b h) (v87_mat V0 b h) (v57_mat V0)

theorem v108_mat : at4 (res_main_v108 (F := Ideal) V0 : FVec Ideal S4x16x64x64 .f32) b h = mm (K2 V0 b h) (Z2 V0 b h) := by
  unfold res_main_v108
  rw [at4_dot_sq, v39_mat, v107_mat]

theorem v128_mat : at4 (res_main_v128 (F := Ideal) V0 : FVec Ideal S4x16x64x64 .f32) b h = Z3 V0 b h := by
  unfold res_main_v128
  exact step_mat b h _ _ _ (K2 V0 b h) (Z2 V0 b h) (v107_mat V0 b h) (v108_mat V0 b h) (v57_mat V0)

theorem v129_mat : at4 (res_main_v129 (F := Ideal) V0 : FVec Ideal S4x16x64x64 .f32) b h = mm (K2 V0 b h) (Z3 V0 b h) := by
  unfold res_main_v129
  rw [at4_dot_sq, v39_mat, v128_mat]

theorem v149_mat : at4 (res_main_v149 (F := Ideal) V0 : FVec Ideal S4x16x64x64 .f32) b h = Z4 V0 b h := by
  unfold res_main_v149
  exact step_mat b h _ _ _ (K2 V0 b h) (Z3 V0 b h) (v128_mat V0 b h) (v129_mat V0 b h) (v57_mat V0)

theorem v150_mat : at4 (res_main_v150 (F := Ideal) V0 : FVec Ideal S4x16x64x64 .f32) b h = mm (K2 V0 b h) (Z4 V0 b h) := by
  unfold res_main_v150
  rw [at4_dot_sq, v39_mat, v149_mat]

theorem v170_mat : at4 (res_main_v170 (F := Ideal) V0 : FVec Ideal S4x16x64x64 .f32) b h = Z5 V0 b h := by
  unfold res_main_v170
  exact step_mat b h _ _ _ (K2 V0 b h) (Z4 V0 b h) (v149_mat V0 b h) (v150_mat V0 b h) (v57_mat V0)

theorem v171_mat : at4 (res_main_v171 (F := Ideal) V0 : FVec Ideal S4x16x64x64 .f32) b h = mm (K2 V0 b h) (Z5 V0 b h) := by
  unfold res_main_v171
  rw [at4_dot_sq, v39_mat, v170_mat]

/-- A softmax kernel over arbitrary arrays: an array whose matrix at (b, h) is the exponentials `expRow S`, divided by its
    row sums broadcast back, is `smax S` there. The tall shape (4096 rows of 64). -/
theorem smax_mat_tall (X : FVec Ideal S4x16x4096x64 .f32) (S : Mat 4096 64) (hX : ∀ i j, X (ix4 b h i j) = expRow S i j) :
    at4 (Host.divf (F := Ideal) X (broadcastInDim S4x16x4096x64 ![0, 1, 2, 3] bcast_S4x16x4096x1_S4x16x4096x64_0_1_2_3
        (broadcastInDim S4x16x4096x1 ![0, 1, 2] bcast_S4x16x4096_S4x16x4096x1_0_1_2
          (Host.reduceAdd (F := Ideal) X (constant (F := Ideal) S_ .f32 0x00000000#32) reducesTo_S4x16x4096x64_S4x16x4096_d3 h_S_)))) b h
      = smax S := by
  funext i j
  rw [at4_apply, hdivf_apply, bcast_row_apply, rowsum_apply]
  simp only [hX]
  rfl

/-- The same for the wide shape (64 rows of 4096). -/
theorem smax_mat_wide (X : FVec Ideal S4x16x64x4096 .f32) (S : Mat 64 4096) (hX : ∀ i j, X (ix4 b h i j) = expRow S i j) :
    at4 (Host.divf (F := Ideal) X (broadcastInDim S4x16x64x4096 ![0, 1, 2, 3] bcast_S4x16x64x1_S4x16x64x4096_0_1_2_3
        (broadcastInDim S4x16x64x1 ![0, 1, 2] bcast_S4x16x64_S4x16x64x1_0_1_2
          (Host.reduceAdd (F := Ideal) X (constant (F := Ideal) S_ .f32 0x00000000#32) reducesTo_S4x16x64x4096_S4x16x64_d3 h_S_)))) b h
      = smax S := by
  funext i j
  rw [at4_apply, hdivf_apply, bcast_row_apply, rowsum_apply]
  simp only [hX]
  rfl

/-- The values of head h of batch entry b, as the program cuts them out of the third argument. -/
theorem v7_mat :
    at4 (transpose S4x16x4096x64 [0, 2, 1, 3] (shapeCast S4x4096x16x64 (V0 (Proc.devRef .tc main_arg2)) shapeCasts_S4x4096x1024_S4x4096x16x64)
        transposes_S4x4096x16x64_S4x16x4096x64_0_2_1_3) b h = v V0 b h := by
  funext n d
  exact v7_apply V0 b h _ _ n d

end Head

end Cert.Nys.Ref

end
-- ==== Proof.RefRead.lean ====
/- The reference's result array is `Cert.Nys.G` of its three argument arrays. -/
import proofs.«128605_j74680891343409_2_alg».proof.Proof.Gen.ReferenceIdeal.Run
import proofs.«128605_j74680891343409_2_alg».proof.Proof.NysSpec
import proofs.«128605_j74680891343409_2_alg».proof.Proof.RefOpsB

noncomputable section

namespace Cert.Nys.Ref

open Idealize.ShloMosaic Idealize.ShloMosaic.ValueIdx Idealize.ShloMosaic.StableHlo Cert.ReferenceIdeal Cert.ReferenceIdeal.Value Cert.Nys

/-- The way back from heads to channels, read as an entry of the matrix of one head: entry (b, n, c) of the result is
    row n, column c mod 64 of the matrix of batch entry b and head c / 64. -/
theorem unheads_at4 (Y : (⟨4, ![4, 16, 4096, 64]⟩ : Shape).Idx → EReal)
    (tr : (⟨4, ![4, 16, 4096, 64]⟩ : Shape).Transposes [0, 2, 1, 3] ⟨4, ![4, 4096, 16, 64]⟩)
    (sc : (⟨4, ![4, 4096, 16, 64]⟩ : Shape).ShapeCasts ⟨3, ![4, 4096, 1024]⟩)
    (b : Fin 4) (n : Fin 4096) (c : Fin 1024) :
    shapeCast ⟨3, ![4, 4096, 1024]⟩ (transpose ⟨4, ![4, 4096, 16, 64]⟩ [0, 2, 1, 3] Y tr) sc (ix3 b n c)
      = at4 Y b (headOf c) n (inHead c) :=
  unheads_apply Y tr sc b n c

/-- After all of the reference's host operations its result buffer holds `G` of the argument arrays. -/
theorem result_eq (V0 : Valuation τ sig (Elt Ideal)) :
    val4 V0 (Proc.devRef .tc main_v196)
      = G (V0 (Proc.devRef .tc main_arg0)) (V0 (Proc.devRef .tc main_arg1)) (V0 (Proc.devRef .tc main_arg2)) := by
  funext idx
  obtain ⟨b, n, c, rfl⟩ : ∃ (b : Fin 4) (n : Fin 4096) (c : Fin 1024), idx = ix3 b n c := ⟨idx 0, idx 1, idx 2, eq_ix3 idx⟩
  rw [val4_main_v196, unheads_at4, at4_dot_tall, at4_dot_tall, at4_dot_wide,
    smax_mat_tall b (headOf c) _ _ (v23_apply V0 b (headOf c)),
    step_mat b (headOf c) _ _ _ (K2 V0 b (headOf c)) (Z5 V0 b (headOf c)) (v170_mat V0 b (headOf c)) (v171_mat V0 b (headOf c))
      (v57_mat V0),
    smax_mat_wide b (headOf c) _ _ (v47_apply V0 b (headOf c)), v7_mat]
  rfl

end Cert.Nys.Ref

end
-- ==== Proof.KernArray.lean ====
/-
  From the kernel's blocks to its result array.

  The kernel runs on a 4 × 8 grid; point (b, p) reads the 1 × 4096 × 128 blocks of the three arguments
  at batch entry b and channels 128 p … 128 p + 127 (heads 2 p and 2 p + 1), and the whole pooling
  matrix, and writes the block of the result at the same place.  The pooling matrix is what the host
  operations before the launch leave: entry (l, n) is (1 if l = n / 64, else 0) divided by the word of 64.
  Each block written is the attention of its two heads, which on real entries is the reference's
  formula; the 32 blocks tile the result array, so the array is that formula everywhere.
-/
import proofs.«128605_j74680891343409_2_alg».proof.Proof.Gen.KernelIdeal.Value
import proofs.«128605_j74680891343409_2_alg».proof.Proof.NysSpec
import proofs.«128605_j74680891343409_2_alg».proof.Proof.NysLaws
import proofs.«128605_j74680891343409_2_alg».proof.Proof.KernRead
import Idealize.ShloMosaic.Lib.Pipeline.Value
import Idealize.ShloMosaic.Lib.ValueLayout
import Idealize.ShloMosaic.Lib.Affine
import Idealize.ShloMosaic.Lib.Tactic

noncomputable section

namespace Cert.Nys.Arr

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Value Cert.Nys

variable (m : (ℓ : Loc nD τ sig) → Buf (Elt Ideal) ℓ) (ρ : Dev nD → PrngReg)

/-! ### The pooling matrix the host leaves -/

/-- The word comparing l with s (both below 64, l after adding the zero word), read as a float, is the
    identity matrix's entry. -/
theorem eye_word (l s : Fin 64) :
    (((IntOp.cmpi .eq (IntOp.addi (BitVec.ofNat 32 l.val) 0#32) (BitVec.ofNat 32 s.val)).toNat : ℝ) : EReal)
      = eye 64 l s := by
  unfold eye
  by_cases h : l = s
  · subst h
    have e : IntOp.cmpi .eq (IntOp.addi (BitVec.ofNat 32 l.val) 0#32) (BitVec.ofNat 32 l.val) = 1#1 :=
      IntOp.cmpi_eq.2 (by simp [IntOp.addi])
    rw [if_pos rfl, e]
    simp
  · have e : IntOp.cmpi .eq (IntOp.addi (BitVec.ofNat 32 l.val) 0#32) (BitVec.ofNat 32 s.val) = 0#1 := by
      refine eq_zero_of_ne_one fun h1 => h ?_
      have h2 := congrArg BitVec.toNat (IntOp.cmpi_eq.1 h1)
      simp [IntOp.addi, BitVec.toNat_ofNat] at h2
      have hl := l.isLt; have hs := s.isLt
      exact Fin.ext (by omega)
    rw [if_neg h, e]
    simp

/-- The host operations' term, read at (l, n): the row-major reshape sends (l, n) to (l, n / 64, n mod 64),
    the broadcast drops the last coordinate, and the quotient by the splat of 64 is taken entrywise. -/
theorem pool_term_apply (h1 : S_.BroadcastsInDim S64x64 (![] : Fin 0 → Fin S64x64.rank))
    (h2 : S64x64.BroadcastsInDim S64x64x64 (![0, 1] : Fin 2 → Fin S64x64x64.rank))
    (h3 : S64x64x64.ShapeCasts S64x4096) (h4 : S_.BroadcastsInDim S64x4096 (![] : Fin 0 → Fin S64x4096.rank))
    (l : Fin 64) (n : Fin 4096) :
    Host.divf (F := Ideal)
        (shapeCast S64x4096
          (broadcastInDim S64x64x64 ![0, 1] h2
            (uitofp (F := Ideal) .f32
              (cmpi .eq (addi (iotaInDim S64x64 32 0) (broadcastInDim S64x64 ![] h1 (constantI S_ 32 0#32)))
                (iotaInDim S64x64 32 1))))
          h3)
        (broadcastInDim S64x4096 ![] h4 (constant (F := Ideal) S_ .f32 0x42800000#32)) (ix2 l n)
      = poolMat l n := by
  have hb : broadcastInDim S64x4096 ![] h4 (constant (F := Ideal) S_ .f32 0x42800000#32) (ix2 l n) = w64 := by
    rw [broadcastInDim_apply _ h4 _ (ix2 l n) ix0 (fun a => a.elim0)]; rfl
  have ha : shapeCast S64x4096
          (broadcastInDim S64x64x64 ![0, 1] h2
            (uitofp (F := Ideal) .f32
              (cmpi .eq (addi (iotaInDim S64x64 32 0) (broadcastInDim S64x64 ![] h1 (constantI S_ 32 0#32)))
                (iotaInDim S64x64 32 1))))
          h3 (ix2 l n) = eye 64 l (segOf n) := by
    rw [shapeCast_apply _ h3 (ix2 l n) (ix3 l (segOf n) (offOf n)) (by
      rw [Shape.rowMajor_val_three, Shape.rowMajor_val_two]
      show (l.val * 64 + n.val / 64) * 64 + n.val % 64 = l.val * 4096 + n.val
      omega)]
    rw [broadcastInDim_apply _ h2 _ (ix3 l (segOf n) (offOf n)) (ix2 l (segOf n)) (fun a => by
      match a with
      | ⟨0, _⟩ => rfl
      | ⟨1, _⟩ => rfl)]
    rw [← eye_word l (segOf n)]
    have hz : broadcastInDim S64x64 ![] h1 (constantI S_ 32 0#32) (ix2 l (segOf n)) = 0#32 := by
      rw [broadcastInDim_apply _ h1 _ (ix2 l (segOf n)) ix0 (fun a => a.elim0)]; rfl
    show (((IntOp.cmpi .eq (IntOp.addi (BitVec.ofNat 32 l.val)
        (broadcastInDim S64x64 ![] h1 (constantI S_ 32 0#32) (ix2 l (segOf n)))) (BitVec.ofNat 32 (segOf n).val)).toNat : ℝ) : EReal) = _
    rw [hz]
  show Ideal.div _ _ = Ideal.div (eye 64 l (segOf n)) w64
  rw [ha, hb]

/-- The array window 0 stages is the pooling matrix. -/
theorem pmat (c : Dev nD) : asMat (V m c main_v9 : S64x4096.Idx → EReal) = poolMat := by
  funext l n
  show (V m c main_v9 : S64x4096.Idx → EReal) (ix2 l n) = poolMat l n
  dsimp only [Gen.V, Gen.hostOps0]
  after_results
  exact pool_term_apply _ _ _ _ l n

/-! ### The index maps, decided over the 32 grid points -/

/-- Window 0 always stages block (0, 0); windows 1 to 3 move with the output window 4, whose block index is
    (b, 0, p) with b below 4 and p below 8. -/
theorem idx_facts : ∀ t : Fin cfg0.N,
    win0_0.index t (0 : Fin 2) = 0 ∧ win0_0.index t (1 : Fin 2) = 0
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 3) = win0_4.index t (0 : Fin 3) ∧ win0_2.index t (1 : Fin 3) = 0
    ∧ win0_2.index t (2 : Fin 3) = win0_4.index t (2 : Fin 3)
    ∧ win0_3.index t (0 : Fin 3) = win0_4.index t (0 : Fin 3) ∧ win0_3.index t (1 : Fin 3) = 0
    ∧ win0_3.index t (2 : Fin 3) = win0_4.index t (2 : Fin 3)
    ∧ win0_4.index t (1 : Fin 3) = 0 ∧ win0_4.index t (0 : Fin 3) < 4 ∧ win0_4.index t (2 : Fin 3) < 8 :=
  (by decide +kernel : ∀ t : Fin grid0.N, _)

/-- Every block index (b, 0, p) is some point's. -/
theorem idx_onto : ∀ (q0 : Fin 4) (q2 : Fin 8), ∃ t : Fin cfg0.N, win0_4.index t = ![q0.val, 0, q2.val] :=
  (by decide +kernel : ∀ (q0 : Fin 4) (q2 : Fin 8), ∃ t : Fin grid0.N, win0_4.index t = ![q0.val, 0, q2.val])

/-! ### The input blocks at a point -/

/-- Window 0's block is the whole array it stages. -/
theorem iblk0_eq (c : Dev nD) (t : Fin cfg0.N) :
    (iblk m c 0 t : Vec Ideal S64x4096 .f32) = (V m c main_v9 : S64x4096.Idx → EReal) := by
  obtain ⟨e0, e1, -⟩ := idx_facts t
  funext x
  unfold iblk
  rw [View.read_apply]
  show V m c main_v9 _ = V m c main_v9 x
  congr 1
  funext a
  apply Fin.ext
  match a with
  | ⟨0, _⟩ => show win0_0.index t (0 : Fin 2) * 64 + 1 * (x 0).val = (x 0).val; omega
  | ⟨1, _⟩ => show win0_0.index t (1 : Fin 2) * 4096 + 1 * (x 1).val = (x 1).val; omega

/-- Window 1's block at a point is the first argument read at block index × block size + the place inside. -/
theorem iblk1_apply (c : Dev nD) (t : Fin cfg0.N) (x : S1x4096x128.Idx) (k : S4x4096x1024.Idx)
    (hk0 : (k 0).val = win0_1.index t (0 : Fin 3) * 1 + (x 0).val)
    (hk1 : (k 1).val = win0_1.index t (1 : Fin 3) * 4096 + (x 1).val)
    (hk2 : (k 2).val = win0_1.index t (2 : Fin 3) * 128 + (x 2).val) :
    (iblk m c 1 t : Vec Ideal S1x4096x128 .f32) x
      = (m ((c : Thread nD τ).loc main_arg0) : S4x4096x1024.Idx → EReal) k := by
  unfold iblk
  rw [View.read_apply]
  show V m c main_arg0 _ = m (c.tc.loc main_arg0) _
  rw [V_main_arg0]
  congr 1
  funext a
  apply Fin.ext
  match a with
  | ⟨0, _⟩ => show win0_1.index t (0 : Fin 3) * 1 + 1 * (x 0).val = (k 0).val; omega
  | ⟨1, _⟩ => show win0_1.index t (1 : Fin 3) * 4096 + 1 * (x 1).val = (k 1).val; omega
  | ⟨2, _⟩ => show win0_1.index t (2 : Fin 3) * 128 + 1 * (x 2).val = (k 2).val; omega

/-- Window 2's block, likewise of the second argument. -/
theorem iblk2_apply (c : Dev nD) (t : Fin cfg0.N) (x : S1x4096x128.Idx) (k : S4x4096x1024.Idx)
    (hk0 : (k 0).val = win0_2.index t (0 : Fin 3) * 1 + (x 0).val)
    (hk1 : (k 1).val = win0_2.index t (1 : Fin 3) * 4096 + (x 1).val)
    (hk2 : (k 2).val = win0_2.index t (2 : Fin 3) * 128 + (x 2).val) :
    (iblk m c 2 t : Vec Ideal S1x4096x128 .f32) x
      = (m ((c : Thread nD τ).loc main_arg1) : S4x4096x1024.Idx → EReal) k := by
  unfold iblk
  rw [View.read_apply]
  show V m c main_arg1 _ = m (c.tc.loc main_arg1) _
  rw [V_main_arg1]
  congr 1
  funext a
  apply Fin.ext
  match a with
  | ⟨0, _⟩ => show win0_2.index t (0 : Fin 3) * 1 + 1 * (x 0).val = (k 0).val; omega
  | ⟨1, _⟩ => show win0_2.index t (1 : Fin 3) * 4096 + 1 * (x 1).val = (k 1).val; omega
  | ⟨2, _⟩ => show win0_2.index t (2 : Fin 3) * 128 + 1 * (x 2).val = (k 2).val; omega

/-- Window 3's block, likewise of the third argument. -/
theorem iblk3_apply (c : Dev nD) (t : Fin cfg0.N) (x : S1x4096x128.Idx) (k : S4x4096x1024.Idx)
    (hk0 : (k 0).val = win0_3.index t (0 : Fin 3) * 1 + (x 0).val)
    (hk1 : (k 1).val = win0_3.index t (1 : Fin 3) * 4096 + (x 1).val)
    (hk2 : (k 2).val = win0_3.index t (2 : Fin 3) * 128 + (x 2).val) :
    (iblk m c 3 t : Vec Ideal S1x4096x128 .f32) x
      = (m ((c : Thread nD τ).loc main_arg2) : S4x4096x1024.Idx → EReal) k := by
  unfold iblk
  rw [View.read_apply]
  show V m c main_arg2 _ = m (c.tc.loc main_arg2) _
  rw [V_main_arg2]
  congr 1
  funext a
  apply Fin.ext
  match a with
  | ⟨0, _⟩ => show win0_3.index t (0 : Fin 3) * 1 + 1 * (x 0).val = (k 0).val; omega
  | ⟨1, _⟩ => show win0_3.index t (1 : Fin 3) * 4096 + 1 * (x 1).val = (k 1).val; omega
  | ⟨2, _⟩ => show win0_3.index t (2 : Fin 3) * 128 + 1 * (x 2).val = (k 2).val; omega

/-! ### One point's block is the result's -/

/-- Over plain vectors: if x0 is the pooling matrix and x1, x2, x3 hold the arguments' entries at batch
    entry b and channels 128 p + ·, then the block the body leaves, at (0, n, c), is the result array's
    formula at (b, n, 128 p + c).  Column c is column c mod 64 of head c / 64 of the block, which is head
    2 p + c / 64 of the array. -/
theorem point_entry (Q K V' : S4x4096x1024.Idx → EReal) (x0 : Vec Ideal S64x4096 .f32)
    (x1 x2 x3 : Vec Ideal S1x4096x128 .f32) (b : Fin 4) (p : Fin 8)
    (hQ : ∀ i, ∃ r : ℝ, Q i = (r : EReal)) (hK : ∀ i, ∃ r : ℝ, K i = (r : EReal))
    (h0 : asMat x0 = poolMat)
    (h1 : ∀ (n : Fin 4096) (c : Fin 128) (k : Fin 1024), k.val = p.val * 128 + c.val →
      x1 (ix3 (0 : Fin 1) n c) = Q (ix3 b n k))
    (h2 : ∀ (n : Fin 4096) (c : Fin 128) (k : Fin 1024), k.val = p.val * 128 + c.val →
      x2 (ix3 (0 : Fin 1) n c) = K (ix3 b n k))
    (h3 : ∀ (n : Fin 4096) (c : Fin 128) (k : Fin 1024), k.val = p.val * 128 + c.val →
      x3 (ix3 (0 : Fin 1) n c) = V' (ix3 b n k))
    (n : Fin 4096) (c : Fin 128) (k : Fin 1024) (hk : k.val = p.val * 128 + c.val) :
    out0_4 (F := Ideal) x0 x1 x2 x3 (ix3 (0 : Fin 1) n c) = G Q K V' (ix3 b n k) := by
  have hc := c.isLt; have hp := p.isLt
  obtain ⟨g, d, rfl⟩ : ∃ (g : Fin 2) (d : Fin 64), c = col g d :=
    ⟨⟨c.val / 64, by omega⟩, ⟨c.val % 64, Nat.mod_lt _ (by norm_num)⟩, Fin.ext (by
      show c.val = c.val / 64 * 64 + c.val % 64
      omega)⟩
  have hg := g.isLt; have hd := d.isLt
  have hh : 2 * p.val + g.val < 16 := by omega
  have hk' : k = chan ⟨2 * p.val + g.val, hh⟩ d := Fin.ext (by
    show k.val = (2 * p.val + g.val) * 64 + d.val
    rw [hk]
    show p.val * 128 + (g.val * 64 + d.val) = _
    omega)
  rw [hk', Kern.out_read, h0,
    blockOut_eq Q K V' x1 x2 x3 b ⟨2 * p.val + g.val, hh⟩ g hQ hK
      (fun n' d' => h1 n' (col g d') _ (by
        show (2 * p.val + g.val) * 64 + d'.val = p.val * 128 + (g.val * 64 + d'.val)
        omega))
      (fun n' d' => h2 n' (col g d') _ (by
        show (2 * p.val + g.val) * 64 + d'.val = p.val * 128 + (g.val * 64 + d'.val)
        omega))
      (fun n' d' => h3 n' (col g d') _ (by
        show (2 * p.val + g.val) * 64 + d'.val = p.val * 128 + (g.val * 64 + d'.val)
        omega)),
    G_apply]

/-- The same at a block index j and an array index i given by their coordinates. -/
theorem point_eq (Q K V' : S4x4096x1024.Idx → EReal) (x0 : Vec Ideal S64x4096 .f32)
    (x1 x2 x3 : Vec Ideal S1x4096x128 .f32) (b : Fin 4) (p : Fin 8)
    (hQ : ∀ i, ∃ r : ℝ, Q i = (r : EReal)) (hK : ∀ i, ∃ r : ℝ, K i = (r : EReal))
    (h0 : asMat x0 = poolMat)
    (h1 : ∀ (n : Fin 4096) (c : Fin 128) (k : Fin 1024), k.val = p.val * 128 + c.val →
      x1 (ix3 (0 : Fin 1) n c) = Q (ix3 b n k))
    (h2 : ∀ (n : Fin 4096) (c : Fin 128) (k : Fin 1024), k.val = p.val * 128 + c.val →
      x2 (ix3 (0 : Fin 1) n c) = K (ix3 b n k))
    (h3 : ∀ (n : Fin 4096) (c : Fin 128) (k : Fin 1024), k.val = p.val * 128 + c.val →
      x3 (ix3 (0 : Fin 1) n c) = V' (ix3 b n k))
    (j : S1x4096x128.Idx) (i : S4x4096x1024.Idx)
    (hi0 : (i 0).val = b.val) (hi1 : (i 1).val = (j 1).val) (hi2 : (i 2).val = p.val * 128 + (j 2).val) :
    out0_4 (F := Ideal) x0 x1 x2 x3 j = G Q K V' i := by
  obtain ⟨a, n, c, rfl⟩ : ∃ (a : Fin 1) (n : Fin 4096) (c : Fin 128), j = ix3 a n c := ⟨j 0, j 1, j 2, eq_ix3 j⟩
  obtain ⟨b', n', k, rfl⟩ : ∃ (b' : Fin 4) (n' : Fin 4096) (k : Fin 1024), i = ix3 b' n' k :=
    ⟨i 0, i 1, i 2, eq_ix3 i⟩
  obtain rfl : a = 0 := Subsingleton.elim _ _
  obtain rfl : b' = b := Fin.ext hi0
  obtain rfl : n' = n := Fin.ext hi1
  exact point_entry Q K V' x0 x1 x2 x3 b' p hQ hK h0 h1 h2 h3 n' c k hi2

/-! ### The write-backs, the cover and the run -/

/-- What point t writes back is the block of the result's formula at t's place, when the first two
    arguments hold reals. -/
theorem flushed_eq (c : Dev nD) (t : Fin cfg0.N)
    (hQ : ∀ i, ∃ r : ℝ, (m ((c : Thread nD τ).loc main_arg0) : S4x4096x1024.Idx → EReal) i = (r : EReal))
    (hK : ∀ i, ∃ r : ℝ, (m ((c : Thread nD τ).loc main_arg1) : S4x4096x1024.Idx → EReal) i = (r : EReal)) :
    (dats m 0 c).flushed 4 t = ((cfg0.win 4).blk t).view.read (Elt Ideal)
      (G (m ((c : Thread nD τ).loc main_arg0) : S4x4096x1024.Idx → EReal)
        (m ((c : Thread nD τ).loc main_arg1) : S4x4096x1024.Idx → EReal)
        (m ((c : Thread nD τ).loc main_arg2) : S4x4096x1024.Idx → EReal)) := by
  rw [Value.flushed4]
  obtain ⟨e00, e01, e10, e11, e12, e20, e21, e22, e30, e31, e32, e41, hb, hp⟩ := idx_facts t
  funext j
  show out0_4 (F := Ideal) (iblk m c 0 t) (iblk m c 1 t) (iblk m c 2 t) (iblk m c 3 t) j
    = G (m ((c : Thread nD τ).loc main_arg0) : S4x4096x1024.Idx → EReal)
        (m ((c : Thread nD τ).loc main_arg1) : S4x4096x1024.Idx → EReal)
        (m ((c : Thread nD τ).loc main_arg2) : S4x4096x1024.Idx → EReal) (((cfg0.win 4).blk t).view.emb j)
  have hj0 : (j 0).val < 1 := (j 0).isLt
  refine point_eq (m ((c : Thread nD τ).loc main_arg0) : S4x4096x1024.Idx → EReal)
    (m ((c : Thread nD τ).loc main_arg1) : S4x4096x1024.Idx → EReal)
    (m ((c : Thread nD τ).loc main_arg2) : S4x4096x1024.Idx → EReal)
    (iblk m c 0 t) (iblk m c 1 t) (iblk m c 2 t) (iblk m c 3 t)
    ⟨win0_4.index t (0 : Fin 3), hb⟩ ⟨win0_4.index t (2 : Fin 3), hp⟩ hQ hK ?_ ?_ ?_ ?_ j
    (((cfg0.win 4).blk t).view.emb j) ?_ ?_ ?_
  · rw [iblk0_eq]; exact pmat m c
  · intro n cc k hk
    have hk' : k.val = win0_4.index t (2 : Fin 3) * 128 + cc.val := hk
    exact iblk1_apply m c t (ix3 (0 : Fin 1) n cc) (ix3 ⟨win0_4.index t (0 : Fin 3), hb⟩ n k)
      (by show win0_4.index t (0 : Fin 3) = win0_1.index t (0 : Fin 3) * 1 + 0; omega)
      (by show n.val = win0_1.index t (1 : Fin 3) * 4096 + n.val; omega)
      (by show k.val = win0_1.index t (2 : Fin 3) * 128 + cc.val; omega)
  · intro n cc k hk
    have hk' : k.val = win0_4.index t (2 : Fin 3) * 128 + cc.val := hk
    exact iblk2_apply m c t (ix3 (0 : Fin 1) n cc) (ix3 ⟨win0_4.index t (0 : Fin 3), hb⟩ n k)
      (by show win0_4.index t (0 : Fin 3) = win0_2.index t (0 : Fin 3) * 1 + 0; omega)
      (by show n.val = win0_2.index t (1 : Fin 3) * 4096 + n.val; omega)
      (by show k.val = win0_2.index t (2 : Fin 3) * 128 + cc.val; omega)
  · intro n cc k hk
    have hk' : k.val = win0_4.index t (2 : Fin 3) * 128 + cc.val := hk
    exact iblk3_apply m c t (ix3 (0 : Fin 1) n cc) (ix3 ⟨win0_4.index t (0 : Fin 3), hb⟩ n k)
      (by show win0_4.index t (0 : Fin 3) = win0_3.index t (0 : Fin 3) * 1 + 0; omega)
      (by show n.val = win0_3.index t (1 : Fin 3) * 4096 + n.val; omega)
      (by show k.val = win0_3.index t (2 : Fin 3) * 128 + cc.val; omega)
  · show win0_4.index t (0 : Fin 3) * 1 + 1 * (j 0).val = win0_4.index t (0 : Fin 3); omega
  · show win0_4.index t (1 : Fin 3) * 4096 + 1 * (j 1).val = (j 1).val; omega
  · show win0_4.index t (2 : Fin 3) * 128 + 1 * (j 2).val = win0_4.index t (2 : Fin 3) * 128 + (j 2).val; omega

/-- An index of the result array lies in point t's block iff each coordinate lies in the block's range. -/
theorem mem_blk (t : Fin cfg0.N) (i : S4x4096x1024.Idx) :
    i ∈ ((cfg0.win 4).blk t).view.set ↔ ∀ a : Fin 3, win0_4.index t a * S1x4096x128.size a ≤ (i a).val
      ∧ (i a).val < win0_4.index t a * S1x4096x128.size a + S1x4096x128.size a := by
  show i ∈ ((View.whole main_v10).slice (win0_4.rect t)).set ↔ _
  rw [View.set_slice_whole, Rect.mem_set_unit]
  exact Iff.rfl

/-- Every index (b, n, k) of the result array lies in the block of the point with block index (b, 0, k / 128). -/
theorem cover (i : S4x4096x1024.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 2).val / 128, by omega⟩
  have q0 : win0_4.index t (0 : Fin 3) = (i 0).val := congrFun ht 0
  have q1 : win0_4.index t (1 : Fin 3) = 0 := congrFun ht 1
  have q2 : win0_4.index t (2 : Fin 3) = (i 2).val / 128 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 4096 ≤ (i 1).val ∧ (i 1).val < win0_4.index t (1 : Fin 3) * 4096 + 4096
    omega
  | ⟨2, _⟩ =>
    show win0_4.index t (2 : Fin 3) * 128 ≤ (i 2).val ∧ (i 2).val < win0_4.index t (2 : Fin 3) * 128 + 128
    omega

/-- The result array after the run is the formula of the three arguments. -/
theorem final (c : Dev nD)
    (hQ : ∀ i, ∃ r : ℝ, (m ((c : Thread nD τ).loc main_arg0) : S4x4096x1024.Idx → EReal) i = (r : EReal))
    (hK : ∀ i, ∃ r : ℝ, (m ((c : Thread nD τ).loc main_arg1) : S4x4096x1024.Idx → EReal) i = (r : EReal)) :
    (dats m 0 c).arrAt 4 cfg0.N
      = G (m ((c : Thread nD τ).loc main_arg0) : S4x4096x1024.Idx → EReal)
        (m ((c : Thread nD τ).loc main_arg1) : S4x4096x1024.Idx → EReal)
        (m ((c : Thread nD τ).loc main_arg2) : S4x4096x1024.Idx → EReal) :=
  (dats m 0 c).arrAt_eq_of_cover 4 _ (fun t _ => flushed_eq m c t hQ hK) (fun i => cover i)

/-- The kernel's run: it terminates, the result array holds the formula, the arguments are unchanged. -/
theorem run
    (hQ : ∀ (c : Dev nD) i, ∃ r : ℝ, (m ((c : Thread nD τ).loc main_arg0) : S4x4096x1024.Idx → EReal) i = (r : EReal))
    (hK : ∀ (c : Dev nD) i, ∃ r : ℝ, (m ((c : Thread nD τ).loc main_arg1) : S4x4096x1024.Idx → EReal) i = (r : EReal)) :
    θ_run (defs (F := Ideal)) (onTc (τ := τ) (main (F := Ideal))) ⟨m, fun _ => 0, ρ⟩ fun r => ∀ c : Dev nD,
      r.2.mem ((c : Thread nD τ).loc main_v10)
        = G (m ((c : Thread nD τ).loc main_arg0) : S4x4096x1024.Idx → EReal)
          (m ((c : Thread nD τ).loc main_arg1) : S4x4096x1024.Idx → EReal)
          (m ((c : Thread nD τ).loc main_arg2) : S4x4096x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hQ c) (hK c)), (h c).2⟩)
    (Value.run_blocks m ρ)

end Cert.Nys.Arr

end
-- ==== Proof.lean ====
/- Landmark attention: the kernel and the reference compute, at every entry (b, n, c) of the result, row n and
   column c mod 64 of (softmax(q klmᵀ) · Z) · (softmax(qlm kᵀ) · v) for head c / 64 of batch entry b.  The kernel scales
   the queries by the word of 1/8 and pools landmarks by a product with the matrix "1/64 on the segment"; the
   reference divides by the word of 8 and takes segment means; on finite inputs, which the precondition gives,
   these agree, so both result arrays are one function of the arguments. -/
import proofs.«128605_j74680891343409_2_alg».proof.Defs
import proofs.«128605_j74680891343409_2_alg».proof.Proof.Gen.Kernel
import proofs.«128605_j74680891343409_2_alg».proof.Proof.Gen.Kernel.Skeleton
import proofs.«128605_j74680891343409_2_alg».proof.Proof.Gen.Kernel.Launch
import proofs.«128605_j74680891343409_2_alg».proof.Proof.Gen.Kernel.Points
import proofs.«128605_j74680891343409_2_alg».proof.Proof.Gen.Kernel.Frame
import proofs.«128605_j74680891343409_2_alg».proof.Proof.Gen.KernelIdeal
import proofs.«128605_j74680891343409_2_alg».proof.Proof.Gen.KernelIdeal.Skeleton
import proofs.«128605_j74680891343409_2_alg».proof.Proof.Gen.KernelIdeal.Launch
import proofs.«128605_j74680891343409_2_alg».proof.Proof.Gen.KernelIdeal.Points
import proofs.«128605_j74680891343409_2_alg».proof.Proof.Gen.KernelIdeal.Frame
import proofs.«128605_j74680891343409_2_alg».proof.Proof.Gen.ReferenceIdeal
import proofs.«128605_j74680891343409_2_alg».proof.Proof.Gen.Pre_finite_inputs
import proofs.«128605_j74680891343409_2_alg».proof.Proof.Gen.KernelIdeal.Value
import proofs.«128605_j74680891343409_2_alg».proof.Proof.Gen.ReferenceIdeal.Run
import proofs.«128605_j74680891343409_2_alg».proof.Proof.NysSpec
import proofs.«128605_j74680891343409_2_alg».proof.Proof.NysLaws
import proofs.«128605_j74680891343409_2_alg».proof.Proof.Finite
import proofs.«128605_j74680891343409_2_alg».proof.Proof.KernRead
import proofs.«128605_j74680891343409_2_alg».proof.Proof.RefRead
import proofs.«128605_j74680891343409_2_alg».proof.Proof.KernArray
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the one function `Cert.Nys.G` of the argument arrays: the
    kernel block by block (its inputs real by the precondition), the reference by reading its operations. -/
theorem algebraic : Cert.algebraic_KernelIdeal_ReferenceIdeal := by
  intro m ρ m' ρ' hpre hagree
  have hfin := fun c => Cert.Nys.Finite.reals _ _ _ (hpre c)
  refine ⟨fun c => Cert.Nys.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Nys.Arr.run m ρ (fun c => (hfin c).1) (fun c => (hfin c).2.1), ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val4_main_v196 (StableHlo.launchContents m' c)).symm.trans
    (Cert.Nys.Ref.result_eq (StableHlo.launchContents m' c))).trans ?_
  show Cert.Nys.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
